-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x18 : Shape := ⟨2, ![100000, 18]⟩
abbrev S2x1280000 : Shape := ⟨2, ![2, 1280000]⟩
abbrev S18x32 : Shape := ⟨2, ![18, 32]⟩
abbrev S32 : Shape := ⟨1, ![32]⟩
abbrev S32x64 : Shape := ⟨2, ![32, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x18 : S_.BroadcastsInDim S100000x18 (![] : Fin 0 → Fin S100000x18.rank)
  reducesTo_S100000x18_S_d0_1 : S100000x18.ReducesTo [0, 1] S_
  h_S_ : 0 < S_.numel
  bcast_S_S18x32 : S_.BroadcastsInDim S18x32 (![] : Fin 0 → Fin S18x32.rank)
  reducesTo_S18x32_S_d0_1 : S18x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S64 .f32) (main_arg6 : FVec F S64x2 .f32) (main_arg7 : FVec F S2 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg6
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x18 .f32) (main_arg1 : IVec S2x1280000 32) (main_arg2 : FVec F S18x32 .f32) (main_arg3 : FVec F S32 .f32) (main_arg4 : FVec F S32x64 .f32) (main_arg5 : FVec F S64 .f32) (main_arg6 : FVec F S64x2 .f32) (main_arg7 : FVec F S2 .f32) : IVec S_ 1 :=
  let main_v0 : FVec F S100000x18 .f32 := Host.absf main_arg0
  let main_cst : FVec F S_ .f32 := constant S_ .f32 0x7F800000#32
  let main_v1 : FVec F S100000x18 .f32 := broadcastInDim S100000x18 ![] bcast_S_S100000x18 main_cst
  let main_v2 : IVec S100000x18 1 := cmpf .olt main_v0 main_v1
  let main_c : IVec S_ 1 := constantI S_ 1 1#1
  let main_v3 : IVec S_ 1 := (fun x v => Host.reduce IntOp.andi x v reducesTo_S100000x18_S_d0_1 h_S_) main_v2 main_c
  let main_v4 : FVec F S18x32 .f32 := Host.absf main_arg2
  let main_cst_0 : FVec F S_ .f32 := constant S_ .f32 0x7F800000#32
  let main_v5 : FVec F S18x32 .f32 := broadcastInDim S18x32 ![] bcast_S_S18x32 main_cst_0
  let main_v6 : IVec S18x32 1 := cmpf .olt main_v4 main_v5
  let main_c_1 : IVec S_ 1 := constantI S_ 1 1#1
  let main_v7 : IVec S_ 1 := (fun x v => Host.reduce IntOp.andi x v reducesTo_S18x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg5 main_arg6 main_arg7 main_v13 main_v16
-- ==== Kernel.lean ====
abbrev S100000x18 : Shape := ⟨2, ![100000, 18]⟩
abbrev S2x1280000 : Shape := ⟨2, ![2, 1280000]⟩
abbrev S18x32 : Shape := ⟨2, ![18, 32]⟩
abbrev S32 : Shape := ⟨1, ![32]⟩
abbrev S32x64 : Shape := ⟨2, ![32, 64]⟩
abbrev S64 : Shape := ⟨1, ![64]⟩
abbrev S64x2 : Shape := ⟨2, ![64, 2]⟩
abbrev S2 : Shape := ⟨1, ![2]⟩
abbrev S100000 : Shape := ⟨1, ![100000]⟩
abbrev S1x1280000 : Shape := ⟨2, ![1, 1280000]⟩
abbrev S1280000 : Shape := ⟨1, ![1280000]⟩
abbrev S1380000 : Shape := ⟨1, ![1380000]⟩
abbrev S_ : Shape := ⟨0, ![]⟩
abbrev S1380000x1 : Shape := ⟨2, ![1380000, 1]⟩
abbrev S100000x32 : Shape := ⟨2, ![100000, 32]⟩
abbrev S5000x18 : Shape := ⟨2, ![5000, 18]⟩
abbrev S5000x32 : Shape := ⟨2, ![5000, 32]⟩
abbrev S1380000x32 : Shape := ⟨2, ![1380000, 32]⟩
abbrev S1x32 : Shape := ⟨2, ![1, 32]⟩
abbrev S100000x64 : Shape := ⟨2, ![100000, 64]⟩
abbrev S5000x64 : Shape := ⟨2, ![5000, 64]⟩
abbrev S1380000x64 : Shape := ⟨2, ![1380000, 64]⟩
abbrev S1x64 : Shape := ⟨2, ![1, 64]⟩
abbrev S1x2 : Shape := ⟨2, ![1, 2]⟩
abbrev S100000x2 : Shape := ⟨2, ![100000, 2]⟩
abbrev S5000x2 : Shape := ⟨2, ![5000, 2]⟩
abbrev S5000 : Shape := ⟨1, ![5000]⟩
abbrev S5000x1 : Shape := ⟨2, ![5000, 1]⟩

abbrev nBuf : Space → Nat
  | .hbm => 86
  | .vmem => 18
  | .smem => 0
  | _ => 0

abbrev bufTy : (tb : Table) → Fin (tcTables nBuf tb) → BufTy
  | .hbm, ⟨0, _⟩ => ⟨S100000x18, .f32⟩
  | .hbm, ⟨1, _⟩ => ⟨S2x1280000, .i32⟩
  | .hbm, ⟨2, _⟩ => ⟨S18x32, .f32⟩
  | .hbm, ⟨3, _⟩ => ⟨S32, .f32⟩
  | .hbm, ⟨4, _⟩ => ⟨S32x64, .f32⟩
  | .hbm, ⟨5, _⟩ => ⟨S64, .f32⟩
  | .hbm, ⟨6, _⟩ => ⟨S64x2, .f32⟩
  | .hbm, ⟨7, _⟩ => ⟨S2, .f32⟩
  | .hbm, ⟨8, _⟩ => ⟨S100000, .i32⟩
  | .hbm, ⟨9, _⟩ => ⟨S1x1280000, .i32⟩
  | .hbm, ⟨10, _⟩ => ⟨S1280000, .i32⟩
  | .hbm, ⟨11, _⟩ => ⟨S1380000, .i32⟩
  | .hbm, ⟨12, _⟩ => ⟨S1x1280000, .i32⟩
  | .hbm, ⟨13, _⟩ => ⟨S1280000, .i32⟩
  | .hbm, ⟨14, _⟩ => ⟨S1380000, .i32⟩
  | .hbm, ⟨15, _⟩ => ⟨S_, .f32⟩
  | .hbm, ⟨16, _⟩ => ⟨S1380000, .f32⟩
  | .hbm, ⟨17, _⟩ => ⟨S_, .f32⟩
  | .hbm, ⟨18, _⟩ => ⟨S100000, .f32⟩
  | .hbm, ⟨19, _⟩ => ⟨S1380000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1380000, .i32⟩
  | .hbm, ⟨31, _⟩ => ⟨S1380000, .i1⟩
  | .hbm, ⟨32, _⟩ => ⟨S_, .i32⟩
  | .hbm, ⟨33, _⟩ => ⟨S1380000, .i32⟩
  | .hbm, ⟨34, _⟩ => ⟨S1380000, .i32⟩
  | .hbm, ⟨35, _⟩ => ⟨S1380000, .i32⟩
  | .hbm, ⟨36, _⟩ => ⟨S1380000x1, .i32⟩
  | .hbm, ⟨37, _⟩ => ⟨S1380000, .f32⟩
  | .hbm, ⟨38, _⟩ => ⟨S_, .i32⟩
  | .hbm, ⟨39, _⟩ => ⟨S1380000, .i32⟩
  | .hbm, ⟨40, _⟩ => ⟨S1380000, .i1⟩
  | .hbm, ⟨41, _⟩ => ⟨S_, .i32⟩
  | .hbm, ⟨42, _⟩ => ⟨S1380000, .i32⟩
  | .hbm, ⟨43, _⟩ => ⟨S1380000, .i32⟩
  | .hbm, ⟨44, _⟩ => ⟨S1380000, .i32⟩
  | .hbm, ⟨45, _⟩ => ⟨S1380000x1, .i32⟩
  | .hbm, ⟨46, _⟩ => ⟨S1380000, .f32⟩
  | .hbm, ⟨47, _⟩ => ⟨S1380000, .f32⟩
  | .hbm, ⟨48, _⟩ => ⟨S100000x32, .f32⟩
  | .hbm, ⟨49, _⟩ => ⟨S_, .i32⟩
  | .hbm, ⟨50, _⟩ => ⟨S1380000, .i32⟩
  | .hbm, ⟨51, _⟩ => ⟨S1380000, .i1⟩
  | .hbm, ⟨52, _⟩ => ⟨S_, .i32⟩
  | .hbm, ⟨53, _⟩ => ⟨S1380000, .i32⟩
  | .hbm, ⟨54, _⟩ => ⟨S1380000, .i32⟩
  | .hbm, ⟨55, _⟩ => ⟨S1380000, .i32⟩
  | .hbm, ⟨56, _⟩ => ⟨S1380000x1, .i32⟩
  | .hbm, ⟨57, _⟩ => ⟨S1380000x32, .f32⟩
  | .hbm, ⟨58, _⟩ => ⟨S1380000x1, .f32⟩
  | .hbm, ⟨59, _⟩ => ⟨S1380000x32, .f32⟩
  | .hbm, ⟨60, _⟩ => ⟨S1380000x32, .f32⟩
  | .hbm, ⟨61, _⟩ => ⟨S_, .f32⟩
  | .hbm, ⟨62, _⟩ => ⟨S100000x32, .f32⟩
  | .hbm, ⟨63, _⟩ => ⟨S1380000x1, .i32⟩
  | .hbm, ⟨64, _⟩ => ⟨S100000x32, .f32⟩
  | .hbm, ⟨65, _⟩ => ⟨S1x32, .f32⟩
  | .hbm, ⟨66, _⟩ => ⟨S100000x64, .f32⟩
  | .hbm, ⟨67, _⟩ => ⟨S_, .i32⟩
  | .hbm, ⟨68, _⟩ => ⟨S1380000, .i32⟩
  | .hbm, ⟨69, _⟩ => ⟨S1380000, .i1⟩
  | .hbm, ⟨70, _⟩ => ⟨S_, .i32⟩
  | .hbm, ⟨71, _⟩ => ⟨S1380000, .i32⟩
  | .hbm, ⟨72, _⟩ => ⟨S1380000, .i32⟩
  | .hbm, ⟨73, _⟩ => ⟨S1380000, .i32⟩
  | .hbm, ⟨74, _⟩ => ⟨S1380000x1, .i32⟩
  | .hbm, ⟨75, _⟩ => ⟨S1380000x64, .f32⟩
  | .hbm, ⟨76, _⟩ => ⟨S1380000x1, .f32⟩
  | .hbm, ⟨77, _⟩ => ⟨S1380000x64, .f32⟩
  | .hbm, ⟨78, _⟩ => ⟨S1380000x64, .f32⟩
  | .hbm, ⟨79, _⟩ => ⟨S_, .f32⟩
  | .hbm, ⟨80, _⟩ => ⟨S100000x64, .f32⟩
  | .hbm, ⟨81, _⟩ => ⟨S1380000x1, .i32⟩
  | .hbm, ⟨82, _⟩ => ⟨S100000x64, .f32⟩
  | .hbm, ⟨83, _⟩ => ⟨S1x64, .f32⟩
  | .hbm, ⟨84, _⟩ => ⟨S1x2, .f32⟩
  | .hbm, ⟨85, _⟩ => ⟨S100000x2, .f32⟩
  | .local _ .vmem, ⟨0, _⟩ => ⟨S5000x18, .f32⟩
  | .local _ .vmem, ⟨1, _⟩ => ⟨S5000x18, .f32⟩
  | .local _ .vmem, ⟨2, _⟩ => ⟨S18x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S1x32, .f32⟩
  | .local _ .vmem, ⟨8, _⟩ => ⟨S32x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S64x2, .f32⟩
  | .local _ .vmem, ⟨15, _⟩ => ⟨S1x2, .f32⟩
  | .local _ .vmem, ⟨16, _⟩ => ⟨S5000x2, .f32⟩
  | .local _ .vmem, ⟨17, _⟩ => ⟨S5000x2, .f32⟩
  | _, _ => ⟨S100000x18, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x18 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S18x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1280000_S1x1280000_0_0 : S2x1280000.Slices ![0, 0] S1x1280000
  shapeCasts_S1x1280000_S1280000 : S1x1280000.ShapeCasts S1280000
  concatenates_S1280000_S100000_S1380000_d0 : Shape.Concatenates [S1280000, S100000] S1380000 0
  slices_S2x1280000_S1x1280000_1_0 : S2x1280000.Slices ![1, 0] S1x1280000
  bcast_S_S1380000 : S_.BroadcastsInDim S1380000 (![] : Fin 0 → Fin S1380000.rank)
  bcast_S_S100000 : S_.BroadcastsInDim S100000 (![] : Fin 0 → Fin S100000.rank)
  bcast_S1380000_S1380000x1_0 : S1380000.BroadcastsInDim S1380000x1 (![0] : Fin 1 → Fin S1380000x1.rank)
  inb_S5000x18_S5000x18_0_0 : ∀ a, (![0, 0] : Fin 2 → Nat) a + S5000x18.size a ≤ S5000x18.size a
  h_S5000x18 : 0 < S5000x18.numel
  bitsLt_bf16_f32 : FTy.bits .bf16 < FTy.bits .f32
  inb_S18x32_S18x32_0_0 : ∀ a, (![0, 0] : Fin 2 → Nat) a + S18x32.size a ≤ S18x32.size a
  h_S18x32 : 0 < S18x32.numel
  inb_S5000x32_S5000x32_0_0 : ∀ a, (![0, 0] : Fin 2 → Nat) a + S5000x32.size a ≤ S5000x32.size a
  h_S5000x32 : 0 < S5000x32.numel
  bcast_S1380000x1_S1380000x32_0_1 : S1380000x1.BroadcastsInDim S1380000x32 (![0, 1] : Fin 2 → Fin S1380000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x64_S32x64_0_0 : ∀ a, (![0, 0] : Fin 2 → Nat) a + S32x64.size a ≤ S32x64.size a
  h_S32x64 : 0 < S32x64.numel
  inb_S5000x64_S5000x64_0_0 : ∀ a, (![0, 0] : Fin 2 → Nat) a + S5000x64.size a ≤ S5000x64.size a
  h_S5000x64 : 0 < S5000x64.numel
  bcast_S1380000x1_S1380000x64_0_1 : S1380000x1.BroadcastsInDim S1380000x64 (![0, 1] : Fin 2 → Fin S1380000x64.rank)
  bcast_S_S100000x64 : S_.BroadcastsInDim S100000x64 (![] : Fin 0 → Fin S100000x64.rank)
  shapeCasts_S64_S1x64 : S64.ShapeCasts S1x64
  shapeCasts_S2_S1x2 : S2.ShapeCasts S1x2
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  broadcasts_S5000x1_S5000x2 : S5000x1.Broadcasts S5000x2
  inb_S5000x2_S5000x2_0_0 : ∀ a, (![0, 0] : Fin 2 → Nat) a + S5000x2.size a ≤ S5000x2.size a
  h_S5000x2 : 0 < S5000x2.numel
  scatter_S100000_S1380000x1_S1380000_n_0_0_1_wf : ScatterDims.WF S100000 S1380000x1 S1380000 [] [0] [0] 1
  gather_S100000_S1380000x1_S1380000_n_0_n_n_0_1_1_wf : GatherDims.WF S100000 S1380000x1 S1380000 [] [0] [] [0] [] 1 ![1]
  dot_S5000x18_S18x32_S5000x32_1_0_0_1_n_n_wf : DotDims.WF S5000x18 S18x32 S5000x32 [1] [0] [0] [1] [] []
  gather_S100000x32_S1380000x1_S1380000x32_1_0_n_n_0_1_132_wf : GatherDims.WF S100000x32 S1380000x1 S1380000x32 [1] [0] [] [0] [] 1 ![1, 32]
  scatter_S100000x32_S1380000x1_S1380000x32_1_0_0_1_wf : ScatterDims.WF S100000x32 S1380000x1 S1380000x32 [1] [0] [0] 1
  dot_S5000x32_S32x64_S5000x64_1_0_0_1_n_n_wf : DotDims.WF S5000x32 S32x64 S5000x64 [1] [0] [0] [1] [] []
  gather_S100000x64_S1380000x1_S1380000x64_1_0_n_n_0_1_164_wf : GatherDims.WF S100000x64 S1380000x1 S1380000x64 [1] [0] [] [0] [] 1 ![1, 64]
  scatter_S100000x64_S1380000x1_S1380000x64_1_0_0_1_wf : ScatterDims.WF S100000x64 S1380000x1 S1380000x64 [1] [0] [0] 1
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x18.size a ≤ S100000x18.size a
  hwx0_0 : ∀ i : grid0.Coords, EltTy.bits .f32 = 32 ∨ (Rect.block (s := S100000x18) S5000x18.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S18x32.size a ≤ S18x32.size a
  hwx0_1 : ∀ i : grid0.Coords, EltTy.bits .f32 = 32 ∨ (Rect.block (s := S18x32) S18x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x2.size a ≤ S64x2.size a
  hwx2_2 : ∀ i : grid2.Coords, EltTy.bits .f32 = 32 ∨ (Rect.block (s := S64x2) S64x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2.size a ≤ S1x2.size a
  hwx2_3 : ∀ i : grid2.Coords, EltTy.bits .f32 = 32 ∨ (Rect.block (s := S1x2) S1x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x2.size a ≤ S100000x2.size a
  hwx2_4 : ∀ i : grid2.Coords, EltTy.bits .f32 = 32 ∨ (Rect.block (s := S100000x2) S5000x2.size (cc2_transform_4 i) (hinb2_4 i)).WholeWords (EltTy.packing .f32)

variable [Facts₀]

def scatter_S100000_S1380000x1_S1380000_n_0_0_1 : ScatterDims S100000 S1380000x1 S1380000 where
  updateWindowDims := []
  insertedWindowDims := [0]
  scatterDimsToOperandDims := [0]
  indexVectorDim := 1
  wf := scatter_S100000_S1380000x1_S1380000_n_0_0_1_wf
def gather_S100000_S1380000x1_S1380000_n_0_n_n_0_1_1 : GatherDims S100000 S1380000x1 S1380000 where
  offsetDims := []
  collapsedSliceDims := [0]
  operandBatchingDims := []
  startIndicesBatchingDims := []
  startIndexMap := [0]
  indexVectorDim := 1
  sliceSizes := ![1]
  wf := gather_S100000_S1380000x1_S1380000_n_0_n_n_0_1_1_wf
def dot_S5000x18_S18x32_S5000x32_1_0_0_1_n_n : DotDims S5000x18 S18x32 S5000x32 where
  lhsContracting := [1]
  rhsContracting := [0]
  lhsNonContracting := [0]
  rhsNonContracting := [1]
  lhsBatch := []
  rhsBatch := []
  wf := dot_S5000x18_S18x32_S5000x32_1_0_0_1_n_n_wf
def gather_S100000x32_S1380000x1_S1380000x32_1_0_n_n_0_1_132 : GatherDims S100000x32 S1380000x1 S1380000x32 where
  offsetDims := [1]
  collapsedSliceDims := [0]
  operandBatchingDims := []
  startIndicesBatchingDims := []
  startIndexMap := [0]
  indexVectorDim := 1
  sliceSizes := ![1, 32]
  wf := gather_S100000x32_S1380000x1_S1380000x32_1_0_n_n_0_1_132_wf
def scatter_S100000x32_S1380000x1_S1380000x32_1_0_0_1 : ScatterDims S100000x32 S1380000x1 S1380000x32 where
  updateWindowDims := [1]
  insertedWindowDims := [0]
  scatterDimsToOperandDims := [0]
  indexVectorDim := 1
  wf := scatter_S100000x32_S1380000x1_S1380000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1380000x1_S1380000x64_1_0_n_n_0_1_164 : GatherDims S100000x64 S1380000x1 S1380000x64 where
  offsetDims := [1]
  collapsedSliceDims := [0]
  operandBatchingDims := []
  startIndicesBatchingDims := []
  startIndexMap := [0]
  indexVectorDim := 1
  sliceSizes := ![1, 64]
  wf := gather_S100000x64_S1380000x1_S1380000x64_1_0_n_n_0_1_164_wf
def scatter_S100000x64_S1380000x1_S1380000x64_1_0_0_1 : ScatterDims S100000x64 S1380000x1 S1380000x64 where
  updateWindowDims := [1]
  insertedWindowDims := [0]
  scatterDimsToOperandDims := [0]
  indexVectorDim := 1
  wf := scatter_S100000x64_S1380000x1_S1380000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x18.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S18x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S5000x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x18 : Shape := ⟨2, ![100000, 18]⟩
abbrev S2x1280000 : Shape := ⟨2, ![2, 1280000]⟩
abbrev S18x32 : Shape := ⟨2, ![18, 32]⟩
abbrev S32 : Shape := ⟨1, ![32]⟩
abbrev S32x64 : Shape := ⟨2, ![32, 64]⟩
abbrev S64 : Shape := ⟨1, ![64]⟩
abbrev S64x2 : Shape := ⟨2, ![64, 2]⟩
abbrev S2 : Shape := ⟨1, ![2]⟩
abbrev S100000 : Shape := ⟨1, ![100000]⟩
abbrev S1x1280000 : Shape := ⟨2, ![1, 1280000]⟩
abbrev S1280000 : Shape := ⟨1, ![1280000]⟩
abbrev S1380000 : Shape := ⟨1, ![1380000]⟩
abbrev S_ : Shape := ⟨0, ![]⟩
abbrev S1380000x1 : Shape := ⟨2, ![1380000, 1]⟩
abbrev S100000x32 : Shape := ⟨2, ![100000, 32]⟩
abbrev S1380000x32 : Shape := ⟨2, ![1380000, 32]⟩
abbrev S1x32 : Shape := ⟨2, ![1, 32]⟩
abbrev S100000x64 : Shape := ⟨2, ![100000, 64]⟩
abbrev S1380000x64 : Shape := ⟨2, ![1380000, 64]⟩
abbrev S1x64 : Shape := ⟨2, ![1, 64]⟩
abbrev S100000x2 : Shape := ⟨2, ![100000, 2]⟩
abbrev S1x2 : Shape := ⟨2, ![1, 2]⟩
abbrev S100000x1 : Shape := ⟨2, ![100000, 1]⟩

abbrev nBuf : Space → Nat
  | .hbm => 146
  | .vmem => 0
  | .smem => 0
  | _ => 0

abbrev hbmTy0_0 (i : Nat) : BufTy := match i % 128 with
  | 0 => ⟨S100000x18, .f32⟩
  | 1 => ⟨S2x1280000, .i32⟩
  | 2 => ⟨S18x32, .f32⟩
  | 3 => ⟨S32, .f32⟩
  | 4 => ⟨S32x64, .f32⟩
  | 5 => ⟨S64, .f32⟩
  | 6 => ⟨S64x2, .f32⟩
  | 7 => ⟨S2, .f32⟩
  | 8 => ⟨S100000, .i32⟩
  | 9 => ⟨S1x1280000, .i32⟩
  | 10 => ⟨S1280000, .i32⟩
  | 11 => ⟨S1380000, .i32⟩
  | 12 => ⟨S1x1280000, .i32⟩
  | 13 => ⟨S1280000, .i32⟩
  | 14 => ⟨S1380000, .i32⟩
  | 15 => ⟨S_, .f32⟩
  | 16 => ⟨S1380000, .f32⟩
  | 17 => ⟨S_, .f32⟩
  | 18 => ⟨S100000, .f32⟩
  | 19 => ⟨S1380000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1380000, .i32⟩
  | 31 => ⟨S1380000, .i1⟩
  | 32 => ⟨S_, .i32⟩
  | 33 => ⟨S1380000, .i32⟩
  | 34 => ⟨S1380000, .i32⟩
  | 35 => ⟨S1380000, .i32⟩
  | 36 => ⟨S1380000x1, .i32⟩
  | 37 => ⟨S1380000, .f32⟩
  | 38 => ⟨S_, .i32⟩
  | 39 => ⟨S1380000, .i32⟩
  | 40 => ⟨S1380000, .i1⟩
  | 41 => ⟨S_, .i32⟩
  | 42 => ⟨S1380000, .i32⟩
  | 43 => ⟨S1380000, .i32⟩
  | 44 => ⟨S1380000, .i32⟩
  | 45 => ⟨S1380000x1, .i32⟩
  | 46 => ⟨S1380000, .f32⟩
  | 47 => ⟨S1380000, .f32⟩
  | 48 => ⟨S100000x32, .f32⟩
  | 49 => ⟨S_, .i32⟩
  | 50 => ⟨S1380000, .i32⟩
  | 51 => ⟨S1380000, .i1⟩
  | 52 => ⟨S_, .i32⟩
  | 53 => ⟨S1380000, .i32⟩
  | 54 => ⟨S1380000, .i32⟩
  | 55 => ⟨S1380000, .i32⟩
  | 56 => ⟨S1380000x1, .i32⟩
  | 57 => ⟨S1380000x32, .f32⟩
  | 58 => ⟨S1380000x1, .f32⟩
  | 59 => ⟨S1380000x32, .f32⟩
  | 60 => ⟨S1380000x32, .f32⟩
  | 61 => ⟨S_, .f32⟩
  | 62 => ⟨S100000x32, .f32⟩
  | 63 => ⟨S1380000x1, .i32⟩
  | 64 => ⟨S100000x32, .f32⟩
  | 65 => ⟨S1x32, .f32⟩
  | 66 => ⟨S100000x32, .f32⟩
  | 67 => ⟨S100000x32, .f32⟩
  | 68 => ⟨S_, .f32⟩
  | 69 => ⟨S100000x32, .f32⟩
  | 70 => ⟨S100000x32, .f32⟩
  | 71 => ⟨S_, .f32⟩
  | 72 => ⟨S1380000, .f32⟩
  | 73 => ⟨S_, .f32⟩
  | 74 => ⟨S100000, .f32⟩
  | 75 => ⟨S1380000x1, .i32⟩
  | 76 => ⟨S100000, .f32⟩
  | 77 => ⟨S_, .f32⟩
  | 78 => ⟨S100000, .f32⟩
  | 79 => ⟨S100000, .i1⟩
  | 80 => ⟨S100000, .f32⟩
  | 81 => ⟨S_, .f32⟩
  | 82 => ⟨S_, .f32⟩
  | 83 => ⟨S100000, .f32⟩
  | 84 => ⟨S100000, .f32⟩
  | 85 => ⟨S_, .i32⟩
  | 86 => ⟨S1380000, .i32⟩
  | 87 => ⟨S1380000, .i1⟩
  | 88 => ⟨S_, .i32⟩
  | 89 => ⟨S1380000, .i32⟩
  | 90 => ⟨S1380000, .i32⟩
  | 91 => ⟨S1380000, .i32⟩
  | 92 => ⟨S1380000x1, .i32⟩
  | 93 => ⟨S1380000, .f32⟩
  | 94 => ⟨S_, .i32⟩
  | 95 => ⟨S1380000, .i32⟩
  | 96 => ⟨S1380000, .i1⟩
  | 97 => ⟨S_, .i32⟩
  | 98 => ⟨S1380000, .i32⟩
  | 99 => ⟨S1380000, .i32⟩
  | 100 => ⟨S1380000, .i32⟩
  | 101 => ⟨S1380000x1, .i32⟩
  | 102 => ⟨S1380000, .f32⟩
  | 103 => ⟨S1380000, .f32⟩
  | 104 => ⟨S100000x64, .f32⟩
  | 105 => ⟨S_, .i32⟩
  | 106 => ⟨S1380000, .i32⟩
  | 107 => ⟨S1380000, .i1⟩
  | 108 => ⟨S_, .i32⟩
  | 109 => ⟨S1380000, .i32⟩
  | 110 => ⟨S1380000, .i32⟩
  | 111 => ⟨S1380000, .i32⟩
  | 112 => ⟨S1380000x1, .i32⟩
  | 113 => ⟨S1380000x64, .f32⟩
  | 114 => ⟨S1380000x1, .f32⟩
  | 115 => ⟨S1380000x64, .f32⟩
  | 116 => ⟨S1380000x64, .f32⟩
  | 117 => ⟨S_, .f32⟩
  | 118 => ⟨S100000x64, .f32⟩
  | 119 => ⟨S1380000x1, .i32⟩
  | 120 => ⟨S100000x64, .f32⟩
  | 121 => ⟨S1x64, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S100000x2, .f32⟩
  | _ => ⟨S100000x18, .f32⟩

abbrev hbmTy0_1 (i : Nat) : BufTy := match i % 128 with
  | 0 => ⟨S1x2, .f32⟩
  | 1 => ⟨S100000x2, .f32⟩
  | 2 => ⟨S100000x2, .f32⟩
  | 3 => ⟨S_, .f32⟩
  | 4 => ⟨S100000, .f32⟩
  | 5 => ⟨S_, .f32⟩
  | 6 => ⟨S100000, .f32⟩
  | 7 => ⟨S100000, .f32⟩
  | 8 => ⟨S100000x1, .f32⟩
  | 9 => ⟨S100000x2, .f32⟩
  | 10 => ⟨S100000x2, .f32⟩
  | 11 => ⟨S100000x2, .f32⟩
  | 12 => ⟨S_, .f32⟩
  | 13 => ⟨S100000, .f32⟩
  | 14 => ⟨S100000x1, .f32⟩
  | 15 => ⟨S100000x1, .f32⟩
  | 16 => ⟨S100000x2, .f32⟩
  | 17 => ⟨S100000x2, .f32⟩
  | _ => ⟨S100000x18, .f32⟩

abbrev hbmTy (i : Nat) : BufTy := match i / 128 with
  | 0 => hbmTy0_0 i
  | 1 => hbmTy0_1 i
  | _ => ⟨S100000x18, .f32⟩

abbrev bufTy : (tb : Table) → Fin (tcTables nBuf tb) → BufTy
  | .hbm, ⟨i, _⟩ => hbmTy i
  | _, _ => ⟨S100000x18, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_call2_v0 : Ref sig .tc := ⟨.hbm, 82, rfl⟩
abbrev main_call2_v1 : Ref sig .tc := ⟨.hbm, 83, rfl⟩
abbrev main_v55 : Ref sig .tc := ⟨.hbm, 84, rfl⟩
abbrev main_c_13 : Ref sig .tc := ⟨.hbm, 85, rfl⟩
abbrev main_v56 : Ref sig .tc := ⟨.hbm, 86, rfl⟩
abbrev main_v57 : Ref sig .tc := ⟨.hbm, 87, rfl⟩
abbrev main_c_14 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_15 : Ref sig .tc := ⟨.hbm, 94, rfl⟩
abbrev main_v63 : Ref sig .tc := ⟨.hbm, 95, rfl⟩
abbrev main_v64 : Ref sig .tc := ⟨.hbm, 96, rfl⟩
abbrev main_c_16 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call3_cst : Ref sig .tc := ⟨.hbm, 124, rfl⟩
abbrev main_call3_v0 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_call4_cst : Ref sig .tc := ⟨.hbm, 131, rfl⟩
abbrev main_call4_v0 : Ref sig .tc := ⟨.hbm, 132, rfl⟩
abbrev main_call4_cst_0 : Ref sig .tc := ⟨.hbm, 133, rfl⟩
abbrev main_call4_v1 : Ref sig .tc := ⟨.hbm, 134, rfl⟩
abbrev main_call4_v2 : Ref sig .tc := ⟨.hbm, 135, rfl⟩
abbrev main_call4_v3 : Ref sig .tc := ⟨.hbm, 136, rfl⟩
abbrev main_call4_v4 : Ref sig .tc := ⟨.hbm, 137, rfl⟩
abbrev main_call4_v5 : Ref sig .tc := ⟨.hbm, 138, rfl⟩
abbrev main_call4_v6 : Ref sig .tc := ⟨.hbm, 139, rfl⟩
abbrev main_call4_cst_1 : Ref sig .tc := ⟨.hbm, 140, rfl⟩
abbrev main_call4_v7 : Ref sig .tc := ⟨.hbm, 141, rfl⟩
abbrev main_call4_v8 : Ref sig .tc := ⟨.hbm, 142, rfl⟩
abbrev main_call4_v9 : Ref sig .tc := ⟨.hbm, 143, rfl⟩
abbrev main_call4_v10 : Ref sig .tc := ⟨.hbm, 144, rfl⟩
abbrev main_v93 : Ref sig .tc := ⟨.hbm, 145, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  concatenates_S1280000_S100000_S1380000_d0 : Shape.Concatenates [S1280000, S100000] S1380000 0
  slices_S2x1280000_S1x1280000_1_0 : S2x1280000.Slices ![1, 0] S1x1280000
  bcast_S_S1380000 : S_.BroadcastsInDim S1380000 (![] : Fin 0 → Fin S1380000.rank)
  bcast_S_S100000 : S_.BroadcastsInDim S100000 (![] : Fin 0 → Fin S100000.rank)
  bcast_S1380000_S1380000x1_0 : S1380000.BroadcastsInDim S1380000x1 (![0] : Fin 1 → Fin S1380000x1.rank)
  bcast_S1380000x1_S1380000x32_0_1 : S1380000x1.BroadcastsInDim S1380000x32 (![0, 1] : Fin 2 → Fin S1380000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1380000x1_S1380000x64_0_1 : S1380000x1.BroadcastsInDim S1380000x64 (![0, 1] : Fin 2 → Fin S1380000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S1380000x1_S1380000_n_0_0_1_wf : ScatterDims.WF S100000 S1380000x1 S1380000 [] [0] [0] 1
  gather_S100000_S1380000x1_S1380000_n_0_n_n_0_1_1_wf : GatherDims.WF S100000 S1380000x1 S1380000 [] [0] [] [0] [] 1 ![1]
  dot_S100000x18_S18x32_S100000x32_1_0_0_1_n_n_wf : DotDims.WF S100000x18 S18x32 S100000x32 [1] [0] [0] [1] [] []
  gather_S100000x32_S1380000x1_S1380000x32_1_0_n_n_0_1_132_wf : GatherDims.WF S100000x32 S1380000x1 S1380000x32 [1] [0] [] [0] [] 1 ![1, 32]
  scatter_S100000x32_S1380000x1_S1380000x32_1_0_0_1_wf : ScatterDims.WF S100000x32 S1380000x1 S1380000x32 [1] [0] [0] 1
  dot_S100000x32_S32x64_S100000x64_1_0_0_1_n_n_wf : DotDims.WF S100000x32 S32x64 S100000x64 [1] [0] [0] [1] [] []
  gather_S100000x64_S1380000x1_S1380000x64_1_0_n_n_0_1_164_wf : GatherDims.WF S100000x64 S1380000x1 S1380000x64 [1] [0] [] [0] [] 1 ![1, 64]
  scatter_S100000x64_S1380000x1_S1380000x64_1_0_0_1_wf : ScatterDims.WF S100000x64 S1380000x1 S1380000x64 [1] [0] [0] 1
  dot_S100000x64_S64x2_S100000x2_1_0_0_1_n_n_wf : DotDims.WF S100000x64 S64x2 S100000x2 [1] [0] [0] [1] [] []

variable [Facts₀]

def scatter_S100000_S1380000x1_S1380000_n_0_0_1 : ScatterDims S100000 S1380000x1 S1380000 where
  updateWindowDims := []
  insertedWindowDims := [0]
  scatterDimsToOperandDims := [0]
  indexVectorDim := 1
  wf := scatter_S100000_S1380000x1_S1380000_n_0_0_1_wf
def gather_S100000_S1380000x1_S1380000_n_0_n_n_0_1_1 : GatherDims S100000 S1380000x1 S1380000 where
  offsetDims := []
  collapsedSliceDims := [0]
  operandBatchingDims := []
  startIndicesBatchingDims := []
  startIndexMap := [0]
  indexVectorDim := 1
  sliceSizes := ![1]
  wf := gather_S100000_S1380000x1_S1380000_n_0_n_n_0_1_1_wf
def dot_S100000x18_S18x32_S100000x32_1_0_0_1_n_n : DotDims S100000x18 S18x32 S100000x32 where
  lhsContracting := [1]
  rhsContracting := [0]
  lhsNonContracting := [0]
  rhsNonContracting := [1]
  lhsBatch := []
  rhsBatch := []
  wf := dot_S100000x18_S18x32_S100000x32_1_0_0_1_n_n_wf
def gather_S100000x32_S1380000x1_S1380000x32_1_0_n_n_0_1_132 : GatherDims S100000x32 S1380000x1 S1380000x32 where
  offsetDims := [1]
  collapsedSliceDims := [0]
  operandBatchingDims := []
  startIndicesBatchingDims := []
  startIndexMap := [0]
  indexVectorDim := 1
  sliceSizes := ![1, 32]
  wf := gather_S100000x32_S1380000x1_S1380000x32_1_0_n_n_0_1_132_wf
def scatter_S100000x32_S1380000x1_S1380000x32_1_0_0_1 : ScatterDims S100000x32 S1380000x1 S1380000x32 where
  updateWindowDims := [1]
  insertedWindowDims := [0]
  scatterDimsToOperandDims := [0]
  indexVectorDim := 1
  wf := scatter_S100000x32_S1380000x1_S1380000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1380000x1_S1380000x64_1_0_n_n_0_1_164 : GatherDims S100000x64 S1380000x1 S1380000x64 where
  offsetDims := [1]
  collapsedSliceDims := [0]
  operandBatchingDims := []
  startIndicesBatchingDims := []
  startIndexMap := [0]
  indexVectorDim := 1
  sliceSizes := ![1, 64]
  wf := gather_S100000x64_S1380000x1_S1380000x64_1_0_n_n_0_1_164_wf
def scatter_S100000x64_S1380000x1_S1380000x64_1_0_0_1 : ScatterDims S100000x64 S1380000x1 S1380000x64 where
  updateWindowDims := [1]
  insertedWindowDims := [0]
  scatterDimsToOperandDims := [0]
  indexVectorDim := 1
  wf := scatter_S100000x64_S1380000x1_S1380000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.Spec.lean ====
/-
  The mathematics both programs compute, stated once over the extended reals.

  A graph layer sends a node table `raw` (one row per node) to `max (raw + b) 0 · W`: every row is shifted by the
  bias row `b`, clamped below at zero, and multiplied by the weight matrix. The network's last step turns the
  two logits of a node into log-probabilities, `z - (m + log Σ exp (z - m))` with `m` the row's maximum; the
  same quantity can be grouped as `(z - m) - log Σ exp (z - m)`, and the two groupings agree whenever the logits
  are real numbers.
-/
import Idealize.ShloMosaic.PureOps.Ideal
import Idealize.ShloMosaic.Lib.ValueIdx

noncomputable section

open scoped BigOperators

namespace Cert.Spec

open Idealize.ShloMosaic Idealize.ShloMosaic.ValueIdx

/-- An array of extended reals is real when none of its entries is an infinity. -/
def IsReal {s : Shape} (x : FVec Ideal s .f32) : Prop := ∀ i, ∃ r : ℝ, x i = (r : EReal)

/-- A matrix of extended reals with `a` rows and `b` columns. -/
abbrev Mat (a b : Nat) : Type := (⟨2, ![a, b]⟩ : Shape).Idx → EReal

/-- The matrix product: entry (p, q) is the sum over k of a (p, k) · w (k, q). -/
def mm (M K N : Nat) (a : Mat M K) (w : Mat K N) : Mat M N :=
  fun j => ∑ k : Fin K, a (ix2 (n0 := M) (j 0) k) * w (ix2 (n1 := N) k (j 1))

/-- Every row shifted by the bias row and clamped below at zero: entry (p, k) is max (raw (p, k) + b (0, k)) 0. -/
def biasRelu (M K : Nat) (raw : Mat M K) (b : Mat 1 K) : Mat M K :=
  fun j => max (raw j + b (ix2 (n1 := K) (0 : Fin 1) (j 1))) (Ideal.ofBits .f32 0x00000000#32)

/-- One layer's transform: the shifted and clamped table times the weights. -/
def layer (M K N : Nat) (raw : Mat M K) (b : Mat 1 K) (w : Mat K N) : Mat M N :=
  mm M K N (biasRelu M K raw b) w

/-- The logits: the last layer's transform shifted by the output bias row. -/
def logits (M K N : Nat) (raw : Mat M K) (b : Mat 1 K) (w : Mat K N) (bf : Mat 1 N) : Mat M N :=
  fun j => layer M K N raw b w j + bf (ix2 (n1 := N) (0 : Fin 1) (j 1))

/-- The maximum of row p, folded from minus infinity. -/
def rowMax (M N : Nat) (z : Mat M N) (p : Fin M) : EReal :=
  (Finset.univ : Finset (Fin N)).fold max (Ideal.ofBits .f32 0xFF800000#32) (fun q => z (ix2 p q))

/-- The sum over row p of exp (z - the row's maximum). -/
def rowSumExp (M N : Nat) (z : Mat M N) (p : Fin M) : EReal :=
  ∑ q : Fin N, Ideal.exp (z (ix2 p q) - rowMax M N z p)

/-- Log-probabilities grouped as z - (m + log Σ exp (z - m)). -/
def lsmK (M N : Nat) (z : Mat M N) : Mat M N :=
  fun j => z j - (rowMax M N z (j 0) + Ideal.log (rowSumExp M N z (j 0)))

/-- Log-probabilities grouped as (z - m) - log (0 + Σ exp (z - m)). -/
def lsmR (M N : Nat) (z : Mat M N) : Mat M N :=
  fun j => (z j - rowMax M N z (j 0)) - Ideal.log (Ideal.ofBits .f32 0x00000000#32 + rowSumExp M N z (j 0))

end Cert.Spec

end
-- ==== Proof.FiniteInputs.lean ====
/-
  The precondition "all inputs are finite", decoded. The predicate is the conjunction, over the seven float
  arguments, of "all entries satisfy |x| < +inf". A conjunction of bits is 1 only when both are; an "all" that is 1 had a 1 at
  every entry; and |x| = max x (-x) lies strictly below +inf exactly when x is neither infinity. So the predicate
  being true says that every entry of every float argument is a real number. The integer edge array is not
  constrained.
-/
import proofs.«130963_j73718818668739_1_alg».proof.Pre_finite_inputs
import proofs.«130963_j73718818668739_1_alg».proof.Proof.Gen.Pre_finite_inputs
import proofs.«130963_j73718818668739_1_alg».proof.Proof.Spec
import Idealize.ShloMosaic.Lib.ReduceAll

noncomputable section

namespace Cert.Pre_finite_inputs.Real

open Idealize.ShloMosaic Cert.Pre_finite_inputs Cert.Spec

/-- The shape with no axes has exactly one index. -/
instance : Subsingleton S_.Idx := ⟨fun a b => funext fun d => d.elim0⟩

/-- The bit pattern 0x7F800000 (sign 0, all-ones exponent, zero fraction) denotes +inf. -/
theorem ofBits_inf : Ideal.ofBits .f32 0x7F800000#32 = (⊤ : EReal) := by
  simp [Ideal.ofBits, Ideal.ieee]

/-- An extended real whose absolute value max x (-x) is below +inf is a real: for x = -inf the negation is
    +inf, for x = +inf the entry itself is, and in both cases the maximum is +inf. -/
theorem real_of_abs_lt_top (x : EReal) (h : max x (-x) < ⊤) : ∃ r : ℝ, x = (r : EReal) := by
  induction x using EReal.rec with
  | bot => simp at h
  | coe r => exact ⟨r, rfl⟩
  | top => simp at h

/-- One conjunct: if "all entries satisfy |x| < +inf" is true then x is a real array. The "all" is a reduction by "and"
    over every axis from the constant true, so each compared entry is 1, which says |x i| < +inf. -/
theorem isReal_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
          (cmpf .olt (Host.absf x) (broadcastInDim s ![] hb (constant (F := Ideal) S_ .f32 0x7F800000#32)))
          (constantI S_ 1 1#1) hr hu ValueIdx.ix0 = 1#1) : IsReal x := by
  intro i
  have e := Host.reduce_andi_all _ _ hr hu ValueIdx.ix0 h i
  -- the compared entry: the bit of |x i| < (the denotation of the pattern of +inf)
  have e' : BitVec.ofBool (decide (max (x i) (-(x i)) < Ideal.ofBits .f32 0x7F800000#32)) = 1#1 := e
  rw [ofBits_inf] at e'
  have hlt : max (x i) (-(x i)) < ⊤ := by
    by_contra hn
    rw [decide_eq_false hn] at e'
    exact absurd e' (by decide)
  exact real_of_abs_lt_top _ hlt

variable [Facts]

/-- The precondition true means that all seven float arguments are real arrays. -/
theorem isReal_of_finite (a0 : FVec Ideal S100000x18 .f32) (a1 : IVec S2x1280000 32) (a2 : FVec Ideal S18x32 .f32)
    (a3 : FVec Ideal S32 .f32) (a4 : FVec Ideal S32x64 .f32) (a5 : FVec Ideal S64 .f32)
    (a6 : FVec Ideal S64x2 .f32) (a7 : FVec Ideal S2 .f32)
    (h : Cert.Pre_finite_inputs.fn (F := Ideal) a0 a1 a2 a3 a4 a5 a6 a7 = fun _ => 1#1) :
    IsReal a0 ∧ IsReal a2 ∧ IsReal a3 ∧ IsReal a4 ∧ IsReal a5 ∧ IsReal a6 ∧ IsReal a7 := by
  -- the predicate's one entry
  have h' := congrFun h ValueIdx.ix0
  dsimp only [fn, fn_part1] at h'
  -- the conjunction is nested to the left: ((((((c0 ∧ c2) ∧ c3) ∧ c4) ∧ c5) ∧ c6) ∧ c7)
  obtain ⟨h', c7⟩ := IntOp.andi_eq_one.1 h'
  obtain ⟨h', c6⟩ := IntOp.andi_eq_one.1 h'
  obtain ⟨h', c5⟩ := IntOp.andi_eq_one.1 h'
  obtain ⟨h', c4⟩ := IntOp.andi_eq_one.1 h'
  obtain ⟨h', c3⟩ := IntOp.andi_eq_one.1 h'
  obtain ⟨c0, c2⟩ := IntOp.andi_eq_one.1 h'
  exact ⟨isReal_of_all a0 _ _ _ c0, isReal_of_all a2 _ _ _ c2, isReal_of_all a3 _ _ _ c3,
    isReal_of_all a4 _ _ _ c4, isReal_of_all a5 _ _ _ c5, isReal_of_all a6 _ _ _ c6, isReal_of_all a7 _ _ _ c7⟩

end Cert.Pre_finite_inputs.Real

end
-- ==== Proof.KernelRun.lean ====
/-
  The idealized kernel program's run with its result named. The program is eight segments: three stretches of host
  operations, the first pallas_call, a stretch, the second pallas_call, a stretch, the third pallas_call. Every
  weakly fair execution terminates without a fault, and in every final state each unscoped buffer holds the last
  boundary's contents: the result array holds what the third pipeline's write-backs leave, the arguments what
  they held at launch.
-/
import proofs.«130963_j73718818668739_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- Every weakly fair execution of the program ends with the result array at the last boundary's contents and the
    argument arrays as launched: the launch over the eight segments, the last thread state read against the final
    state, buffer by buffer. -/
theorem run : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.RunValue

end
-- ==== Proof.LibColumn.lean ====
/-
  Three readings of array operations at one entry, general in the extents: a vector made a column, a column
  repeated along the rows, and the sum of a matrix's rows on the extended reals.

  A reduction over the last axis of a matrix that keeps its dimensions (a row's maximum subtracted from the row,
  a row divided by its sum) is spelt with these: the vector of row values [a] is cast to a column [a, 1], and
  the column is broadcast to [a, b]. The result has the row's value at every entry of the row. The row sum
  itself, an additive reduction along the second axis from the zero word, is at row n the finite sum of the
  entries (n, m).
-/
import Idealize.ShloMosaic.PureOps.Ideal.Laws
import Idealize.ShloMosaic.Lib.ValueIdx
import Idealize.ShloMosaic.Lib.Pipeline.Value

noncomputable section

open scoped BigOperators

namespace Cert.LibColumn

open Idealize.ShloMosaic Idealize.ShloMosaic.ValueIdx

/-! ## Two layout readings: a vector as a column, a column repeated along the rows -/

section Layout
variable {α : Type}

/-- A vector [a] cast to a column [a, 1] reads, at (i, u), the vector at i: in row-major order the position of
    (i, u) in [a, 1] is i · 1 + u, and u = 0 because the second axis has one coordinate, so it is the position i
    of the vector's entry. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). A broadcast keeps a coordinate on
    an axis the operand shares and puts 0 on an axis where the operand has extent one. The second axis has
    extent one, so its coordinate is 0; on the first axis the coordinate p is kept, and if a = 1 then p = 0
    anyway. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two composed: a vector v [a] made a column and the column repeated along each row gives the matrix
    whose entry (n, m) is v(n), whatever m. This is how the kernel subtracts a row's maximum from the row and
    divides a row by its sum. -/
theorem column_apply {a b : ℕ} (v : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (n : Fin a) (m : Fin b) :
    broadcastTo ⟨2, ![a, b]⟩ (shapeCast ⟨2, ![a, 1]⟩ v h₁) h₂ (ix2 n m) = v (ix1 n) :=
  (broadcastTo_a1_ab_apply _ h₂ n m).trans (shapeCast_a_a1_apply v h₁ n 0)

end Layout

/-! ## The sum of a row -/

/-- An additive reduction of a matrix [a, b] along its second axis, from the zero word, is at n the sum over
    m < b of the entries (n, m). The library reads the reduction as the sum over the reduced axis of the source
    at the result index with the reduced coordinate put back in; for a matrix reduced along its columns that
    index is (n, m), coordinate by coordinate. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (n : Fin a) :
    multiReduction (F := Ideal) .add [1] ⟨1, ![a]⟩ src 0x00000000#32 h hφ hacc (ix1 n) = ∑ m : Fin b, src (ix2 n m) :=
  (Ideal.multiReduction_add_single src 0x00000000#32 h hφ hacc (ix1 n)).trans
    (Finset.sum_congr rfl fun m _ => congrArg src (funext fun c => Fin.ext (by
      match c with
      | ⟨0, _⟩ => rfl
      | ⟨1, _⟩ => rfl)))

end Cert.LibColumn

end
-- ==== Proof.LibVecColumn.lean ====
/-
  A vector as a column, two spellings, and a vector as a row. A vector v of length a becomes the column [a, 1] either by a reshape (a cast
  that keeps the row-major order) or by a broadcast that sends the vector's axis to the first axis of the column.
  Both read v(p) at the entry (p, 0), so they are the same array. This is the step between a per-row count reshaped to
  a column and the same count indexed with a new trailing axis. A vector of length b reshaped to the row [1, b] reads
  v(j) at (0, j): this is how a bias vector is handed to a kernel that adds it to every row of a block.
-/
import proofs.«130963_j73718818668739_1_alg».proof.Proof.LibColumn

noncomputable section

namespace Cert.LibVecColumn

open Idealize.ShloMosaic Idealize.ShloMosaic.ValueIdx

/-- The broadcast of a vector [a] along a new trailing unit axis reads, at (p, u), the vector at p: the vector's
    one axis is sent to the column's first axis, whose coordinate is p (and if a = 1 then p = 0 anyway). -/
theorem broadcastInDim_a_a1_apply {α : Type} {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The reshape of a vector to a column and its broadcast along a new trailing axis are the same array. -/
theorem shapeCast_eq_broadcastInDim {α : Type} {a : ℕ} (x : (⟨1, ![a]⟩ : Shape).Idx → α)
    (h₁ : (⟨1, ![a]⟩ : Shape).ShapeCasts ⟨2, ![a, 1]⟩)
    (h₂ : (⟨1, ![a]⟩ : Shape).BroadcastsInDim ⟨2, ![a, 1]⟩ ![0]) :
    shapeCast ⟨2, ![a, 1]⟩ x h₁ = broadcastInDim ⟨2, ![a, 1]⟩ ![0] h₂ x := by
  funext i
  obtain ⟨p, u, rfl⟩ : ∃ (p : Fin a) (u : Fin 1), i = ix2 p u := ⟨i 0, i 1, eq_ix2 i⟩
  rw [Cert.LibColumn.shapeCast_a_a1_apply, broadcastInDim_a_a1_apply]

/-- A vector [b] cast to a row [1, b] reads, at (u, j), the vector at j: the row-major position of (u, j) in [1, b]
    is u · b + j with u = 0, the position j of the vector's entry. -/
theorem shapeCast_b_1b_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibVecColumn

end
-- ==== Proof.LibRowVector.lean ====
/-
  A vector as a row, two spellings. A vector v of length b becomes the row [1, b] either by a reshape (a cast that
  keeps the row-major order) or by a broadcast that sends the vector's axis to the second axis of the row. Both
  read v(j) at the entry (0, j), so they are the same array. This is the step between a bias vector reshaped to a
  row for a kernel that adds it to every row of a block, and the same vector indexed with a new leading axis.
-/
import proofs.«130963_j73718818668739_1_alg».proof.Proof.LibVecColumn

noncomputable section

namespace Cert.LibRowVector

open Idealize.ShloMosaic Idealize.ShloMosaic.ValueIdx

/-- The broadcast of a vector [b] along a new leading unit axis reads, at (u, j), the vector at j: the vector's one
    axis is sent to the row's second axis, whose coordinate is j (and if b = 1 then j = 0 anyway). -/
theorem broadcastInDim_b_1b_apply {α : Type} {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- The reshape of a vector to a row and its broadcast along a new leading axis are the same array. -/
theorem shapeCast_eq_broadcastInDim {α : Type} {b : ℕ} (x : (⟨1, ![b]⟩ : Shape).Idx → α)
    (h₁ : (⟨1, ![b]⟩ : Shape).ShapeCasts ⟨2, ![1, b]⟩)
    (h₂ : (⟨1, ![b]⟩ : Shape).BroadcastsInDim ⟨2, ![1, b]⟩ ![1]) :
    shapeCast ⟨2, ![1, b]⟩ x h₁ = broadcastInDim ⟨2, ![1, b]⟩ ![1] h₂ x := by
  funext i
  obtain ⟨u, j, rfl⟩ : ∃ (u : Fin 1) (j : Fin b), i = ix2 u j := ⟨i 0, i 1, eq_ix2 i⟩
  rw [Cert.LibVecColumn.shapeCast_b_1b_apply, broadcastInDim_b_1b_apply]

end Cert.LibRowVector

end
-- ==== Proof.KernelHost.lean ====
/-
  The host side of the network: what the plain array operations between the three kernels leave in the buffers.

  The graph has 100000 nodes and 1280000 edges. Before the first kernel the program builds, from the edge list alone,
  the sources and the targets of the edges with one self loop per node appended (two lists of 1380000 node numbers),
  the degree of every node (the number of listed edges that end in it, a scatter-add of ones), its inverse square root
  guarded to 0 where the degree is 0, and from these the weight of every listed edge,
  norm (e) = deg^(-1/2) (source e) · deg^(-1/2) (target e). Between the first and the second kernel it aggregates the
  first kernel's table h over the edges: row n of the result is the sum, over the listed edges e that end in n, of
  norm (e) · h (source e); and it lays the first bias vector out as a row of 32.

  The reference program applies the same array operations to the same edge list, and its value at each step is named
  by a stage function of the argument arrays. So each buffer of this program, at the boundary where a kernel reads
  it, holds the corresponding stage of the reference: proved here stretch by stretch. Each stretch is first read from
  arbitrary starting contents (the buffer it writes as the operations' composite applied to the buffers it reads, and
  every buffer it does not write unchanged), and then the stretches are chained from the launch contents through the
  kernels, which change only their own output arrays.
-/
import proofs.«130963_j73718818668739_1_alg».proof.Proof.Gen.KernelIdeal.Frame
import proofs.«130963_j73718818668739_1_alg».proof.Proof.RefRead
import proofs.«130963_j73718818668739_1_alg».proof.Proof.LibRowVector
set_option maxRecDepth 65536
noncomputable section
namespace Cert.KernelIdeal.HostValue
open Cert.KernelIdeal Cert.KernelIdeal.Gen
open Idealize.ShloMosaic Idealize.ShloMosaic.TcCoe Idealize.SL.Sem Idealize.ShloMosaic.StableHlo

/-! ## The stretches from any starting contents -/

section Stretches
variable (V : Valuation τ sig (Elt Ideal))

/-! ### What each stretch writes -/

/-- The buffers the first stretch writes: the node numbers, the two halves of the edge list and the lists with self
    loops, the ones and zeros, the degrees, their sign test and inverse square root, and a zero. -/
abbrev written0 : List (Ref sig .tc) :=
  [main_v0, main_v1, main_v2, main_v3, main_v4, main_v5, main_v6, main_cst, main_v7, main_cst_0, main_v8, main_v9,
    main_v10, main_cst_1, main_v11, main_v12, main_v13, main_cst_2]
/-- Every operation of the first stretch writes one of them. -/
theorem writes0 : (hostOps0 : List (HloOp τ sig (Elt Ideal))).Forall fun op =>
    op.writes ⊆ (written0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- So the first stretch leaves every other buffer as it was. -/
theorem keep0 (r : Ref sig .tc) (h : r ∉ written0) :
    StableHlo.after hostOps0 V (Proc.devRef .tc r) = V (Proc.devRef .tc r) :=
  StableHlo.after_of_writes_sub hostOps0 V writes0 h

/-- The buffers the guarded inverse square root writes: the zero, the zeros, and the guarded value. -/
abbrev written1 : List (Ref sig .tc) := [main_call0_v0, main_call0_v1, main_v14]
/-- Every operation of it writes one of them. -/
theorem writes1 : (hostOps0_1 : List (HloOp τ sig (Elt Ideal))).Forall fun op =>
    op.writes ⊆ (written1.map (Proc.devRef (τ := τ) .tc)).toFinset := by
  simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- So it leaves every other buffer as it was. -/
theorem keep1 (r : Ref sig .tc) (h : r ∉ written1) :
    StableHlo.after hostOps0_1 V (Proc.devRef .tc r) = V (Proc.devRef .tc r) :=
  StableHlo.after_of_writes_sub hostOps0_1 V writes1 h

/-- The buffers the third stretch writes: for sources and for targets the wrapped node numbers (a negative number
    counts from the end) and the guarded inverse square roots read at them, and their product. -/
abbrev written2 : List (Ref sig .tc) :=
  [main_c, main_v15, main_v16, main_c_3, main_v17, main_v18, main_v19, main_v20, main_v21, main_c_4, main_v22, main_v23,
    main_c_5, main_v24, main_v25, main_v26, main_v27, main_v28, main_v29]
/-- Every operation of the third stretch writes one of them. -/
theorem writes2 : (hostOps0_2 : List (HloOp τ sig (Elt Ideal))).Forall fun op =>
    op.writes ⊆ (written2.map (Proc.devRef (τ := τ) .tc)).toFinset := by
  simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- So the third stretch leaves every other buffer as it was. -/
theorem keep2 (r : Ref sig .tc) (h : r ∉ written2) :
    StableHlo.after hostOps0_2 V (Proc.devRef .tc r) = V (Proc.devRef .tc r) :=
  StableHlo.after_of_writes_sub hostOps0_2 V writes2 h

/-- The buffers the middle stretch writes: the wrapped sources, the table's rows read at them, the edge weights spread
    over the 32 features, the weighted rows, the zeros they are added into, the targets as a column, the sums, and
    the bias row. -/
abbrev written3 : List (Ref sig .tc) :=
  [main_c_6, main_v31, main_v32, main_c_7, main_v33, main_v34, main_v35, main_v36, main_v37, main_v38, main_v39, main_v40,
    main_cst_8, main_v41, main_v42, main_v43, main_v44]
/-- Every operation of the middle stretch writes one of them. -/
theorem writes3 : (hostOps1 : List (HloOp τ sig (Elt Ideal))).Forall fun op =>
    op.writes ⊆ (written3.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- So the middle stretch leaves every other buffer as it was. -/
theorem keep3 (r : Ref sig .tc) (h : r ∉ written3) :
    StableHlo.after hostOps1 V (Proc.devRef .tc r) = V (Proc.devRef .tc r) :=
  StableHlo.after_of_writes_sub hostOps1 V writes3 h
end Stretches

section Values
variable (V : Valuation τ sig (Elt Ideal))

/-! ### The first stretch: the edge list with its self loops, the degrees, their inverse square roots -/

/-- The sources with the self loops appended: the first row of the edge list followed by 0 … 99999. -/
theorem s0_v3 : StableHlo.after hostOps0 V (Proc.devRef .tc main_v3)
    = Cert.ReferenceIdeal.Read.val_main_v3 (F := Ideal) (V (Proc.devRef .tc main_arg1)) := by
  simp only [hostOps0]; after_results; rfl
/-- The targets with the self loops appended: the second row of the edge list followed by 0 … 99999. -/
theorem s0_v6 : StableHlo.after hostOps0 V (Proc.devRef .tc main_v6)
    = Cert.ReferenceIdeal.Read.val_main_v6 (F := Ideal) (V (Proc.devRef .tc main_arg1)) := by
  simp only [hostOps0]; after_results; rfl
/-- Where the degree (ones added up at the targets) is positive. -/
theorem s0_v12 : StableHlo.after hostOps0 V (Proc.devRef .tc main_v12)
    = Cert.ReferenceIdeal.Read.val_main_v12 (F := Ideal) (V (Proc.devRef .tc main_arg1)) := by
  simp only [hostOps0]; after_results; rfl
/-- The inverse square root of the degree. -/
theorem s0_v13 : StableHlo.after hostOps0 V (Proc.devRef .tc main_v13)
    = Cert.ReferenceIdeal.Read.val_main_v13 (F := Ideal) (V (Proc.devRef .tc main_arg1)) := by
  simp only [hostOps0]; after_results; rfl
/-- The zero the guard falls back to. -/
theorem s0_cst2 : StableHlo.after hostOps0 V (Proc.devRef .tc main_cst_2)
    = Cert.ReferenceIdeal.Read.val_main_cst_2 (F := Ideal) := by
  simp only [hostOps0]; after_results; rfl

/-! ### The second stretch: the guarded inverse square root -/

/-- The guarded inverse square root, from the buffers it reads: the inverse square root where the degree is positive,
    the zero spread over the nodes elsewhere. -/
theorem s1_v14 : StableHlo.after hostOps0_1 V (Proc.devRef .tc main_v14)
    = select (V (Proc.devRef .tc main_v12)) (V (Proc.devRef .tc main_v13))
        (broadcastInDim S100000 ![] bcast_S_S100000 (V (Proc.devRef .tc main_cst_2))) := by
  simp only [hostOps0_1]; after_results; rfl

/-! ### The third stretch: the per-edge norm -/

/-- The weight of every listed edge: when the stretch starts from the two lists and the guarded inverse square root of
    the degrees, it leaves deg^(-1/2) (source) · deg^(-1/2) (target), each factor read at the node number wrapped into
    range. -/
theorem s2_v29 (x1 : (⟨Cert.ReferenceIdeal.S2x1280000, .i32⟩ : BufTy).Contents (Elt Ideal))
    (h3 : V (Proc.devRef .tc main_v3) = Cert.ReferenceIdeal.Read.val_main_v3 (F := Ideal) x1)
    (h6 : V (Proc.devRef .tc main_v6) = Cert.ReferenceIdeal.Read.val_main_v6 (F := Ideal) x1)
    (h14 : V (Proc.devRef .tc main_v14) = Cert.ReferenceIdeal.Read.val_main_v14 (F := Ideal) x1) :
    StableHlo.after hostOps0_2 V (Proc.devRef .tc main_v29) = Cert.ReferenceIdeal.Read.val_main_v29 (F := Ideal) x1 := by
  simp only [hostOps0_2]; after_results_simp
  rw [h3, h6, h14]
  rfl
end Values

section Middle
variable (V : Valuation τ sig (Elt Ideal))

/-! ### The middle stretch: one aggregation over the edges, and the first bias as a row -/

/-- The aggregation over the edges: when the stretch starts from the two lists, the edge weights and a table h, it
    leaves, at row n, the sum over the listed edges into n of weight · h (source), added into zeros. -/
theorem s3_v43 (x0 : (⟨Cert.ReferenceIdeal.S100000x18, .f32⟩ : BufTy).Contents (Elt Ideal)) (x1 : (⟨Cert.ReferenceIdeal.S2x1280000, .i32⟩ : BufTy).Contents (Elt Ideal)) (x2 : (⟨Cert.ReferenceIdeal.S18x32, .f32⟩ : BufTy).Contents (Elt Ideal))
    (h3 : V (Proc.devRef .tc main_v3) = Cert.ReferenceIdeal.Read.val_main_v3 (F := Ideal) x1)
    (h6 : V (Proc.devRef .tc main_v6) = Cert.ReferenceIdeal.Read.val_main_v6 (F := Ideal) x1)
    (h29 : V (Proc.devRef .tc main_v29) = Cert.ReferenceIdeal.Read.val_main_v29 (F := Ideal) x1)
    (h30 : V (Proc.devRef .tc main_v30) = Cert.ReferenceIdeal.Read.val_main_v30 (F := Ideal) x0 x2) :
    StableHlo.after hostOps1 V (Proc.devRef .tc main_v43) = Cert.ReferenceIdeal.Read.val_main_v43 (F := Ideal) x0 x1 x2 := by
  simp only [hostOps1]; after_results_simp
  rw [h3, h6, h29, h30]
  rfl

/-- The first bias as a row: this program reshapes the vector of 32 to [1, 32], the reference broadcasts it along a new
    leading axis; both put entry j of the vector at (0, j). -/
theorem s3_v44 (x3 : (⟨Cert.ReferenceIdeal.S32, .f32⟩ : BufTy).Contents (Elt Ideal)) (h : V (Proc.devRef .tc main_arg3) = x3) :
    StableHlo.after hostOps1 V (Proc.devRef .tc main_v44) = Cert.ReferenceIdeal.Read.val_main_v44 (F := Ideal) x3 := by
  simp only [hostOps1]; after_results
  rw [h]
  exact Cert.LibRowVector.shapeCast_eq_broadcastInDim (b := 32) x3 _ _
end Middle

/-! ## The run's boundaries -/

section Boundaries
variable (m : (ℓ : Loc nD τ sig) → Buf (Elt Ideal) ℓ) (ρ : Dev nD → PrngReg) (c : Dev nD)

/-! ### After the first stretch -/

/-- After the first stretch each buffer it wrote holds the reference's stage of the launched edge list. -/
theorem W1_v3 : W1 m ρ c (Proc.devRef .tc main_v3) = Cert.ReferenceIdeal.Read.val_main_v3 (F := Ideal) (m ((c : Thread nD τ).loc main_arg1)) := s0_v3 (W0 m ρ c)
theorem W1_v6 : W1 m ρ c (Proc.devRef .tc main_v6) = Cert.ReferenceIdeal.Read.val_main_v6 (F := Ideal) (m ((c : Thread nD τ).loc main_arg1)) := s0_v6 (W0 m ρ c)
theorem W1_v12 : W1 m ρ c (Proc.devRef .tc main_v12) = Cert.ReferenceIdeal.Read.val_main_v12 (F := Ideal) (m ((c : Thread nD τ).loc main_arg1)) := s0_v12 (W0 m ρ c)
theorem W1_v13 : W1 m ρ c (Proc.devRef .tc main_v13) = Cert.ReferenceIdeal.Read.val_main_v13 (F := Ideal) (m ((c : Thread nD τ).loc main_arg1)) := s0_v13 (W0 m ρ c)
theorem W1_cst2 : W1 m ρ c (Proc.devRef .tc main_cst_2) = Cert.ReferenceIdeal.Read.val_main_cst_2 (F := Ideal) := s0_cst2 (W0 m ρ c)

/-! ### After the guarded inverse square root -/

/-- The two lists pass through; the guarded value is the reference's, operand by operand. -/
theorem W2_v3 : W2 m ρ c (Proc.devRef .tc main_v3) = Cert.ReferenceIdeal.Read.val_main_v3 (F := Ideal) (m ((c : Thread nD τ).loc main_arg1)) :=
  (keep1 (W1 m ρ c) main_v3 (by decide)).trans (W1_v3 m ρ c)
theorem W2_v6 : W2 m ρ c (Proc.devRef .tc main_v6) = Cert.ReferenceIdeal.Read.val_main_v6 (F := Ideal) (m ((c : Thread nD τ).loc main_arg1)) :=
  (keep1 (W1 m ρ c) main_v6 (by decide)).trans (W1_v6 m ρ c)
theorem W2_v14 : W2 m ρ c (Proc.devRef .tc main_v14) = Cert.ReferenceIdeal.Read.val_main_v14 (F := Ideal) (m ((c : Thread nD τ).loc main_arg1)) := by
  refine (s1_v14 (W1 m ρ c)).trans ?_
  rw [W1_v12 m ρ c, W1_v13 m ρ c, W1_cst2 m ρ c]
  rfl

/-! ### At the first kernel's entry -/

/-- A buffer none of the first three stretches writes holds its launch contents at the first kernel's entry. -/
theorem W3_launch (r : Ref sig .tc) (h0 : r ∉ written0) (h1 : r ∉ written1) (h2 : r ∉ written2) :
    W3 m ρ c (Proc.devRef .tc r) = W0 m ρ c (Proc.devRef .tc r) :=
  (keep2 (W2 m ρ c) r h2).trans ((keep1 (W1 m ρ c) r h1).trans (keep0 (W0 m ρ c) r h0))

/-- What the first kernel's entry holds: the two lists, the edge weights, and the launched table and weights. -/
theorem W3_v3 : W3 m ρ c (Proc.devRef .tc main_v3) = Cert.ReferenceIdeal.Read.val_main_v3 (F := Ideal) (m ((c : Thread nD τ).loc main_arg1)) :=
  (keep2 (W2 m ρ c) main_v3 (by decide)).trans (W2_v3 m ρ c)
theorem W3_v6 : W3 m ρ c (Proc.devRef .tc main_v6) = Cert.ReferenceIdeal.Read.val_main_v6 (F := Ideal) (m ((c : Thread nD τ).loc main_arg1)) :=
  (keep2 (W2 m ρ c) main_v6 (by decide)).trans (W2_v6 m ρ c)
theorem W3_v29 : W3 m ρ c (Proc.devRef .tc main_v29) = Cert.ReferenceIdeal.Read.val_main_v29 (F := Ideal) (m ((c : Thread nD τ).loc main_arg1)) :=
  s2_v29 (W2 m ρ c) (m ((c : Thread nD τ).loc main_arg1)) (W2_v3 m ρ c) (W2_v6 m ρ c) (W2_v14 m ρ c)
theorem W3_arg0 : W3 m ρ c (Proc.devRef .tc main_arg0) = (m ((c : Thread nD τ).loc main_arg0)) :=
  W3_launch m ρ c main_arg0 (by decide) (by decide) (by decide)
theorem W3_arg2 : W3 m ρ c (Proc.devRef .tc main_arg2) = (m ((c : Thread nD τ).loc main_arg2)) :=
  W3_launch m ρ c main_arg2 (by decide) (by decide) (by decide)

/-! ### At the first kernel's exit -/

/-- A buffer that is none of the first kernel's arrays and that no earlier stretch writes holds its launch contents
    at the first kernel's exit. -/
theorem W4_launch (r : Ref sig .tc) (hr : ∀ w, Pipeline.arrRef spec0 w ≠ r) (h0 : r ∉ written0) (h1 : r ∉ written1)
    (h2 : r ∉ written2) : W4 m ρ c (Proc.devRef .tc r) = W0 m ρ c (Proc.devRef .tc r) :=
  (W4_of_ne m ρ c r hr).trans (W3_launch m ρ c r h0 h1 h2)

/-- The first kernel changes only its result array: the lists and the edge weights pass through. -/
theorem W4_v3 : W4 m ρ c (Proc.devRef .tc main_v3) = Cert.ReferenceIdeal.Read.val_main_v3 (F := Ideal) (m ((c : Thread nD τ).loc main_arg1)) :=
  (W4_of_ne m ρ c main_v3 (by decide)).trans (W3_v3 m ρ c)
theorem W4_v6 : W4 m ρ c (Proc.devRef .tc main_v6) = Cert.ReferenceIdeal.Read.val_main_v6 (F := Ideal) (m ((c : Thread nD τ).loc main_arg1)) :=
  (W4_of_ne m ρ c main_v6 (by decide)).trans (W3_v6 m ρ c)
theorem W4_v29 : W4 m ρ c (Proc.devRef .tc main_v29) = Cert.ReferenceIdeal.Read.val_main_v29 (F := Ideal) (m ((c : Thread nD τ).loc main_arg1)) :=
  (W4_of_ne m ρ c main_v29 (by decide)).trans (W3_v29 m ρ c)

/-! ### At the second kernel's entry -/

/-- A buffer that no stretch up to here writes and that is none of the first kernel's arrays holds its launch
    contents at the second kernel's entry. -/
theorem W5_launch (r : Ref sig .tc) (hr : ∀ w, Pipeline.arrRef spec0 w ≠ r) (h0 : r ∉ written0) (h1 : r ∉ written1)
    (h2 : r ∉ written2) (h3 : r ∉ written3) : W5 m ρ c (Proc.devRef .tc r) = W0 m ρ c (Proc.devRef .tc r) :=
  (keep3 (W4 m ρ c) r h3).trans (W4_launch m ρ c r hr h0 h1 h2)

/-- The lists and the edge weights pass through the middle stretch. -/
theorem W5_v3 : W5 m ρ c (Proc.devRef .tc main_v3) = Cert.ReferenceIdeal.Read.val_main_v3 (F := Ideal) (m ((c : Thread nD τ).loc main_arg1)) :=
  (keep3 (W4 m ρ c) main_v3 (by decide)).trans (W4_v3 m ρ c)
theorem W5_v6 : W5 m ρ c (Proc.devRef .tc main_v6) = Cert.ReferenceIdeal.Read.val_main_v6 (F := Ideal) (m ((c : Thread nD τ).loc main_arg1)) :=
  (keep3 (W4 m ρ c) main_v6 (by decide)).trans (W4_v6 m ρ c)
theorem W5_v29 : W5 m ρ c (Proc.devRef .tc main_v29) = Cert.ReferenceIdeal.Read.val_main_v29 (F := Ideal) (m ((c : Thread nD τ).loc main_arg1)) :=
  (keep3 (W4 m ρ c) main_v29 (by decide)).trans (W4_v29 m ρ c)

/-- Given that the first kernel left the product x · W1 in its result array, the second kernel's table is the
    reference's aggregated table. -/
theorem W5_v43 (h30 : W4 m ρ c (Proc.devRef .tc main_v30) = Cert.ReferenceIdeal.Read.val_main_v30 (F := Ideal) (m ((c : Thread nD τ).loc main_arg0)) (m ((c : Thread nD τ).loc main_arg2))) :
    W5 m ρ c (Proc.devRef .tc main_v43) = Cert.ReferenceIdeal.Read.val_main_v43 (F := Ideal) (m ((c : Thread nD τ).loc main_arg0)) (m ((c : Thread nD τ).loc main_arg1)) (m ((c : Thread nD τ).loc main_arg2)) :=
  s3_v43 (W4 m ρ c) (m ((c : Thread nD τ).loc main_arg0)) (m ((c : Thread nD τ).loc main_arg1)) (m ((c : Thread nD τ).loc main_arg2)) (W4_v3 m ρ c) (W4_v6 m ρ c) (W4_v29 m ρ c) h30
/-- The second kernel's bias row is the reference's. -/
theorem W5_v44 : W5 m ρ c (Proc.devRef .tc main_v44) = Cert.ReferenceIdeal.Read.val_main_v44 (F := Ideal) (m ((c : Thread nD τ).loc main_arg3)) :=
  s3_v44 (W4 m ρ c) (m ((c : Thread nD τ).loc main_arg3)) (W4_launch m ρ c main_arg3 (by decide) (by decide) (by decide) (by decide))
/-- The second kernel's weights are the launched ones. -/
theorem W5_arg4 : W5 m ρ c (Proc.devRef .tc main_arg4) = (m ((c : Thread nD τ).loc main_arg4)) :=
  W5_launch m ρ c main_arg4 (by decide) (by decide) (by decide) (by decide) (by decide)

/-! ### At the second kernel's exit -/

/-- The second kernel changes only its result array: the lists, the edge weights and the remaining arguments pass
    through. -/
theorem W6_v3 : W6 m ρ c (Proc.devRef .tc main_v3) = Cert.ReferenceIdeal.Read.val_main_v3 (F := Ideal) (m ((c : Thread nD τ).loc main_arg1)) :=
  (W6_of_ne m ρ c main_v3 (by decide)).trans (W5_v3 m ρ c)
theorem W6_v6 : W6 m ρ c (Proc.devRef .tc main_v6) = Cert.ReferenceIdeal.Read.val_main_v6 (F := Ideal) (m ((c : Thread nD τ).loc main_arg1)) :=
  (W6_of_ne m ρ c main_v6 (by decide)).trans (W5_v6 m ρ c)
theorem W6_v29 : W6 m ρ c (Proc.devRef .tc main_v29) = Cert.ReferenceIdeal.Read.val_main_v29 (F := Ideal) (m ((c : Thread nD τ).loc main_arg1)) :=
  (W6_of_ne m ρ c main_v29 (by decide)).trans (W5_v29 m ρ c)
theorem W6_arg5 : W6 m ρ c (Proc.devRef .tc main_arg5) = (m ((c : Thread nD τ).loc main_arg5)) :=
  (W6_of_ne m ρ c main_arg5 (by decide)).trans
    (W5_launch m ρ c main_arg5 (by decide) (by decide) (by decide) (by decide) (by decide))
theorem W6_arg6 : W6 m ρ c (Proc.devRef .tc main_arg6) = (m ((c : Thread nD τ).loc main_arg6)) :=
  (W6_of_ne m ρ c main_arg6 (by decide)).trans
    (W5_launch m ρ c main_arg6 (by decide) (by decide) (by decide) (by decide) (by decide))
theorem W6_arg7 : W6 m ρ c (Proc.devRef .tc main_arg7) = (m ((c : Thread nD τ).loc main_arg7)) :=
  (W6_of_ne m ρ c main_arg7 (by decide)).trans
    (W5_launch m ρ c main_arg7 (by decide) (by decide) (by decide) (by decide) (by decide))
end Boundaries

end Cert.KernelIdeal.HostValue

end
-- ==== Proof.KernelHostTail.lean ====
/-
  The last stretch of host operations of the kernel program, between its second and its third pipelined call, read
  against the reference's stages.

  The stretch aggregates the second layer over the edges and lays two bias vectors out as rows. With src and dst the
  edge endpoints (each followed by one self edge per node), h the table the second call leaves and norm the per-edge
  weight, it computes

    raw₂ = scatter-add over dst of (h[src] · norm),    b₂ as a row [1, 64],    b_fc as a row [1, 2].

  The reference runs the same operations on the same operands, with two differences in spelling. It recomputes the
  per-edge weight for its second layer from the same edge list by the same operations, where the kernel program
  reuses the first layer's; and it lays a bias vector out as a row by a broadcast along a new leading axis, where the
  kernel program reshapes it. Both pairs are equal arrays: the first by unfolding the two chains of stages side by
  side, the second because both read the vector's entry j at (0, j).
-/
import proofs.«130963_j73718818668739_1_alg».proof.Proof.Gen.KernelIdeal.Frame
import proofs.«130963_j73718818668739_1_alg».proof.Proof.RefRead
import proofs.«130963_j73718818668739_1_alg».proof.Proof.LibRowVector

set_option maxRecDepth 65536

noncomputable section

namespace Cert.KernelIdeal.HostTail

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The bias rows -/

/-- The second layer's bias as a row: the stretch reshapes the vector b₂ [64] to [1, 64]; the reference broadcasts it
    along a new leading axis. Both rows hold b₂ (j) at (0, j). -/
theorem W7_v59 (h5 : W6 m ρ c (Proc.devRef .tc main_arg5) = m ((c : Thread nD τ).loc main_arg5)) :
    W7 m ρ c (Proc.devRef .tc main_v59)
      = Cert.ReferenceIdeal.Read.val_main_v85 (F := Ideal) (m ((c : Thread nD τ).loc main_arg5)) := by
  show StableHlo.after hostOps2 (W6 m ρ c) (Proc.devRef .tc main_v59) = _
  simp only [hostOps2]
  after_results
  rw [h5]
  unfold Cert.ReferenceIdeal.Read.val_main_v85
  exact Cert.LibRowVector.shapeCast_eq_broadcastInDim _ _ _

/-- The output bias as a row: b_fc [2] reshaped to [1, 2] against its broadcast along a new leading axis. -/
theorem W7_v60 (h7 : W6 m ρ c (Proc.devRef .tc main_arg7) = m ((c : Thread nD τ).loc main_arg7)) :
    W7 m ρ c (Proc.devRef .tc main_v60)
      = Cert.ReferenceIdeal.Read.val_main_v90 (F := Ideal) (m ((c : Thread nD τ).loc main_arg7)) := by
  show StableHlo.after hostOps2 (W6 m ρ c) (Proc.devRef .tc main_v60) = _
  simp only [hostOps2]
  after_results
  rw [h7]
  unfold Cert.ReferenceIdeal.Read.val_main_v90
  exact Cert.LibRowVector.shapeCast_eq_broadcastInDim _ _ _

/-! ## The arguments the stretch leaves alone -/

/-- The classifier's weights W_fc pass through the stretch: none of its operations writes that array. -/
theorem W7_arg6 (h : W6 m ρ c (Proc.devRef .tc main_arg6) = m ((c : Thread nD τ).loc main_arg6)) :
    W7 m ρ c (Proc.devRef .tc main_arg6) = m ((c : Thread nD τ).loc main_arg6) :=
  (StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))).trans h

/-! ## The arguments at the second call's exit

No host operation before this stretch writes an argument array, and neither of the first two calls has b₂, W_fc or
b_fc among its arrays, so at the second call's exit each of the three still holds what it held at launch: the contents
walk back, boundary by boundary, to the launch memory. -/

/-- b₂ at the second call's exit is b₂ as launched. -/
theorem W6_arg5 : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = m ((c : Thread nD τ).loc main_arg5) := rfl

/-- W_fc at the second call's exit is W_fc as launched. -/
theorem W6_arg6 : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = m ((c : Thread nD τ).loc main_arg6) := rfl

/-- b_fc at the second call's exit is b_fc as launched. -/
theorem W6_arg7 : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = m ((c : Thread nD τ).loc main_arg7) := rfl

/-! ## The second aggregate -/

/-- The per-edge weight, computed twice by the reference. For its second layer the reference builds the weight again
    from the edge list: the degree of every node (ones scattered over dst onto zeros), its inverse square root where
    the degree is positive and zero elsewhere, that table gathered at src and at dst (an index below zero moved up by
    the node count first), and the product of the two gathers. These are the operations, on the same operands, that
    gave the first layer's weight, so the two chains of stages unfold to the same term. -/
theorem v70_eq_v29 (x1 : (⟨Cert.ReferenceIdeal.S2x1280000, .i32⟩ : BufTy).Contents (Elt Ideal)) :
    Cert.ReferenceIdeal.Read.val_main_v70 (F := Ideal) x1 = Cert.ReferenceIdeal.Read.val_main_v29 (F := Ideal) x1 :=
  rfl

/-- The second aggregate raw₂. The stretch moves a src index below zero up by the node count, gathers the rows of
    the second call's table h at src, multiplies each gathered row by the edge's weight (the weight vector as a
    column, the column broadcast along the row), and scatter-adds the products over dst onto a table of zeros. With
    the four operand arrays named by the reference's stages this is the reference's stage for raw₂, operation by
    operation, once the reference's second copy of the weight is replaced by the first. -/
theorem W7_v58
    (h3 : W6 m ρ c (Proc.devRef .tc main_v3) = Cert.ReferenceIdeal.Read.val_main_v3 (F := Ideal) (m ((c : Thread nD τ).loc main_arg1)))
    (h6 : W6 m ρ c (Proc.devRef .tc main_v6) = Cert.ReferenceIdeal.Read.val_main_v6 (F := Ideal) (m ((c : Thread nD τ).loc main_arg1)))
    (h29 : W6 m ρ c (Proc.devRef .tc main_v29) = Cert.ReferenceIdeal.Read.val_main_v29 (F := Ideal) (m ((c : Thread nD τ).loc main_arg1)))
    (h45 : W6 m ρ c (Proc.devRef .tc main_v45)
      = Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4))) :
    W7 m ρ c (Proc.devRef .tc main_v58)
      = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W6 m ρ c) (Proc.devRef .tc main_v58) = _
  simp only [hostOps2]
  after_results_simp
  rw [h3, h6, h29, h45]
  unfold Cert.ReferenceIdeal.Read.val_main_v84 Cert.ReferenceIdeal.Read.val_main_v81
    Cert.ReferenceIdeal.Read.val_main_v80 Cert.ReferenceIdeal.Read.val_main_v79
  rw [v70_eq_v29]
  rfl

end Cert.KernelIdeal.HostTail

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.Region0.lean ====
/-
  The first layer's product, read off the blocks the grid writes.

  The table x has 100000 rows of 18 features and the weight matrix W1 is 18 by 32. The grid has 20 points; point t
  is handed rows 5000·t … 5000·t + 4999 of x together with the whole of W1, and writes rows 5000·t … 5000·t + 4999
  of the result. Entry (p, q) of the block written at point t is Σ_k x (5000·t + p, k) · W1 (k, q): it depends on one
  row of x and one column of W1 only, so it is entry (5000·t + p, q) of the full product x · W1. Every row r of the
  result lies in exactly one block, the one of point r / 5000, so after the last point the result array is x · W1.
-/
import proofs.«130963_j73718818668739_1_alg».proof.Proof.Gen.KernelIdeal.Frame
import proofs.«130963_j73718818668739_1_alg».proof.Proof.Spec
import proofs.«130963_j73718818668739_1_alg».proof.Proof.LibPlainDot
import Idealize.ShloMosaic.Lib.Pipeline.Value
noncomputable section
open scoped BigOperators
namespace Cert.KernelIdeal.RegionValue
open Cert.KernelIdeal Cert.KernelIdeal.Gen Idealize.ShloMosaic Idealize.ShloMosaic.TcCoe Idealize.SL.Sem
open Idealize.ShloMosaic.Pipeline (Dat)
open Idealize.ShloMosaic.ValueIdx

/-- The offsets (0, 0) of a whole block are the constant zero. -/
theorem zero_offsets : (![0, 0] : Fin 2 → Nat) = fun _ => 0 := funext fun a => by fin_cases a <;> rfl

/-! ## One block of the product -/

/-- Entry (p, q) of the block a point writes, from the block of rows a (5000 × 18) and the weights w (18 × 32) it is
    handed: Σ_k a (p, k) · w (k, q). The body stores one value over its whole output block; narrowing the operands
    changes nothing on the extended reals; the product accumulates onto zero. -/
theorem block0_apply (a : Vec Ideal S5000x18 .f32) (w : Vec Ideal S18x32 .f32) (p : Fin 5000) (q : Fin 32) :
    out0_2 (F := Ideal) a w (ix2 p q) = ∑ k : Fin 18, a (ix2 p k) * w (ix2 k q) := by
  unfold out0_2
  rw [View.canon_unit_zero zero_offsets]
  simp only [View.ld_unit_zero (S := S5000x18) zero_offsets, View.ld_unit_zero (S := S18x32) zero_offsets]
  unfold k0_pay1
  exact Cert.LibPlainDot.matmul_zero_apply (M := 5000) (K := 18) (N := 32) none _ _ p q

/-! ## Which rows a point is handed -/

/-- The block indices at point t: the table's and the result's blocks are the t-th block of rows (all columns), the
    weights' block is the only one there is. -/
theorem maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Entry y of the table's block at point t is the table at row 5000·t + y₀, column y₁. -/
theorem x_rows (c : Dev nD) (t : Fin cfg0.N) (y : S5000x18.Idx) (i : S100000x18.Idx)
    (h0 : (i 0).val = 5000 * t.val + (y 0).val) (h1 : (i 1).val = (y 1).val) :
    (iblk0 V c 0 t : Vec Ideal S5000x18 .f32) y = (V c main_arg0 : S100000x18.Idx → EReal) i := by
  obtain ⟨e0, e1, -⟩ := maps0 t
  unfold iblk0
  rw [View.read_apply]
  show V c main_arg0 _ = V c main_arg0 _
  congr 1
  funext a
  apply Fin.ext
  match a with
  | ⟨0, _⟩ => show win0_0.index t 0 * 5000 + 1 * (y 0).val = (i 0).val; rw [e0, h0]; omega
  | ⟨1, _⟩ => show win0_0.index t 1 * 18 + 1 * (y 1).val = (i 1).val; rw [e1, h1]; omega

/-- The weights' block at every point is the whole weight matrix. -/
theorem w_whole (c : Dev nD) (t : Fin cfg0.N) (y : S18x32.Idx) :
    (iblk0 V c 1 t : Vec Ideal S18x32 .f32) y = (V c main_arg2 : S18x32.Idx → EReal) y := by
  obtain ⟨-, -, e2, e3, -⟩ := maps0 t
  unfold iblk0
  rw [View.read_apply]
  show V c main_arg2 _ = V c main_arg2 _
  congr 1
  funext a
  apply Fin.ext
  match a with
  | ⟨0, _⟩ => show win0_1.index t 0 * 18 + 1 * (y 0).val = (y 0).val; rw [e2]; omega
  | ⟨1, _⟩ => show win0_1.index t 1 * 32 + 1 * (y 1).val = (y 1).val; rw [e3]; omega

/-- Entry (p, q) of the result's block at point t sits at row 5000·t + p, column q of the result. -/
theorem out_rows (t : Fin cfg0.N) (p : Fin 5000) (q : Fin 32) :
    ((((cfg0.win 2).blk t).view.emb (ix2 p q)) 0).val = 5000 * t.val + p.val
      ∧ ((((cfg0.win 2).blk t).view.emb (ix2 p q)) 1).val = q.val := by
  obtain ⟨-, -, -, -, e4, e5⟩ := maps0 t
  constructor
  · show win0_2.index t 0 * 5000 + 1 * p.val = _; rw [e4]; omega
  · show win0_2.index t 1 * 32 + 1 * q.val = _; rw [e5]; omega

/-! ## What a point writes is its block of x · W1 -/

/-- Point t writes rows 5000·t … 5000·t + 4999 of the product: at (p, q) both sides are Σ_k x (5000·t + p, k) · W1 (k, q),
    term by term — the left factor through the rows the point is handed, the right factor through the whole weights. -/
theorem written0 (c : Dev nD) (t : Fin cfg0.N) :
    (dat0 (F := Ideal) V c).flushed 2 t
      = ((cfg0.win 2).blk t).view.read (Elt Ideal) (Cert.Spec.mm 100000 18 32 (V c main_arg0) (V c main_arg2)) := by
  show (cfg0.win 2).cut (grid0.coords t) ((dat0 V c).after 2 t) = _
  rw [after0_2]
  funext j
  obtain ⟨p, q, rfl⟩ : ∃ (p : Fin 5000) (q : Fin 32), j = ix2 p q := ⟨j 0, j 1, eq_ix2 j⟩
  obtain ⟨r0, r1⟩ := out_rows t p q
  show out0_2 (iblk0 V c 0 t) (iblk0 V c 1 t) (ix2 p q)
    = Cert.Spec.mm 100000 18 32 (V c main_arg0) (V c main_arg2) (((cfg0.win 2).blk t).view.emb (ix2 p q))
  rw [block0_apply (iblk0 V c 0 t) (iblk0 V c 1 t) p q]
  unfold Cert.Spec.mm
  refine Finset.sum_congr rfl fun k _ => ?_
  refine congrArg₂ (fun a b : EReal => a * b) ?_ ?_
  · exact x_rows V c t (ix2 p k) _ r0 rfl
  · refine (w_whole V c t (ix2 k q)).trans (congrArg _ ?_)
    funext a
    match a with
    | ⟨0, _⟩ => rfl
    | ⟨1, _⟩ => exact Fin.ext r1.symm

/-! ## The blocks cover the result -/

/-- An index of the result is in point t's block iff each coordinate is in the block's range on its axis. -/
theorem in_block0 (t : Fin cfg0.N) (i : S100000x32.Idx) :
    i ∈ ((cfg0.win 2).blk t).view.set ↔ ∀ a : Fin 2, win0_2.index t a * S5000x32.size a ≤ (i a).val
      ∧ (i a).val < win0_2.index t a * S5000x32.size a + S5000x32.size a := by
  show i ∈ ((View.whole main_v30).slice (win0_2.rect t)).set ↔ _
  rw [View.set_slice_whole, Rect.mem_set_unit]
  exact Iff.rfl

/-- Row r of the result is written by point r / 5000: 5000·(r / 5000) ≤ r < 5000·(r / 5000) + 5000, and r < 100000
    puts r / 5000 below 20. -/
theorem covered0 (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 20 := N_0
  refine ⟨⟨(i 0).val / 5000, by omega⟩, flush0_2 _, ?_⟩
  obtain ⟨-, -, -, -, e4, e5⟩ := maps0 ⟨(i 0).val / 5000, by omega⟩
  rw [in_block0]
  intro a
  match a with
  | ⟨0, _⟩ =>
    show win0_2.index _ 0 * 5000 ≤ (i 0).val ∧ (i 0).val < win0_2.index _ 0 * 5000 + 5000
    rw [e4]; show (i 0).val / 5000 * 5000 ≤ (i 0).val ∧ (i 0).val < (i 0).val / 5000 * 5000 + 5000; omega
  | ⟨1, _⟩ =>
    show win0_2.index _ 1 * 32 ≤ (i 1).val ∧ (i 1).val < win0_2.index _ 1 * 32 + 32
    rw [e5]; omega

/-! ## The result array -/

/-- After the last point the result array is the product x · W1 of the table and the weights as the region found them. -/
theorem region0 (V : (c : Dev nD) → (b : Ref sig .tc) → Buf (Elt Ideal) ((c : Thread nD τ).loc b)) (c : Dev nD) :
    (dat0 (F := Ideal) V c).arrAt 2 cfg0.N = Cert.Spec.mm 100000 18 32 (V c main_arg0) (V c main_arg2) :=
  (dat0 (F := Ideal) V c).arrAt_eq_of_cover 2 (Cert.Spec.mm 100000 18 32 (V c main_arg0) (V c main_arg2))
    (fun t _ => written0 V c t) covered0

end Cert.KernelIdeal.RegionValue

end
-- ==== Proof.Region1.lean ====
/-
  One layer's transform, max (raw + b) 0 · W2, read off the blocks the grid writes.

  The node table raw has 100000 rows of 32 features, the bias b is one row of 32, and the weight matrix W2 is 32 by 64.
  The grid has 20 points; point t is handed rows 5000·t … 5000·t + 4999 of raw together with the whole of b and of W2,
  and writes rows 5000·t … 5000·t + 4999 of the result. Inside a block the bias row is repeated down the rows, added,
  the sum is clamped below at zero, and the clamped block is multiplied by W2. So entry (p, q) of the block written at
  point t is Σ_k max (raw (5000·t + p, k) + b (0, k)) 0 · W2 (k, q): it depends on one row of raw, on b and on one
  column of W2 only, hence is entry (5000·t + p, q) of the layer applied to the whole table. Every row r of the result
  lies in exactly one block, the one of point r / 5000, so after the last point the result array is the layer's value.
-/
import proofs.«130963_j73718818668739_1_alg».proof.Proof.Gen.KernelIdeal.Frame
import proofs.«130963_j73718818668739_1_alg».proof.Proof.Spec
import proofs.«130963_j73718818668739_1_alg».proof.Proof.LibPlainDot
import Idealize.ShloMosaic.Lib.Pipeline.Value
noncomputable section
open scoped BigOperators
namespace Cert.KernelIdeal.RegionValue
open Cert.KernelIdeal Cert.KernelIdeal.Gen Idealize.ShloMosaic Idealize.ShloMosaic.TcCoe Idealize.SL.Sem
open Idealize.ShloMosaic.Pipeline (Dat)
open Idealize.ShloMosaic.ValueIdx

/-- The offsets (0, 0) of a whole block are the constant zero. -/
theorem zero_offsets1 : (![0, 0] : Fin 2 → Nat) = fun _ => 0 := funext fun a => by fin_cases a <;> rfl

/-! ## One block of the transform -/

/-- Entry (p, q) of the block a point writes, from the block of rows a (5000 × 32), the bias row b (1 × 32) and the
    weights w (32 × 64) it is handed: Σ_k max (a (p, k) + b (0, k)) 0 · w (k, q). The body stores one value over its whole
    output block. The product accumulates onto zero and narrowing its operands changes nothing on the extended reals,
    so the entry is Σ_k l (p, k) · w (k, q) with l the clamped block; and l (p, k) is read through the pointwise
    operations: reshaping to the same shape is the identity, the bias row repeated down the rows reads b (0, k) at every
    row p, then the sum and the maximum with the zero word are taken entry by entry. -/
theorem block1_apply (a : Vec Ideal S5000x32 .f32) (b : Vec Ideal S1x32 .f32) (w : Vec Ideal S32x64 .f32)
    (p : Fin 5000) (q : Fin 64) :
    out1_3 (F := Ideal) a b w (ix2 p q)
      = ∑ k : Fin 32, max (a (ix2 p k) + b (ix2 (0 : Fin 1) k)) (Ideal.ofBits .f32 0x00000000#32) * w (ix2 k q) := by
  unfold out1_3
  rw [View.canon_unit_zero zero_offsets1]
  simp only [View.ld_unit_zero (S := S5000x32) zero_offsets1, View.ld_unit_zero (S := S1x32) zero_offsets1,
    View.ld_unit_zero (S := S32x64) zero_offsets1]
  unfold k1_pay1
  refine (Cert.LibPlainDot.matmul_zero_apply (M := 5000) (K := 32) (N := 64) none _ _ p q).trans ?_
  refine Finset.sum_congr rfl fun k _ => ?_
  refine congrArg₂ (fun u v : EReal => u * v) ?_ rfl
  show max (shapeCast S5000x32 a shapeCasts_S5000x32_S5000x32 (ix2 p k)
      + broadcastTo S5000x32 (shapeCast S1x32 b shapeCasts_S1x32_S1x32) broadcasts_S1x32_S5000x32 (ix2 p k))
      (Ideal.ofBits .f32 0x00000000#32) = _
  rw [shapeCast_self, shapeCast_self,
    broadcastTo_apply b broadcasts_S1x32_S5000x32 (ix2 p k) (ix2 (0 : Fin 1) k) (fun d => by
      match d with
      | ⟨0, _⟩ => rfl
      | ⟨1, _⟩ => rfl)]

/-! ## Which rows a point is handed -/

/-- The block indices at point t: the table's and the result's blocks are the t-th block of rows (all columns); the
    bias row's and the weights' blocks are the only ones there are. -/
theorem maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- Entry y of the table's block at point t is the table at row 5000·t + y₀, column y₁. -/
theorem raw_rows (c : Dev nD) (t : Fin cfg1.N) (y : S5000x32.Idx) (i : S100000x32.Idx)
    (h0 : (i 0).val = 5000 * t.val + (y 0).val) (h1 : (i 1).val = (y 1).val) :
    (iblk1 V c 0 t : Vec Ideal S5000x32 .f32) y = (V c main_v43 : S100000x32.Idx → EReal) i := by
  obtain ⟨e0, e1, -⟩ := maps1 t
  unfold iblk1
  rw [View.read_apply]
  show V c main_v43 _ = V c main_v43 _
  congr 1
  funext a
  apply Fin.ext
  match a with
  | ⟨0, _⟩ => show win1_0.index t 0 * 5000 + 1 * (y 0).val = (i 0).val; rw [e0, h0]; omega
  | ⟨1, _⟩ => show win1_0.index t 1 * 32 + 1 * (y 1).val = (i 1).val; rw [e1, h1]; omega

/-- The bias row's block at every point is the whole bias row. -/
theorem bias_whole (c : Dev nD) (t : Fin cfg1.N) (y : S1x32.Idx) :
    (iblk1 V c 1 t : Vec Ideal S1x32 .f32) y = (V c main_v44 : S1x32.Idx → EReal) y := by
  obtain ⟨-, -, e2, e3, -⟩ := maps1 t
  unfold iblk1
  rw [View.read_apply]
  show V c main_v44 _ = V c main_v44 _
  congr 1
  funext a
  apply Fin.ext
  match a with
  | ⟨0, _⟩ => show win1_1.index t 0 * 1 + 1 * (y 0).val = (y 0).val; rw [e2]; omega
  | ⟨1, _⟩ => show win1_1.index t 1 * 32 + 1 * (y 1).val = (y 1).val; rw [e3]; omega

/-- The weights' block at every point is the whole weight matrix. -/
theorem w2_whole (c : Dev nD) (t : Fin cfg1.N) (y : S32x64.Idx) :
    (iblk1 V c 2 t : Vec Ideal S32x64 .f32) y = (V c main_arg4 : S32x64.Idx → EReal) y := by
  obtain ⟨-, -, -, -, e4, e5, -⟩ := maps1 t
  unfold iblk1
  rw [View.read_apply]
  show V c main_arg4 _ = V c main_arg4 _
  congr 1
  funext a
  apply Fin.ext
  match a with
  | ⟨0, _⟩ => show win1_2.index t 0 * 32 + 1 * (y 0).val = (y 0).val; rw [e4]; omega
  | ⟨1, _⟩ => show win1_2.index t 1 * 64 + 1 * (y 1).val = (y 1).val; rw [e5]; omega

/-- Entry (p, q) of the result's block at point t sits at row 5000·t + p, column q of the result. -/
theorem out_rows1 (t : Fin cfg1.N) (p : Fin 5000) (q : Fin 64) :
    ((((cfg1.win 3).blk t).view.emb (ix2 p q)) 0).val = 5000 * t.val + p.val
      ∧ ((((cfg1.win 3).blk t).view.emb (ix2 p q)) 1).val = q.val := by
  obtain ⟨-, -, -, -, -, -, e6, e7⟩ := maps1 t
  constructor
  · show win1_3.index t 0 * 5000 + 1 * p.val = _; rw [e6]; omega
  · show win1_3.index t 1 * 64 + 1 * q.val = _; rw [e7]; omega

/-! ## What a point writes is its block of the layer's value -/

/-- Point t writes rows 5000·t … 5000·t + 4999 of max (raw + b) 0 · W2: at (p, q) both sides are
    Σ_k max (raw (5000·t + p, k) + b (0, k)) 0 · W2 (k, q), term by term — the table through the rows the point is handed,
    the bias row and the weights through their whole arrays. -/
theorem written1 (c : Dev nD) (t : Fin cfg1.N) :
    (dat1 (F := Ideal) V c).flushed 3 t
      = ((cfg1.win 3).blk t).view.read (Elt Ideal)
          (Cert.Spec.layer 100000 32 64 (V c main_v43) (V c main_v44) (V c main_arg4)) := by
  show (cfg1.win 3).cut (grid1.coords t) ((dat1 V c).after 3 t) = _
  rw [after1_3]
  funext j
  obtain ⟨p, q, rfl⟩ : ∃ (p : Fin 5000) (q : Fin 64), j = ix2 p q := ⟨j 0, j 1, eq_ix2 j⟩
  obtain ⟨r0, r1⟩ := out_rows1 t p q
  show out1_3 (iblk1 V c 0 t) (iblk1 V c 1 t) (iblk1 V c 2 t) (ix2 p q)
    = Cert.Spec.layer 100000 32 64 (V c main_v43) (V c main_v44) (V c main_arg4)
        (((cfg1.win 3).blk t).view.emb (ix2 p q))
  rw [block1_apply (iblk1 V c 0 t) (iblk1 V c 1 t) (iblk1 V c 2 t) p q]
  unfold Cert.Spec.layer Cert.Spec.mm Cert.Spec.biasRelu
  refine Finset.sum_congr rfl fun k _ => ?_
  refine congrArg₂ (fun u v : EReal => u * v) ?_ ?_
  · refine congrArg₂ (fun u v : EReal => max (u + v) (Ideal.ofBits .f32 0x00000000#32)) ?_ ?_
    · exact raw_rows V c t (ix2 p k) _ r0 rfl
    · exact bias_whole V c t (ix2 (0 : Fin 1) k)
  · refine (w2_whole V c t (ix2 k q)).trans (congrArg _ ?_)
    funext a
    match a with
    | ⟨0, _⟩ => rfl
    | ⟨1, _⟩ => exact Fin.ext r1.symm

/-! ## The blocks cover the result -/

/-- An index of the result is in point t's block iff each coordinate is in the block's range on its axis. -/
theorem in_block1 (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v45).slice (win1_3.rect t)).set ↔ _
  rw [View.set_slice_whole, Rect.mem_set_unit]
  exact Iff.rfl

/-- Row r of the result is written by point r / 5000: 5000·(r / 5000) ≤ r < 5000·(r / 5000) + 5000, and r < 100000
    puts r / 5000 below 20. -/
theorem covered1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  refine ⟨⟨(i 0).val / 5000, by omega⟩, flush1_3 _, ?_⟩
  obtain ⟨-, -, -, -, -, -, e6, e7⟩ := maps1 ⟨(i 0).val / 5000, by omega⟩
  rw [in_block1]
  intro a
  match a with
  | ⟨0, _⟩ =>
    show win1_3.index _ 0 * 5000 ≤ (i 0).val ∧ (i 0).val < win1_3.index _ 0 * 5000 + 5000
    rw [e6]; show (i 0).val / 5000 * 5000 ≤ (i 0).val ∧ (i 0).val < (i 0).val / 5000 * 5000 + 5000; omega
  | ⟨1, _⟩ =>
    show win1_3.index _ 1 * 64 ≤ (i 1).val ∧ (i 1).val < win1_3.index _ 1 * 64 + 64
    rw [e7]; omega

/-! ## The result array -/

/-- After the last point the result array is max (raw + b) 0 · W2 of the table, the bias row and the weights as the
    region found them. -/
theorem region1 (V : (c : Dev nD) → (b : Ref sig .tc) → Buf (Elt Ideal) ((c : Thread nD τ).loc b)) (c : Dev nD) :
    (dat1 (F := Ideal) V c).arrAt 3 cfg1.N = Cert.Spec.layer 100000 32 64 (V c main_v43) (V c main_v44) (V c main_arg4) :=
  (dat1 (F := Ideal) V c).arrAt_eq_of_cover 3 (Cert.Spec.layer 100000 32 64 (V c main_v43) (V c main_v44) (V c main_arg4))
    (fun t _ => written1 V c t) covered1

end Cert.KernelIdeal.RegionValue

end
-- ==== Proof.LibBlockRows.lean ====
/-
  Three readings of array operations at one entry, general in the extents, that the attention block needs beside
  the column and row-sum readings: a block with two leading unit axes read as a matrix, a matrix given two leading
  unit axes, and the maximum of a matrix's rows on the extended reals.

  A block [1, 1, a, b] holds one matrix. In row-major order the position of (0, 0, i, j) is
  ((0 · 1 + 0) · a + i) · b + j = i · b + j, the position of (i, j) in [a, b], so dropping or adding the two unit
  axes moves no entry. The maximum of a row is the fold of max over the row's entries, from the accumulator's value.
-/
import Idealize.ShloMosaic.PureOps.Ideal.Laws
import Idealize.ShloMosaic.Lib.ValueIdx
import Idealize.ShloMosaic.Lib.Pipeline.Value

noncomputable section

open scoped BigOperators

namespace Cert.LibBlockRows

open Idealize.ShloMosaic Idealize.ShloMosaic.ValueIdx

section Layout
variable {α : Type}

/-- A block [1, 1, a, b] cast to the matrix [a, b] reads, at (i, j), the block at (0, 0, i, j): both have the
    row-major position i · b + j. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A matrix [a, b] cast to a block [1, 1, a, b] reads, at (u, u', i, j), the matrix at (i, j): the two unit
    coordinates are 0, and the row-major positions agree as above. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

end Layout

/-- A maximum reduction of a matrix [a, b] along its second axis is at n the fold of max, from the accumulator's
    value, over the entries (n, m), m < b. The library reads the reduction as the fold over the reduced axis of
    the source at the result index with the reduced coordinate put back in; for a matrix reduced along its columns
    that index is (n, m), coordinate by coordinate. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (n : Fin a) :
    multiReduction (F := Ideal) .maximumf [1] ⟨1, ![a]⟩ src acc h hφ hacc (ix1 n)
      = (Finset.univ : Finset (Fin b)).fold max (Ideal.ofBits .f32 acc) (fun m => src (ix2 n m)) :=
  (Ideal.multiReduction_maximumf_single src acc h hφ hacc (ix1 n)).trans
    (congrArg (fun f : Fin b → EReal => (Finset.univ : Finset (Fin b)).fold max (Ideal.ofBits .f32 acc) f)
      (funext fun m => congrArg src (funext fun c => Fin.ext (by
        match c with
        | ⟨0, _⟩ => rfl
        | ⟨1, _⟩ => rfl))))

end Cert.LibBlockRows

end
-- ==== Proof.Region2.lean ====
/-
  The third region: the result array is the log-probabilities of the logits of the whole node table.

  The region runs over 20 grid points. Point t reads rows 5000 t … 5000 t + 4999 of the node table raw2 [100000, 64]
  and the whole bias row b2 [1, 64], weights Wfc [64, 2] and output bias row bfc [1, 2], and writes rows
  5000 t … 5000 t + 4999 of the result [100000, 2]. On its block of rows the body computes the logits
  z = max (raw2 + b2) 0 · Wfc + bfc, the maximum m (p) of each row of z folded from minus infinity, the sum
  s (p) = Σ_q exp (z (p, q) - m (p)), and stores z (p, q) - (m (p) + log s (p)).

  Entry (p, q) of the stored block uses row p of the block of raw2 and nothing else of it: the clamped table is
  entrywise, the matrix product's entry (p, q) is a sum over k of entries (p, k), and the maximum and the sum run
  along the row. Row p of the block at point t is row 5000 t + p of the table, so the stored block is the
  restriction to rows 5000 t … 5000 t + 4999 of ONE function of the whole table, the specification's
  `lsmK` of `logits`. Every row r < 100000 is written by the point r / 5000, so after the 20 points the result array
  holds that function.

  The file has three parts: the body's arithmetic read at an entry (the clamped table, the logits, the row maxima
  and row sums as columns, the last subtraction); the two row-locality lemmas on the specification; the blocks
  (each window's block as rows of its array, what a point writes back, the cover) and the theorem.
-/
import proofs.«130963_j73718818668739_1_alg».proof.Proof.Gen.KernelIdeal.Frame
import proofs.«130963_j73718818668739_1_alg».proof.Proof.Spec
import proofs.«130963_j73718818668739_1_alg».proof.Proof.LibPlainDot
import proofs.«130963_j73718818668739_1_alg».proof.Proof.LibColumn
import proofs.«130963_j73718818668739_1_alg».proof.Proof.LibBlockRows
import Idealize.ShloMosaic.Lib.Pipeline.Value
import Idealize.ShloMosaic.Lib.ValueLayout
noncomputable section
namespace Cert.KernelIdeal.RegionValue
open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

namespace FinalLayer

/-! ## The body's arithmetic, in named stages -/

/-- The clamped table of a block: every row of the block shifted by the bias row, clamped below at zero. -/
def hidBlk (x0 : Vec Ideal S5000x64 .f32) (x1 : Vec Ideal S1x64 .f32) : FVec Ideal S5000x64 .f32 :=
  maximumf (addf (shapeCast S5000x64 x0 shapeCasts_S5000x64_S5000x64)
      (broadcastTo S5000x64 (shapeCast S1x64 x1 shapeCasts_S1x64_S1x64) broadcasts_S1x64_S5000x64))
    (broadcast S5000x64 (Scalar.ofBits .f32 0x00000000#32))

/-- The block's logits as the body computes them. -/
def zBlk (x0 : Vec Ideal S5000x64 .f32) (x1 : Vec Ideal S1x64 .f32) (x2 : Vec Ideal S64x2 .f32) (x3 : Vec Ideal S1x2 .f32) :
    FVec Ideal S5000x2 .f32 :=
  addf (matmul dot_S5000x64_S64x2_S5000x2_1_0_0_1_n_n none
      (truncf .bf16 (hidBlk x0 x1) bitsLt_bf16_f32)
      (truncf .bf16 x2 bitsLt_bf16_f32) (constant (F := Ideal) S5000x2 .f32 0x00000000#32))
    (broadcastTo S5000x2 (shapeCast S1x2 x3 shapeCasts_S1x2_S1x2) broadcasts_S1x2_S5000x2)

/-- The row maxima of a block of logits, as a column [5000, 1]: the maximum along each row, from the word of minus
    infinity, then the vector of 5000 maxima cast to a column. -/
def rowMaxCol (z : FVec Ideal S5000x2 .f32) : FVec Ideal S5000x1 .f32 :=
  shapeCast S5000x1 (multiReduction (F := Ideal) .maximumf [1] S5000 z 0xFF800000#32 reduces_S5000x2_S5000 (.inl rfl) rfl)
    shapeCasts_S5000_S5000x1

/-- The row sums, as a column [5000, 1]: the row's maximum is repeated along the row and subtracted, the
    exponential is taken entrywise, and the rows are summed from the zero word. -/
def rowSumCol (z : FVec Ideal S5000x2 .f32) : FVec Ideal S5000x1 .f32 :=
  shapeCast S5000x1 (multiReduction (F := Ideal) .add [1] S5000
      (exp (subf z (broadcastTo S5000x2 (rowMaxCol z) broadcasts_S5000x1_S5000x2)))
      0x00000000#32 reduces_S5000x2_S5000 (.inl rfl) rfl) shapeCasts_S5000_S5000x1

/-- The last stage: the column m + log s is repeated along each row and subtracted from the logits. -/
def lsmBlk (z : FVec Ideal S5000x2 .f32) : FVec Ideal S5000x2 .f32 :=
  subf z (broadcastTo S5000x2 (addf (rowMaxCol z) (log (rowSumCol z))) broadcasts_S5000x1_S5000x2)

/-- The body's payload is these stages composed: the payload's named intermediate values, substituted, are the
    same term. -/
theorem pay_eq (x0 : Vec Ideal S5000x64 .f32) (x1 : Vec Ideal S1x64 .f32) (x2 : Vec Ideal S64x2 .f32) (x3 : Vec Ideal S1x2 .f32) :
    k2_pay1 (F := Ideal) x0 x1 x2 x3 = lsmBlk (zBlk x0 x1 x2 x3) := rfl

/-- The clamped table at entry (p, k): max (x0 (p, k) + x1 (0, k)) 0. The two casts are to the same shape and move
    nothing; the bias row repeated over 5000 rows reads the row at column k. -/
theorem hidBlk_apply (x0 : Vec Ideal S5000x64 .f32) (x1 : Vec Ideal S1x64 .f32) (p : Fin 5000) (k : Fin 64) :
    hidBlk x0 x1 (ix2 p k) = Cert.Spec.biasRelu 5000 64 x0 x1 (ix2 p k) := by
  show max (shapeCast S5000x64 x0 shapeCasts_S5000x64_S5000x64 (ix2 p k)
      + broadcastTo S5000x64 (shapeCast S1x64 x1 shapeCasts_S1x64_S1x64) broadcasts_S1x64_S5000x64 (ix2 p k))
      (Ideal.ofBits .f32 0x00000000#32)
    = max (x0 (ix2 p k) + x1 (ix2 (0 : Fin 1) k)) (Ideal.ofBits .f32 0x00000000#32)
  rw [shapeCast_self, shapeCast_self, broadcastTo_1b_ab_apply]

/-- The block's logits at entry (p, q): Σ_k max (x0 (p, k) + x1 (0, k)) 0 · x2 (k, q) + x3 (0, q). The roundings to
    the narrower format are the identity on the extended reals; the product into the zero accumulator is the plain
    matrix product (its record lists the plain product's axes); the output bias row repeated over 5000 rows reads
    the row at column q. -/
theorem zBlk_apply (x0 : Vec Ideal S5000x64 .f32) (x1 : Vec Ideal S1x64 .f32) (x2 : Vec Ideal S64x2 .f32) (x3 : Vec Ideal S1x2 .f32)
    (p : Fin 5000) (q : Fin 2) :
    zBlk x0 x1 x2 x3 (ix2 p q) = Cert.Spec.logits 5000 64 2 x0 x1 x2 x3 (ix2 p q) := by
  show FloatOps.matmul (DotDims.plain 5000 64 2) none
        (truncf .bf16 (hidBlk x0 x1) bitsLt_bf16_f32 : FVec Ideal S5000x64 .bf16)
        (truncf .bf16 x2 bitsLt_bf16_f32 : FVec Ideal S64x2 .bf16) (constant (F := Ideal) S5000x2 .f32 0x00000000#32) (ix2 p q)
      + broadcastTo S5000x2 (shapeCast S1x2 x3 shapeCasts_S1x2_S1x2) broadcasts_S1x2_S5000x2 (ix2 p q)
    = (∑ k : Fin 64, Cert.Spec.biasRelu 5000 64 x0 x1 (ix2 p k) * x2 (ix2 k q)) + x3 (ix2 (0 : Fin 1) q)
  refine congrArg₂ (· + ·) ?_ ?_
  · refine (Cert.LibPlainDot.matmul_zero_apply none _ _ p q).trans ?_
    exact Finset.sum_congr rfl fun k _ => congrArg (· * x2 (ix2 k q)) (hidBlk_apply x0 x1 p k)
  · rw [shapeCast_self]
    exact broadcastTo_1b_ab_apply _ _ p q

/-- The column of row maxima: at (p, 0) the maximum of row p, folded from minus infinity. -/
theorem rowMaxCol_apply (z : FVec Ideal S5000x2 .f32) (p : Fin 5000) (u : Fin 1) :
    rowMaxCol z (ix2 p u) = Cert.Spec.rowMax 5000 2 z p :=
  (Cert.LibColumn.shapeCast_a_a1_apply _ shapeCasts_S5000_S5000x1 p u).trans
    (Cert.LibBlockRows.rowMax_apply z 0xFF800000#32 reduces_S5000x2_S5000 (.inl rfl) rfl p)

/-- The column of row sums: at (p, 0) the sum over row p of exp (z - the row's maximum). -/
theorem rowSumCol_apply (z : FVec Ideal S5000x2 .f32) (p : Fin 5000) (u : Fin 1) :
    rowSumCol z (ix2 p u) = Cert.Spec.rowSumExp 5000 2 z p := by
  refine (Cert.LibColumn.shapeCast_a_a1_apply _ shapeCasts_S5000_S5000x1 p u).trans ?_
  refine (Cert.LibColumn.rowSum_apply _ reduces_S5000x2_S5000 (.inl rfl) rfl p).trans ?_
  refine Finset.sum_congr rfl fun q _ => ?_
  show Ideal.exp (z (ix2 p q) - broadcastTo S5000x2 (rowMaxCol z) broadcasts_S5000x1_S5000x2 (ix2 p q))
    = Ideal.exp (z (ix2 p q) - Cert.Spec.rowMax 5000 2 z p)
  rw [Cert.LibColumn.broadcastTo_a1_ab_apply, rowMaxCol_apply]

/-- The last stage at entry (p, q): z (p, q) - (m (p) + log s (p)). -/
theorem lsmBlk_apply (z : FVec Ideal S5000x2 .f32) (p : Fin 5000) (q : Fin 2) :
    lsmBlk z (ix2 p q) = Cert.Spec.lsmK 5000 2 z (ix2 p q) := by
  show z (ix2 p q) - broadcastTo S5000x2 (addf (rowMaxCol z) (log (rowSumCol z))) broadcasts_S5000x1_S5000x2 (ix2 p q)
    = z (ix2 p q) - (Cert.Spec.rowMax 5000 2 z p + Ideal.log (Cert.Spec.rowSumExp 5000 2 z p))
  rw [Cert.LibColumn.broadcastTo_a1_ab_apply]
  show z (ix2 p q) - (rowMaxCol z (ix2 p 0) + Ideal.log (rowSumCol z (ix2 p 0))) = _
  rw [rowMaxCol_apply, rowSumCol_apply]

/-! ## Rows: the log-probabilities of a node are a function of the node's own row -/

/-- Row p of the logits is a function of row p of the node table: two tables that agree on a row (at whatever
    positions p, p' the row sits in them) give the same logits there. -/
theorem logits_row {M M' K N : Nat} (raw : Cert.Spec.Mat M K) (raw' : Cert.Spec.Mat M' K) (b : Cert.Spec.Mat 1 K)
    (w : Cert.Spec.Mat K N) (bf : Cert.Spec.Mat 1 N) (p : Fin M) (p' : Fin M')
    (h : ∀ k : Fin K, raw (ix2 p k) = raw' (ix2 p' k)) (q : Fin N) :
    Cert.Spec.logits M K N raw b w bf (ix2 p q) = Cert.Spec.logits M' K N raw' b w bf (ix2 p' q) := by
  show (∑ k : Fin K, max (raw (ix2 p k) + b (ix2 (0 : Fin 1) k)) (Ideal.ofBits .f32 0x00000000#32) * w (ix2 k q))
      + bf (ix2 (0 : Fin 1) q)
    = (∑ k : Fin K, max (raw' (ix2 p' k) + b (ix2 (0 : Fin 1) k)) (Ideal.ofBits .f32 0x00000000#32) * w (ix2 k q))
      + bf (ix2 (0 : Fin 1) q)
  exact congrArg (· + bf (ix2 (0 : Fin 1) q)) (Finset.sum_congr rfl fun k _ => by rw [h k])

/-- Row p of the log-probabilities is a function of row p of the logits. -/
theorem lsmK_row {M M' N : Nat} (z : Cert.Spec.Mat M N) (z' : Cert.Spec.Mat M' N) (p : Fin M) (p' : Fin M')
    (h : ∀ q : Fin N, z (ix2 p q) = z' (ix2 p' q)) (q : Fin N) :
    Cert.Spec.lsmK M N z (ix2 p q) = Cert.Spec.lsmK M' N z' (ix2 p' q) := by
  have hm : Cert.Spec.rowMax M N z p = Cert.Spec.rowMax M' N z' p' := by
    unfold Cert.Spec.rowMax
    rw [show (fun q => z (ix2 p q)) = fun q => z' (ix2 p' q) from funext h]
  have hs : Cert.Spec.rowSumExp M N z p = Cert.Spec.rowSumExp M' N z' p' := by
    unfold Cert.Spec.rowSumExp
    rw [hm]
    exact Finset.sum_congr rfl fun q _ => by rw [h q]
  show z (ix2 p q) - (Cert.Spec.rowMax M N z p + Ideal.log (Cert.Spec.rowSumExp M N z p))
    = z' (ix2 p' q) - (Cert.Spec.rowMax M' N z' p' + Ideal.log (Cert.Spec.rowSumExp M' N z' p'))
  rw [h q, hm, hs]

/-! ## The output block at an entry -/

/-- The offsets (0, 0) of the body's loads and of its store are zero on both axes. -/
theorem zero_offsets : (![0, 0] : Fin 2 → Nat) = fun _ => 0 := funext fun a => by fin_cases a <;> rfl

/-- The body's one store covers the output block, and its loads read the whole input blocks: the output block
    is the payload of the input blocks. -/
theorem out_eq_pay (x0 : Vec Ideal S5000x64 .f32) (x1 : Vec Ideal S1x64 .f32) (x2 : Vec Ideal S64x2 .f32) (x3 : Vec Ideal S1x2 .f32) :
    out2_4 (F := Ideal) x0 x1 x2 x3 = k2_pay1 x0 x1 x2 x3 := by
  unfold out2_4
  rw [View.canon_unit_zero zero_offsets, View.ld_unit_zero zero_offsets, View.ld_unit_zero zero_offsets, View.ld_unit_zero zero_offsets, View.ld_unit_zero zero_offsets]

/-- Entry (p, q) of the output block, when row p of the table's block is row r of a table A0 and the other
    three blocks are the whole arrays A1, A2, A3: entry (r, q) of the log-probabilities of the whole table A0. -/
theorem out_point (A0 : Cert.Spec.Mat 100000 64) (A1 : Cert.Spec.Mat 1 64) (A2 : Cert.Spec.Mat 64 2) (A3 : Cert.Spec.Mat 1 2)
    (x0 : Vec Ideal S5000x64 .f32) (x1 : Vec Ideal S1x64 .f32)
    (x2 : Vec Ideal S64x2 .f32) (x3 : Vec Ideal S1x2 .f32) (r : Fin 100000) (p : Fin 5000) (q : Fin 2)
    (h0 : ∀ k : Fin 64, x0 (ix2 p k) = A0 (ix2 r k)) (h1 : x1 = A1) (h2 : x2 = A2) (h3 : x3 = A3) :
    out2_4 (F := Ideal) x0 x1 x2 x3 (ix2 p q)
      = Cert.Spec.lsmK 100000 2 (Cert.Spec.logits 100000 64 2 A0 A1 A2 A3) (ix2 r q) := by
  subst h1 h2 h3
  rw [out_eq_pay, pay_eq, lsmBlk_apply]
  refine lsmK_row _ _ p r (fun q' => ?_) q
  rw [zBlk_apply]
  exact logits_row x0 A0 x1 x2 x3 p r h0 q'

/-! ## From the blocks to the array -/

section Blocks
variable (V : (c : Dev nD) → (b : Ref sig .tc) → Buf (Elt Ideal) ((c : Thread nD τ).loc b))

/-- The printed index maps, decided once over the 20 grid points: the table's window and the result's window are
    at block row t, block column 0, at point t; the bias rows and the weights are whole arrays, at block (0, 0) at
    every point. -/
theorem blockIndex_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The table's block at point t holds rows 5000 t … 5000 t + 4999 of the table: its entry (p, k) is the
    table's entry (r, k) with r = 5000 t + p. -/
theorem tableBlk_apply (c : Dev nD) (t : Fin cfg2.N) (p : Fin 5000) (k : Fin 64) (r : Fin 100000)
    (hr : r.val = 5000 * t.val + p.val) :
    (iblk2 V c 0 t : Vec Ideal S5000x64 .f32) (ix2 p k) = (V c main_v58 : Cert.Spec.Mat 100000 64) (ix2 r k) := by
  obtain ⟨e0, e1, -⟩ := blockIndex_facts t
  unfold iblk2
  rw [View.read_apply]
  show V c main_v58 _ = V c main_v58 _
  refine congrArg (V c main_v58) (funext fun a => Fin.ext ?_)
  match a with
  | ⟨0, _⟩ => show win2_0.index t (0 : Fin 2) * 5000 + 1 * p.val = r.val; rw [e0, hr]; omega
  | ⟨1, _⟩ => show win2_0.index t (1 : Fin 2) * 64 + 1 * k.val = k.val; rw [e1]; omega

/-- The first bias row's block is the whole bias row at every point. -/
theorem bias2Blk_eq (c : Dev nD) (t : Fin cfg2.N) :
    (iblk2 V c 1 t : Vec Ideal S1x64 .f32) = (V c main_v59 : Cert.Spec.Mat 1 64) := by
  obtain ⟨-, -, e0, e1, -⟩ := blockIndex_facts t
  funext y
  unfold iblk2
  rw [View.read_apply]
  show V c main_v59 _ = V c main_v59 y
  refine congrArg (V c main_v59) (funext fun a => Fin.ext ?_)
  match a with
  | ⟨0, _⟩ => show win2_1.index t (0 : Fin 2) * 1 + 1 * (y 0).val = (y 0).val; rw [e0]; omega
  | ⟨1, _⟩ => show win2_1.index t (1 : Fin 2) * 64 + 1 * (y 1).val = (y 1).val; rw [e1]; omega

/-- The weights' block is the whole weight matrix at every point. -/
theorem weightBlk_eq (c : Dev nD) (t : Fin cfg2.N) :
    (iblk2 V c 2 t : Vec Ideal S64x2 .f32) = (V c main_arg6 : Cert.Spec.Mat 64 2) := by
  obtain ⟨-, -, -, -, e0, e1, -⟩ := blockIndex_facts t
  funext y
  unfold iblk2
  rw [View.read_apply]
  show V c main_arg6 _ = V c main_arg6 y
  refine congrArg (V c main_arg6) (funext fun a => Fin.ext ?_)
  match a with
  | ⟨0, _⟩ => show win2_2.index t (0 : Fin 2) * 64 + 1 * (y 0).val = (y 0).val; rw [e0]; omega
  | ⟨1, _⟩ => show win2_2.index t (1 : Fin 2) * 2 + 1 * (y 1).val = (y 1).val; rw [e1]; omega

/-- The output bias row's block is the whole row at every point. -/
theorem biasOutBlk_eq (c : Dev nD) (t : Fin cfg2.N) :
    (iblk2 V c 3 t : Vec Ideal S1x2 .f32) = (V c main_v60 : Cert.Spec.Mat 1 2) := by
  obtain ⟨-, -, -, -, -, -, e0, e1, -⟩ := blockIndex_facts t
  funext y
  unfold iblk2
  rw [View.read_apply]
  show V c main_v60 _ = V c main_v60 y
  refine congrArg (V c main_v60) (funext fun a => Fin.ext ?_)
  match a with
  | ⟨0, _⟩ => show win2_3.index t (0 : Fin 2) * 1 + 1 * (y 0).val = (y 0).val; rw [e0]; omega
  | ⟨1, _⟩ => show win2_3.index t (1 : Fin 2) * 2 + 1 * (y 1).val = (y 1).val; rw [e1]; omega

/-- The log-probabilities of the whole node table as the region finds it. -/
abbrev wholeLsm (c : Dev nD) : Cert.Spec.Mat 100000 2 :=
  Cert.Spec.lsmK 100000 2 (Cert.Spec.logits 100000 64 2 (V c main_v58) (V c main_v59) (V c main_arg6) (V c main_v60))

/-- What point t writes back is block t of the whole table's log-probabilities: entry (p, q) of the output
    block is computed from row p of the table's block, which is row 5000 t + p of the table, and the output's
    block sits at the same rows of the result. -/
theorem writeBack_eq (c : Dev nD) (t : Fin cfg2.N) :
    (dat2 (F := Ideal) V c).flushed 4 t = ((cfg2.win 4).blk t).view.read (Elt Ideal) (wholeLsm V c) := by
  show (cfg2.win 4).cut (grid2.coords t) ((dat2 (F := Ideal) V c).after 4 t) = _
  rw [after2_4]
  obtain ⟨-, -, -, -, -, -, -, -, e0, e1⟩ := blockIndex_facts t
  have ht : t.val < 20 := t.isLt
  refine funext fun (j : S5000x2.Idx) => ?_
  obtain ⟨p, q, rfl⟩ : ∃ (p : Fin 5000) (q : Fin 2), j = ix2 p q := ⟨j 0, j 1, eq_ix2 j⟩
  rw [View.read_apply]
  have hemb : ((cfg2.win 4).blk t).view.emb (ix2 p q)
      = (ix2 (⟨5000 * t.val + p.val, by omega⟩ : Fin 100000) q : S100000x2.Idx) :=
    funext fun a => Fin.ext (by
      match a with
      | ⟨0, _⟩ => show win2_4.index t (0 : Fin 2) * 5000 + 1 * p.val = 5000 * t.val + p.val; rw [e0]; omega
      | ⟨1, _⟩ => show win2_4.index t (1 : Fin 2) * 2 + 1 * q.val = q.val; rw [e1]; omega)
  rw [hemb]
  exact out_point (V c main_v58) (V c main_v59) (V c main_arg6) (V c main_v60)
    (iblk2 V c 0 t) (iblk2 V c 1 t) (iblk2 V c 2 t) (iblk2 V c 3 t) ⟨5000 * t.val + p.val, by omega⟩ p q
    (fun k => tableBlk_apply V c t p k ⟨5000 * t.val + p.val, by omega⟩ rfl)
    (bias2Blk_eq V c t) (weightBlk_eq V c t) (biasOutBlk_eq V c t)

/-- An index of the result is in point t's block iff each coordinate is in the block's range on its axis. -/
theorem mem_resultBlk (t : Fin cfg2.N) (i : S100000x2.Idx) :
    i ∈ ((cfg2.win 4).blk t).view.set ↔ ∀ a : Fin 2, win2_4.index t a * S5000x2.size a ≤ (i a).val
      ∧ (i a).val < win2_4.index t a * S5000x2.size a + S5000x2.size a := by
  show i ∈ ((View.whole main_v61).slice (win2_4.rect t)).set ↔ _
  rw [View.set_slice_whole, Rect.mem_set_unit]
  exact Iff.rfl

/-- Every row of the result is written: row r is in the block of point r / 5000. -/
theorem rows_covered (i : S100000x2.Idx) :
    ∃ t : Fin cfg2.N, (cfg2.win 4).flush t = true ∧ i ∈ ((cfg2.win 4).blk t).view.set := by
  have hi0 : (i 0).val < 100000 := (i 0).isLt
  have hi1 : (i 1).val < 2 := (i 1).isLt
  have hN : cfg2.N = 20 := N_2
  obtain ⟨t, htv⟩ : ∃ t : Fin cfg2.N, t.val = (i 0).val / 5000 := ⟨⟨(i 0).val / 5000, by rw [hN]; omega⟩, rfl⟩
  obtain ⟨-, -, -, -, -, -, -, -, e0, e1⟩ := blockIndex_facts t
  refine ⟨t, flush2_4 t, ?_⟩
  rw [mem_resultBlk]
  intro a
  match a with
  | ⟨0, _⟩ =>
    show win2_4.index t (0 : Fin 2) * 5000 ≤ (i 0).val ∧ (i 0).val < win2_4.index t (0 : Fin 2) * 5000 + 5000
    rw [e0, htv]; omega
  | ⟨1, _⟩ =>
    show win2_4.index t (1 : Fin 2) * 2 ≤ (i 1).val ∧ (i 1).val < win2_4.index t (1 : Fin 2) * 2 + 2
    rw [e1]; omega

end Blocks

end FinalLayer

/-- The result array after the third region: the log-probabilities, grouped as z - (m + log Σ exp (z - m)), of
    the logits of the whole node table. -/
theorem region2 (V : (c : Dev nD) → (b : Ref sig .tc) → Buf (Elt Ideal) ((c : Thread nD τ).loc b)) (c : Dev nD) :
    (dat2 (F := Ideal) V c).arrAt 4 cfg2.N
      = Cert.Spec.lsmK 100000 2 (Cert.Spec.logits 100000 64 2 (V c main_v58) (V c main_v59) (V c main_arg6) (V c main_v60)) :=
  (dat2 (F := Ideal) V c).arrAt_eq_of_cover 4 (FinalLayer.wholeLsm V c) (fun t _ => FinalLayer.writeBack_eq V c t)
    FinalLayer.rows_covered

end Cert.KernelIdeal.RegionValue
end
-- ==== Proof.RefLayers.lean ====
/-
  The reference program's four dense stages, read entry by entry against the specification.

  The reference computes, for a node table x and an edge list, two graph layers and a classifier:
  a matrix product, a gather / scale / scatter-add over the edges (the aggregate), a bias row added to
  every row, a clamp below at zero, and at the end a log-softmax over each node's two logits. The
  aggregates are the same terms on both sides of every statement here and are never opened. What is
  read is the dense part between them:

    x · W₁                                   is  mm x W₁,
    max (raw₁ + b₁) 0 · W₂                   is  layer raw₁ b₁ W₂,
    max (raw₂ + b₂) 0 · W_fc + b_fc          is  logits raw₂ b₂ W_fc b_fc,
    (z − m) − log (0 + Σ exp (z − m))        is  lsmR z,   m the row maximum of z.

  Every proof has the same shape. An entry of a matrix is named by its row p and its column q; each
  operation of the reference is read at (p, q); the operand positions the reading produces are the
  positions (p, k), (k, q), (0, k) the specification names, coordinate by coordinate.
-/
import proofs.«130963_j73718818668739_1_alg».proof.Proof.RefRead
import proofs.«130963_j73718818668739_1_alg».proof.Proof.Spec
import Idealize.ShloMosaic.PureOps.Reduce
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The first product -/

/-- x · W₁: entry (p, q) of the reference's product is the sum over k of x (p, k) · W₁ (k, q). The reading of the
    product names its operands' positions by their two coordinates; these are (p, k) and (k, q). -/
theorem v30_eq (x0 : (⟨S100000x18, .f32⟩ : BufTy).Contents (Elt Ideal))
    (x2 : (⟨S18x32, .f32⟩ : BufTy).Contents (Elt Ideal)) :
    val_main_v30 (F := Ideal) x0 x2 = Cert.Spec.mm 100000 18 32 x0 x2 := by
  funext j
  obtain ⟨p, q, rfl⟩ : ∃ (p : Fin 100000) (q : Fin 32), j = ix2 p q := ⟨j 0, j 1, eq_ix2 j⟩
  unfold Cert.Spec.mm
  rw [val_main_v30_apply]
  refine Finset.sum_congr rfl fun k _ => ?_
  -- the left operand is read at (p, k), the right one at (k, q)
  have el : lidx_main_v30 (ix2 p q) k = ix2 p k :=
    funext fun a => Fin.ext (by match a with | ⟨0, _⟩ => rfl | ⟨1, _⟩ => rfl)
  have er : ridx_main_v30 (ix2 p q) k = ix2 k q :=
    funext fun a => Fin.ext (by match a with | ⟨0, _⟩ => rfl | ⟨1, _⟩ => rfl)
  rw [el, er]

/-! ## The first layer's transform -/

/-- max (raw₁ + b₁) 0 · W₂, with raw₁ the first aggregate and b₁ the bias as a row [1, 32]. Entry (p, q) of the
    product is the sum over k of its left operand at (p, k) times W₂ (k, q). The left operand at (p, k) is the maximum
    of the shifted aggregate and the zero table there; the shifted aggregate is raw₁ (p, k) plus the bias row
    broadcast down the rows, which at (p, k) is the row's entry (0, k); the zero table is the zero word everywhere. -/
theorem v71_eq (x0 : (⟨S100000x18, .f32⟩ : BufTy).Contents (Elt Ideal))
    (x1 : (⟨S2x1280000, .i32⟩ : BufTy).Contents (Elt Ideal))
    (x2 : (⟨S18x32, .f32⟩ : BufTy).Contents (Elt Ideal))
    (x3 : (⟨S32, .f32⟩ : BufTy).Contents (Elt Ideal))
    (x4 : (⟨S32x64, .f32⟩ : BufTy).Contents (Elt Ideal)) :
    val_main_v71 (F := Ideal) x0 x1 x2 x3 x4
      = Cert.Spec.layer 100000 32 64 (val_main_v43 (F := Ideal) x0 x1 x2) (val_main_v44 (F := Ideal) x3) x4 := by
  funext j
  obtain ⟨p, q, rfl⟩ : ∃ (p : Fin 100000) (q : Fin 64), j = ix2 p q := ⟨j 0, j 1, eq_ix2 j⟩
  unfold Cert.Spec.layer Cert.Spec.mm Cert.Spec.biasRelu
  rw [val_main_v71_apply]
  refine Finset.sum_congr rfl fun k _ => ?_
  -- the left operand is read at (p, k), the right one at (k, q); the bias row under (p, k) is read at (0, k)
  have el : lidx_main_v71 (ix2 p q) k = ix2 p k :=
    funext fun a => Fin.ext (by match a with | ⟨0, _⟩ => rfl | ⟨1, _⟩ => rfl)
  have er : ridx_main_v71 (ix2 p q) k = ix2 k q :=
    funext fun a => Fin.ext (by match a with | ⟨0, _⟩ => rfl | ⟨1, _⟩ => rfl)
  have eb : idx_main_v45 (ix2 p k) = ix2 (0 : Fin 1) k :=
    funext fun a => Fin.ext (by match a with | ⟨0, _⟩ => rfl | ⟨1, _⟩ => rfl)
  rw [el, er, val_main_v47_apply, val_main_v46_apply, val_main_v45_apply, val_main_call1_v0_apply,
    val_main_call1_cst_apply, eb, Ideal.maximumf_def, Ideal.addf_def, Ideal.ofBits_def]

/-! ## The logits -/

/-- max (raw₂ + b₂) 0 · W_fc + b_fc, with raw₂ the second aggregate and the two biases as rows. Entry (p, q) is the
    product's entry (p, q), read as in the first layer, plus the output bias row broadcast down the rows, which at
    (p, q) is the row's entry (0, q). -/
theorem v92_eq (x0 : (⟨S100000x18, .f32⟩ : BufTy).Contents (Elt Ideal))
    (x1 : (⟨S2x1280000, .i32⟩ : BufTy).Contents (Elt Ideal))
    (x2 : (⟨S18x32, .f32⟩ : BufTy).Contents (Elt Ideal))
    (x3 : (⟨S32, .f32⟩ : BufTy).Contents (Elt Ideal))
    (x4 : (⟨S32x64, .f32⟩ : BufTy).Contents (Elt Ideal))
    (x5 : (⟨S64, .f32⟩ : BufTy).Contents (Elt Ideal))
    (x6 : (⟨S64x2, .f32⟩ : BufTy).Contents (Elt Ideal))
    (x7 : (⟨S2, .f32⟩ : BufTy).Contents (Elt Ideal)) :
    val_main_v92 (F := Ideal) x0 x1 x2 x3 x4 x5 x6 x7
      = Cert.Spec.logits 100000 64 2 (val_main_v84 (F := Ideal) x0 x1 x2 x3 x4) (val_main_v85 (F := Ideal) x5) x6
          (val_main_v90 (F := Ideal) x7) := by
  funext j
  obtain ⟨p, q, rfl⟩ : ∃ (p : Fin 100000) (q : Fin 2), j = ix2 p q := ⟨j 0, j 1, eq_ix2 j⟩
  unfold Cert.Spec.logits Cert.Spec.layer Cert.Spec.mm Cert.Spec.biasRelu
  -- the output bias row under (p, q) is read at (0, q)
  have ef : idx_main_v91 (ix2 p q) = ix2 (0 : Fin 1) q :=
    funext fun a => Fin.ext (by match a with | ⟨0, _⟩ => rfl | ⟨1, _⟩ => rfl)
  rw [val_main_v92_apply, Ideal.addf_def, val_main_v91_apply, ef, val_main_v89_apply]
  refine congrArg₂ (fun s t : EReal => s + t) (Finset.sum_congr rfl fun k _ => ?_) rfl
  -- the left operand is read at (p, k), the right one at (k, q); the bias row under (p, k) is read at (0, k)
  have el : lidx_main_v89 (ix2 p q) k = ix2 p k :=
    funext fun a => Fin.ext (by match a with | ⟨0, _⟩ => rfl | ⟨1, _⟩ => rfl)
  have er : ridx_main_v89 (ix2 p q) k = ix2 k q :=
    funext fun a => Fin.ext (by match a with | ⟨0, _⟩ => rfl | ⟨1, _⟩ => rfl)
  have eb : idx_main_v86 (ix2 p k) = ix2 (0 : Fin 1) k :=
    funext fun a => Fin.ext (by match a with | ⟨0, _⟩ => rfl | ⟨1, _⟩ => rfl)
  rw [el, er, val_main_v88_apply, val_main_v87_apply, val_main_v86_apply, val_main_call3_v0_apply,
    val_main_call3_cst_apply, eb, Ideal.maximumf_def, Ideal.addf_def, Ideal.ofBits_def]

/-! ## The log-softmax -/

/-- The row maximum as the reference takes it. The reduction of a table z [100000, 2] along its columns, from minus
    infinity, is at row p the fold of max over the row's entries: the reduction reads z at the row index with the column
    put back in, which is (p, k). The reference then takes the maximum of minus infinity and that fold; a fold of max
    is at least its starting value, so this second maximum changes nothing. -/
theorem rowMax_read (z : (⟨S100000x2, .f32⟩ : BufTy).Contents (Elt Ideal)) (p : Fin 100000) :
    FloatOps.maximumf (F := Ideal) (φ := .f32) (val_main_call4_v1 (F := Ideal) (ix1 p))
        (Host.reduce FloatOps.maximumf z (val_main_call4_cst (F := Ideal)) reducesTo_S100000x2_S100000_d1 h_S_ (ix1 p))
      = Cert.Spec.rowMax 100000 2 z p := by
  have h : S100000x2.Reduces [1] S100000 := by decide
  -- the row index with column k put back in is (p, k)
  have elift : (z ∘ h.lift (ix1 p) : Fin 2 → EReal) = fun k => z (ix2 p k) :=
    funext fun k => congrArg z (funext fun c => Fin.ext (by
      match c with
      | ⟨0, _⟩ => rfl
      | ⟨1, _⟩ => rfl))
  have hfold : Host.reduce FloatOps.maximumf z (val_main_call4_cst (F := Ideal)) reducesTo_S100000x2_S100000_d1 h_S_ (ix1 p)
      = (Finset.univ : Finset (Fin 2)).fold max (Ideal.ofBits .f32 0xFF800000#32) (fun k => z (ix2 p k)) :=
    (Host.reduce_eq_fold_single (α := Ideal .f32) (FloatOps.maximumf (F := Ideal) (φ := .f32)) z
      (val_main_call4_cst (F := Ideal)) reducesTo_S100000x2_S100000_d1 h h_S_ (ix1 p)).trans
      (congrArg (fun f : Fin 2 → EReal => (Finset.univ : Finset (Fin 2)).fold max (Ideal.ofBits .f32 0xFF800000#32) f) elift)
  rw [hfold, val_main_call4_v1_apply, val_main_call4_cst_0_apply, Ideal.ofBits_def, Ideal.maximumf_def]
  unfold Cert.Spec.rowMax
  exact max_eq_right ((Finset.le_fold_max _).mpr (Or.inl le_rfl))

/-- The reference's row maximum of the logits: at row p it is the specification's row maximum of the logits table. -/
theorem call4_v2_eq (x0 : (⟨S100000x18, .f32⟩ : BufTy).Contents (Elt Ideal))
    (x1 : (⟨S2x1280000, .i32⟩ : BufTy).Contents (Elt Ideal))
    (x2 : (⟨S18x32, .f32⟩ : BufTy).Contents (Elt Ideal))
    (x3 : (⟨S32, .f32⟩ : BufTy).Contents (Elt Ideal))
    (x4 : (⟨S32x64, .f32⟩ : BufTy).Contents (Elt Ideal))
    (x5 : (⟨S64, .f32⟩ : BufTy).Contents (Elt Ideal))
    (x6 : (⟨S64x2, .f32⟩ : BufTy).Contents (Elt Ideal))
    (x7 : (⟨S2, .f32⟩ : BufTy).Contents (Elt Ideal)) (p : Fin 100000) :
    val_main_call4_v2 (F := Ideal) x0 x1 x2 x3 x4 x5 x6 x7 (ix1 p)
      = Cert.Spec.rowMax 100000 2 (val_main_v92 (F := Ideal) x0 x1 x2 x3 x4 x5 x6 x7) p := by
  rw [val_main_call4_v2_apply]
  unfold val_main_call4_v0
  exact rowMax_read _ p

/-- The shifted logits z − m. The row maxima are laid out as a column [100000, 1] and the column is broadcast along
    the rows, so under (p, q) stands the maximum of row p: the column is read at (p, 0), and the column's entry (p, 0)
    is the vector's entry p. -/
theorem call4_v5_eq (x0 : (⟨S100000x18, .f32⟩ : BufTy).Contents (Elt Ideal))
    (x1 : (⟨S2x1280000, .i32⟩ : BufTy).Contents (Elt Ideal))
    (x2 : (⟨S18x32, .f32⟩ : BufTy).Contents (Elt Ideal))
    (x3 : (⟨S32, .f32⟩ : BufTy).Contents (Elt Ideal))
    (x4 : (⟨S32x64, .f32⟩ : BufTy).Contents (Elt Ideal))
    (x5 : (⟨S64, .f32⟩ : BufTy).Contents (Elt Ideal))
    (x6 : (⟨S64x2, .f32⟩ : BufTy).Contents (Elt Ideal))
    (x7 : (⟨S2, .f32⟩ : BufTy).Contents (Elt Ideal)) (p : Fin 100000) (q : Fin 2) :
    val_main_call4_v5 (F := Ideal) x0 x1 x2 x3 x4 x5 x6 x7 (ix2 p q)
      = val_main_v92 (F := Ideal) x0 x1 x2 x3 x4 x5 x6 x7 (ix2 p q)
        - Cert.Spec.rowMax 100000 2 (val_main_v92 (F := Ideal) x0 x1 x2 x3 x4 x5 x6 x7) p := by
  have e : idx_main_call4_v3 (idx_main_call4_v4 (ix2 p q)) = ix1 p :=
    funext fun a => Fin.ext (by match a with | ⟨0, _⟩ => rfl)
  rw [val_main_call4_v5_apply, val_main_call4_v4_apply, val_main_call4_v3_apply, e, call4_v2_eq, Ideal.subf_def]

/-- The log-softmax of the logits z, as the reference groups it: (z − m) − log (0 + Σ exp (z − m)), with m the row
    maximum. At (p, q) the result is the shifted logit there minus the logarithm column broadcast along the rows, which
    under (p, q) is the logarithm of row p's sum. That sum starts from the zero word and adds, over the row's two
    columns k, the exponential of the shifted logit at (p, k). -/
theorem v93_eq (x0 : (⟨S100000x18, .f32⟩ : BufTy).Contents (Elt Ideal))
    (x1 : (⟨S2x1280000, .i32⟩ : BufTy).Contents (Elt Ideal))
    (x2 : (⟨S18x32, .f32⟩ : BufTy).Contents (Elt Ideal))
    (x3 : (⟨S32, .f32⟩ : BufTy).Contents (Elt Ideal))
    (x4 : (⟨S32x64, .f32⟩ : BufTy).Contents (Elt Ideal))
    (x5 : (⟨S64, .f32⟩ : BufTy).Contents (Elt Ideal))
    (x6 : (⟨S64x2, .f32⟩ : BufTy).Contents (Elt Ideal))
    (x7 : (⟨S2, .f32⟩ : BufTy).Contents (Elt Ideal)) :
    val_main_v93 (F := Ideal) x0 x1 x2 x3 x4 x5 x6 x7
      = Cert.Spec.lsmR 100000 2 (val_main_v92 (F := Ideal) x0 x1 x2 x3 x4 x5 x6 x7) := by
  funext j
  obtain ⟨p, q, rfl⟩ : ∃ (p : Fin 100000) (q : Fin 2), j = ix2 p q := ⟨j 0, j 1, eq_ix2 j⟩
  unfold Cert.Spec.lsmR Cert.Spec.rowSumExp
  -- the logarithm column under (p, q) is read at (p, 0), and the sums' vector under that at p
  have e8 : idx_main_call4_v8 (idx_main_call4_v10 (ix2 p q)) = ix1 p :=
    funext fun a => Fin.ext (by match a with | ⟨0, _⟩ => rfl)
  rw [val_main_v93_apply, Ideal.subf_def, call4_v5_eq, val_main_call4_v10_apply, val_main_call4_v9_apply,
    Ideal.hostUnary_log_def, val_main_call4_v8_apply, e8, val_main_call4_v7_apply, val_main_call4_cst_1_apply,
    Ideal.ofBits_def]
  refine congrArg (fun s : EReal =>
    (val_main_v92 (F := Ideal) x0 x1 x2 x3 x4 x5 x6 x7 (ix2 p q)
        - Cert.Spec.rowMax 100000 2 (val_main_v92 (F := Ideal) x0 x1 x2 x3 x4 x5 x6 x7) p)
      - Ideal.log (Ideal.ofBits .f32 0x00000000#32 + s)) (Finset.sum_congr rfl fun k _ => ?_)
  -- the k-th term of row p's sum is read at (p, k)
  have e7 : idx_main_call4_v7 (ix1 p) k = ix2 p k :=
    funext fun a => Fin.ext (by match a with | ⟨0, _⟩ => rfl | ⟨1, _⟩ => rfl)
  rw [e7, val_main_call4_v6_apply, Ideal.hostUnary_exp_def, call4_v5_eq]

end Cert.ReferenceIdeal.RefValue

end
-- ==== Proof.LibReal.lean ====
/-
  "Every entry is a real number" is preserved by the pointwise operations and the constants of the two
  programs, read at the extended reals. A float is an extended real; an array is real when none of its
  entries is an infinity. Sums, differences, products and maxima of two reals are real; a finite sum of
  reals is real; the bit patterns of 0, 1, 0.5, 300000, 50000 and 2^-17 * 1.3107... (about 1e-5) denote
  reals, the last four positive.
-/
import proofs.«130963_j73718818668739_1_alg».proof.Proof.Spec
import Idealize.ShloMosaic.PureOps.Ideal.Laws

noncomputable section

namespace Cert.LibReal

open Idealize.ShloMosaic Cert.Spec

/-! ### Extended reals: sums, differences, products, maxima and finite sums of reals are real -/

/-- The sum of two reals is a real. -/
theorem real_add {a b : EReal} (ha : ∃ r : ℝ, a = (r : EReal)) (hb : ∃ r : ℝ, b = (r : EReal)) :
    ∃ r : ℝ, a + b = (r : EReal) := by
  obtain ⟨r, rfl⟩ := ha; obtain ⟨q, rfl⟩ := hb; exact ⟨r + q, (EReal.coe_add r q).symm⟩

/-- The difference of two reals is a real. -/
theorem real_sub {a b : EReal} (ha : ∃ r : ℝ, a = (r : EReal)) (hb : ∃ r : ℝ, b = (r : EReal)) :
    ∃ r : ℝ, a - b = (r : EReal) := by
  obtain ⟨r, rfl⟩ := ha; obtain ⟨q, rfl⟩ := hb; exact ⟨r - q, (EReal.coe_sub r q).symm⟩

/-- The product of two reals is a real. -/
theorem real_mul {a b : EReal} (ha : ∃ r : ℝ, a = (r : EReal)) (hb : ∃ r : ℝ, b = (r : EReal)) :
    ∃ r : ℝ, a * b = (r : EReal) := by
  obtain ⟨r, rfl⟩ := ha; obtain ⟨q, rfl⟩ := hb; exact ⟨r * q, (EReal.coe_mul r q).symm⟩

/-- The maximum of two reals is a real. -/
theorem real_max {a b : EReal} (ha : ∃ r : ℝ, a = (r : EReal)) (hb : ∃ r : ℝ, b = (r : EReal)) :
    ∃ r : ℝ, max a b = (r : EReal) := by
  obtain ⟨r, rfl⟩ := ha; obtain ⟨q, rfl⟩ := hb
  rcases le_total r q with h | h
  · exact ⟨q, max_eq_right (EReal.coe_le_coe_iff.2 h)⟩
  · exact ⟨r, max_eq_left (EReal.coe_le_coe_iff.2 h)⟩

/-- Zero is a real. -/
theorem real_zero : ∃ r : ℝ, (0 : EReal) = (r : EReal) := ⟨0, EReal.coe_zero.symm⟩

/-- The coercion of a finite sum of reals is the sum of the coercions. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem real_finset_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

/-- A finite sum of nonnegative extended reals is nonnegative. -/
theorem nonneg_finset_sum {ι : Type} (s : Finset ι) (f : ι → EReal) (h : ∀ i ∈ s, 0 ≤ f i) :
    0 ≤ ∑ i ∈ s, f i := Finset.sum_nonneg h

/-! ### Pointwise operations -/

section Pointwise
variable {s : Shape}

/-- The entrywise sum of two real arrays is real. -/
theorem isReal_addf {x y : FVec Ideal s .f32} (hx : IsReal x) (hy : IsReal y) : IsReal (addf x y) :=
  fun i => real_add (hx i) (hy i)

/-- The entrywise difference of two real arrays is real. -/
theorem isReal_subf {x y : FVec Ideal s .f32} (hx : IsReal x) (hy : IsReal y) : IsReal (subf x y) :=
  fun i => real_sub (hx i) (hy i)

/-- The entrywise product of two real arrays is real. -/
theorem isReal_mulf {x y : FVec Ideal s .f32} (hx : IsReal x) (hy : IsReal y) : IsReal (mulf x y) :=
  fun i => real_mul (hx i) (hy i)

/-- The entrywise maximum of two real arrays is real. -/
theorem isReal_maximumf {x y : FVec Ideal s .f32} (hx : IsReal x) (hy : IsReal y) : IsReal (maximumf x y) :=
  fun i => real_max (hx i) (hy i)

/-- The entrywise product of a real array with itself is nonnegative. -/
theorem nonneg_mulf_self {x : FVec Ideal s .f32} (hx : IsReal x) (i : s.Idx) : 0 ≤ mulf x x i := by
  obtain ⟨r, hr⟩ := hx i
  show 0 ≤ x i * x i
  rw [hr, ← EReal.coe_mul]
  exact_mod_cast mul_self_nonneg r

/-- The entrywise maximum with a nonnegative array is nonnegative. -/
theorem nonneg_maximumf_right {x y : FVec Ideal s .f32} (hy : ∀ i, 0 ≤ y i) (i : s.Idx) : 0 ≤ maximumf x y i :=
  le_max_of_le_right (hy i)

end Pointwise

/-! ### Constants -/

/-- The splat of a bit pattern that denotes a real is a real array. -/
theorem isReal_constant (s : Shape) (w : BitVec 32) (h : ∃ r : ℝ, Ideal.ofBits .f32 w = (r : EReal)) :
    IsReal (constant (F := Ideal) s .f32 w) := fun _ => h

/-- The pattern of `+0.0` denotes `0`. -/
theorem ofBits_zero : Ideal.ofBits .f32 0x00000000#32 = ((0 : ℝ) : EReal) := by
  simp [Ideal.ofBits, Ideal.ieee]

/-- The pattern of `1.0` denotes `1`. -/
theorem ofBits_one : Ideal.ofBits .f32 0x3F800000#32 = ((1 : ℝ) : EReal) := by
  simp [Ideal.ofBits, Ideal.ieee, -EReal.coe_mul]; norm_num

/-- The pattern of `0.5` denotes `1/2`. -/
theorem ofBits_half : Ideal.ofBits .f32 0x3F000000#32 = ((1 / 2 : ℝ) : EReal) := by
  simp [Ideal.ofBits, Ideal.ieee, -EReal.coe_mul]; norm_num

/-- The pattern of `300000.0` denotes `300000`. -/
theorem ofBits_300000 : Ideal.ofBits .f32 0x48927C00#32 = ((300000 : ℝ) : EReal) := by
  simp [Ideal.ofBits, Ideal.ieee, -EReal.coe_mul]; norm_num

/-- The pattern of `50000.0` denotes `50000`. -/
theorem ofBits_50000 : Ideal.ofBits .f32 0x47435000#32 = ((50000 : ℝ) : EReal) := by
  simp [Ideal.ofBits, Ideal.ieee, -EReal.coe_mul]; norm_num

/-- The pattern `0x3727C5AC` (the float nearest `1e-5`) denotes `10995116 / 2^40`. -/
theorem ofBits_eps : Ideal.ofBits .f32 0x3727C5AC#32 = ((10995116 / 1099511627776 : ℝ) : EReal) := by
  simp [Ideal.ofBits, Ideal.ieee, -EReal.coe_mul]; norm_num

/-- The six patterns denote reals; the last four denote positive reals. -/
theorem real_ofBits_zero : ∃ r : ℝ, Ideal.ofBits .f32 0x00000000#32 = (r : EReal) := ⟨_, ofBits_zero⟩
theorem real_ofBits_one : ∃ r : ℝ, Ideal.ofBits .f32 0x3F800000#32 = (r : EReal) := ⟨_, ofBits_one⟩
theorem real_ofBits_half : ∃ r : ℝ, Ideal.ofBits .f32 0x3F000000#32 = (r : EReal) := ⟨_, ofBits_half⟩
theorem real_ofBits_300000 : ∃ r : ℝ, Ideal.ofBits .f32 0x48927C00#32 = (r : EReal) := ⟨_, ofBits_300000⟩
theorem real_ofBits_50000 : ∃ r : ℝ, Ideal.ofBits .f32 0x47435000#32 = (r : EReal) := ⟨_, ofBits_50000⟩
theorem real_ofBits_eps : ∃ r : ℝ, Ideal.ofBits .f32 0x3727C5AC#32 = (r : EReal) := ⟨_, ofBits_eps⟩
theorem pos_ofBits_half : ∃ r : ℝ, 0 < r ∧ Ideal.ofBits .f32 0x3F000000#32 = (r : EReal) :=
  ⟨_, by norm_num, ofBits_half⟩
theorem pos_ofBits_300000 : ∃ r : ℝ, 0 < r ∧ Ideal.ofBits .f32 0x48927C00#32 = (r : EReal) :=
  ⟨_, by norm_num, ofBits_300000⟩
theorem pos_ofBits_50000 : ∃ r : ℝ, 0 < r ∧ Ideal.ofBits .f32 0x47435000#32 = (r : EReal) :=
  ⟨_, by norm_num, ofBits_50000⟩
theorem pos_ofBits_eps : ∃ r : ℝ, 0 < r ∧ Ideal.ofBits .f32 0x3727C5AC#32 = (r : EReal) :=
  ⟨_, by norm_num, ofBits_eps⟩

end Cert.LibReal

end
-- ==== Proof.LibRealHost.lean ====
/-
  "Every entry is a real number" is preserved by the host operations of the two programs, read at the extended
  reals: the re-indexings (broadcast, shape cast, gather, concatenation: each result entry is an operand entry),
  the quotient by nonzero reals, the reciprocal square root of positive reals, and the finite sums (the host's
  reduction, its accumulating scatter, its matrix product, and the two whole-array functions of the specification).
  Nonnegativity is carried along where a later reciprocal square root needs it.
-/
import proofs.«130963_j73718818668739_1_alg».proof.Proof.LibReal
import Idealize.ShloMosaic.PureOps.Ideal.Laws

noncomputable section

namespace Cert.LibReal

open Idealize.ShloMosaic Cert.Spec

/-! ### Re-indexings: every entry of the result is an entry of an operand -/

section Reindex
variable {α : Type} {s t : Shape}

/-- Every entry of a `broadcast_in_dim` is an entry of its operand: a property of all the operand's entries
    holds of all the result's. -/
theorem forall_broadcastInDim (P : α → Prop) (dims : Fin s.rank → Fin t.rank) (h : s.BroadcastsInDim t dims)
    {x : s.Idx → α} (hx : ∀ i, P (x i)) (j : t.Idx) : P (broadcastInDim t dims h x j) := hx _

/-- Every entry of a shape cast (and of the host's reshape, which is the same function) is an entry of its
    operand. -/
theorem forall_shapeCast (P : α → Prop) (h : s.ShapeCasts t) {x : s.Idx → α} (hx : ∀ i, P (x i)) (j : t.Idx) :
    P (shapeCast t x h j) := hx _

/-- Every entry of a gather is an entry of its operand, whatever the integer start indices are: each result
    entry reads the operand at the (clamped) operand index of the gather's dimension numbers. -/
theorem forall_gather {si : Shape} {w : Nat} (P : α → Prop) (d : GatherDims s si t) {x : s.Idx → α}
    (hx : ∀ i, P (x i)) (idx : IVec si w) (j : t.Idx) : P (Host.gather d x idx j) := hx _

/-- Every entry of a concatenation is an entry of one of its pieces. -/
theorem forall_concatenate (P : α → Prop) (a : Fin t.rank) (xs : List ((s : Shape) × (s.Idx → α)))
    (h : Shape.Concatenates (xs.map (·.1)) t a) (hxs : ∀ p ∈ xs, ∀ i, P (p.2 i)) (j : t.Idx) :
    P (concatenate t a xs h j) := by
  unfold concatenate
  exact hxs _ (List.getElem_mem _) _

/-- Every entry of the concatenation of two arrays is an entry of one of the two. -/
theorem forall_concatenate_pair {s₁ s₂ : Shape} (P : α → Prop) (a : Fin t.rank) {x₁ : s₁.Idx → α} {x₂ : s₂.Idx → α}
    (h : Shape.Concatenates [s₁, s₂] t a) (h₁ : ∀ i, P (x₁ i)) (h₂ : ∀ i, P (x₂ i)) (j : t.Idx) :
    P (concatenate t a [⟨s₁, x₁⟩, ⟨s₂, x₂⟩] h j) := by
  refine forall_concatenate P a [⟨s₁, x₁⟩, ⟨s₂, x₂⟩] h ?_ j
  intro p hp
  simp only [List.mem_cons, List.not_mem_nil, or_false] at hp
  rcases hp with rfl | rfl
  · exact h₁
  · exact h₂

end Reindex

section ReindexReal
variable {s t : Shape}

/-- A `broadcast_in_dim` of a real array is real. -/
theorem isReal_broadcastInDim (dims : Fin s.rank → Fin t.rank) (h : s.BroadcastsInDim t dims)
    {x : FVec Ideal s .f32} (hx : IsReal x) : IsReal (broadcastInDim t dims h x) :=
  forall_broadcastInDim (fun a : EReal => ∃ r : ℝ, a = (r : EReal)) dims h hx

/-- A shape cast (the host's reshape) of a real array is real. -/
theorem isReal_shapeCast (h : s.ShapeCasts t) {x : FVec Ideal s .f32} (hx : IsReal x) :
    IsReal (shapeCast t x h) :=
  forall_shapeCast (fun a : EReal => ∃ r : ℝ, a = (r : EReal)) h hx

/-- A gather from a real array is real, whatever the start indices. -/
theorem isReal_gather {si : Shape} {w : Nat} (d : GatherDims s si t) {x : FVec Ideal s .f32} (hx : IsReal x)
    (idx : IVec si w) : IsReal (Host.gather d x idx) :=
  forall_gather (fun a : EReal => ∃ r : ℝ, a = (r : EReal)) d hx idx

/-- The concatenation of two real arrays is real. -/
theorem isReal_concatenate_pair {s₁ s₂ : Shape} (a : Fin t.rank) {x₁ : FVec Ideal s₁ .f32} {x₂ : FVec Ideal s₂ .f32}
    (h : Shape.Concatenates [s₁, s₂] t a) (h₁ : IsReal x₁) (h₂ : IsReal x₂) :
    IsReal (concatenate t a [⟨s₁, x₁⟩, ⟨s₂, x₂⟩] h) :=
  forall_concatenate_pair (fun a : EReal => ∃ r : ℝ, a = (r : EReal)) a h h₁ h₂

end ReindexReal

/-! ### The host's quotient and reciprocal square root -/

section DivRsqrt
variable {s : Shape}

/-- The host's quotient read at an entry, over a nonzero real divisor: the product with the reciprocal. -/
theorem divf_apply_coe {x y : FVec Ideal s .f32} (i : s.Idx) {b : ℝ} (hb : b ≠ 0) (hy : y i = (b : EReal)) :
    Host.divf x y i = x i * ((1 / b : ℝ) : EReal) := by
  show Ideal.div (x i) (y i) = _
  rw [hy, Ideal.div_coe hb]

/-- The quotient of a real array by an array of nonzero reals is real. -/
theorem isReal_divf {x y : FVec Ideal s .f32} (hx : IsReal x) (hy : ∀ i, ∃ r : ℝ, r ≠ 0 ∧ y i = (r : EReal)) :
    IsReal (Host.divf x y) := by
  intro i
  obtain ⟨a, ha⟩ := hx i
  obtain ⟨b, hb0, hb⟩ := hy i
  exact ⟨a * (1 / b), by rw [divf_apply_coe i hb0 hb, ha, ← EReal.coe_mul]⟩

/-- The quotient of a nonnegative array by an array of positive reals is nonnegative. -/
theorem nonneg_divf {x y : FVec Ideal s .f32} (hx : ∀ i, 0 ≤ x i) (hy : ∀ i, ∃ r : ℝ, 0 < r ∧ y i = (r : EReal))
    (i : s.Idx) : 0 ≤ Host.divf x y i := by
  obtain ⟨b, hb0, hb⟩ := hy i
  rw [divf_apply_coe i hb0.ne' hb]
  exact EReal.mul_nonneg (hx i) (EReal.coe_nonneg.2 (by positivity))

/-- The host's reciprocal square root of an array of positive reals is an array of positive reals. -/
theorem pos_rsqrt {x : FVec Ideal s .f32} (hx : ∀ i, ∃ r : ℝ, 0 < r ∧ x i = (r : EReal)) (i : s.Idx) :
    ∃ r : ℝ, 0 < r ∧ Host.rsqrt x i = (r : EReal) := by
  obtain ⟨a, ha0, ha⟩ := hx i
  refine ⟨(Real.sqrt a)⁻¹, inv_pos.2 (Real.sqrt_pos.2 ha0), ?_⟩
  show Ideal.rsqrt (x i) = _
  rw [ha, Ideal.rsqrt_coe, if_neg (not_lt.2 ha0.le), if_neg ha0.ne']

/-- The host's reciprocal square root of an array of positive reals is real. -/
theorem isReal_rsqrt {x : FVec Ideal s .f32} (hx : ∀ i, ∃ r : ℝ, 0 < r ∧ x i = (r : EReal)) :
    IsReal (Host.rsqrt x) := fun i => let ⟨r, _, h⟩ := pos_rsqrt hx i; ⟨r, h⟩

/-- The host's reciprocal square root read at a positive real entry. -/
theorem rsqrt_apply_coe {x : FVec Ideal s .f32} (i : s.Idx) {a : ℝ} (ha0 : 0 < a) (ha : x i = (a : EReal)) :
    Host.rsqrt x i = (((Real.sqrt a)⁻¹ : ℝ) : EReal) := by
  show Ideal.rsqrt (x i) = _
  rw [ha, Ideal.rsqrt_coe, if_neg (not_lt.2 ha0.le), if_neg ha0.ne']

/-- The sum of a nonnegative real array and an array of positive reals is an array of positive reals. -/
theorem pos_addf {x y : FVec Ideal s .f32} (hx : IsReal x) (hx0 : ∀ i, 0 ≤ x i)
    (hy : ∀ i, ∃ r : ℝ, 0 < r ∧ y i = (r : EReal)) (i : s.Idx) : ∃ r : ℝ, 0 < r ∧ addf x y i = (r : EReal) := by
  obtain ⟨a, ha⟩ := hx i
  obtain ⟨b, hb0, hb⟩ := hy i
  have ha0 : 0 ≤ a := EReal.coe_nonneg.1 (ha ▸ hx0 i)
  exact ⟨a + b, by positivity, by show x i + y i = _; rw [ha, hb, EReal.coe_add]⟩

end DivRsqrt

/-! ### Sums: the host's reduction, scatter-add and matrix products -/

section Sums

/-- The host's float sum over some axes of a real array, from a real initial value, is real: each entry is the
    initial value plus a finite sum of entries. -/
theorem isReal_reduceAdd {s t u : Shape} {axes : List (Fin s.rank)} {x : FVec Ideal s .f32} {v : FVec Ideal u .f32}
    (h : s.ReducesTo axes t) (hu : 0 < u.numel) (hx : IsReal x) (hv : IsReal v) :
    IsReal (Host.reduceAdd x v h hu) := fun _ =>
  real_add (hv _) (real_finset_sum _ _ fun i _ => hx i)

/-- The host's float sum of a nonnegative array from a nonnegative initial value is nonnegative. -/
theorem nonneg_reduceAdd {s t u : Shape} {axes : List (Fin s.rank)} {x : FVec Ideal s .f32} {v : FVec Ideal u .f32}
    (h : s.ReducesTo axes t) (hu : 0 < u.numel) (hx : ∀ i, 0 ≤ x i) (hv : ∀ i, 0 ≤ v i) (j : t.Idx) :
    0 ≤ Host.reduceAdd x v h hu j :=
  add_nonneg (hv _) (Finset.sum_nonneg fun i _ => hx i)

/-- The host's accumulating scatter of a real update into a real operand is real, whatever the integer scatter
    indices: each entry is the operand's plus the finite sum of the updates that land on it. -/
theorem isReal_scatterAdd {s si u : Shape} {w : Nat} (d : ScatterDims s si u) {x : FVec Ideal s .f32}
    (idx : IVec si w) {upd : FVec Ideal u .f32} (hx : IsReal x) (hupd : IsReal upd) :
    IsReal (Host.scatterAdd d x idx upd) := fun i =>
  real_add (hx i) (real_finset_sum _ _ fun j _ => hupd j)

/-- The accumulating scatter of a nonnegative update into a nonnegative operand is nonnegative. -/
theorem nonneg_scatterAdd {s si u : Shape} {w : Nat} (d : ScatterDims s si u) {x : FVec Ideal s .f32}
    (idx : IVec si w) {upd : FVec Ideal u .f32} (hx : ∀ i, 0 ≤ x i) (hupd : ∀ j, 0 ≤ upd j) (i : s.Idx) :
    0 ≤ Host.scatterAdd d x idx upd i :=
  add_nonneg (hx i) (Finset.sum_nonneg fun j _ => hupd j)

/-- The host's `dot_general` of two real arrays is real: each entry is a finite sum of products. -/
theorem isReal_dotGeneral {sl sr so : Shape} (d : DotDims sl sr so) (prec : Option ContractPrecision)
    {x : FVec Ideal sl .f32} {w : FVec Ideal sr .f32} (hx : IsReal x) (hw : IsReal w) :
    IsReal (Host.dotGeneral d prec x w) := by
  intro j
  show ∃ r : ℝ, FloatOps.dotGeneral d prec .single x w j = (r : EReal)
  rw [Ideal.dotGeneral_apply]
  exact real_finset_sum _ _ fun k _ => real_mul (hx _) (hw _)

/-- The matrix product of two real arrays is real. -/
theorem isReal_mm (M K N : ℕ) {x : (⟨2, ![M, K]⟩ : Shape).Idx → EReal} {w : (⟨2, ![K, N]⟩ : Shape).Idx → EReal}
    (hx : IsReal x) (hw : IsReal w) : IsReal (mm M K N x w) := fun _ =>
  real_finset_sum _ _ fun _ _ => real_mul (hx _) (hw _)

end Sums

/-! ### Conversion from integers, comparison and selection (the guard of a variance's divisor) -/

section Guard
variable {s : Shape} {w : Nat}

/-- The conversion of a signed integer array is the array of those integers, as reals. -/
theorem sitofp_apply_coe (x : IVec s w) (i : s.Idx) : sitofp (F := Ideal) .f32 x i = (((x i).toInt : ℝ) : EReal) := rfl

/-- The conversion of a signed integer array is real. -/
theorem isReal_sitofp (x : IVec s w) : IsReal (sitofp (F := Ideal) .f32 x) := fun _ => ⟨_, rfl⟩

/-- The ordered "greater than" of two arrays at an entry: `1` exactly when the first entry exceeds the second. -/
theorem cmpf_ogt_apply (x y : FVec Ideal s .f32) (i : s.Idx) :
    cmpf .ogt x y i = BitVec.ofBool (decide (y i < x i)) := rfl

/-- A selection whose condition is `1` at an entry takes the first array's entry there. -/
theorem select_apply_of_one {α : Type} (c : IVec s 1) (a b : s.Idx → α) (i : s.Idx) (hc : c i = 1) :
    select c a b i = a i := by
  show (if c i = 1 then a i else b i) = a i
  rw [if_pos hc]

/-- A selection between two arrays with a property at every entry has it at every entry. -/
theorem forall_select {α : Type} (P : α → Prop) (c : IVec s 1) {a b : s.Idx → α} (ha : ∀ i, P (a i)) (hb : ∀ i, P (b i))
    (i : s.Idx) : P (select c a b i) := by
  show P (if c i = 1 then a i else b i)
  split
  · exact ha i
  · exact hb i

end Guard

/-! ### Reading the host's sums at an entry -/

section ReadSums

/-- The host's float sum over ONE axis read at an entry: the initial value plus the sum over that axis's
    coordinates of the operand at the reduced index with the coordinate inserted. -/
theorem reduceAdd_apply_single {s t u : Shape} {a : Fin s.rank} (x : FVec Ideal s .f32) (v : FVec Ideal u .f32)
    (h' : s.ReducesTo [a] t) (h : s.Reduces [a] t) (hu : 0 < u.numel) (j : t.Idx) :
    Host.reduceAdd x v h' hu j = v (Shape.Idx.first hu) + ∑ k : Fin (s.size a), x (h.lift j k) :=
  Ideal.hostReduceAdd_single h' h x _ j

/-- The host's accumulating scatter read at an entry: the operand's entry plus the sum of the updates whose
    result index is that entry. -/
theorem scatterAdd_apply {s si u : Shape} {w : Nat} (d : ScatterDims s si u) (x : FVec Ideal s .f32)
    (idx : IVec si w) (upd : FVec Ideal u .f32) (i : s.Idx) :
    Host.scatterAdd d x idx upd i
      = x i + ∑ j ∈ Finset.univ.filter (fun j => d.resultIdx? j idx = some i), upd j := rfl

/-- The host's `dot_general` read at an entry: the sum over the contraction index of the operands' products. -/
theorem dotGeneral_apply {sl sr so : Shape} (d : DotDims sl sr so) (prec : Option ContractPrecision)
    (x : FVec Ideal sl .f32) (w : FVec Ideal sr .f32) (j : so.Idx) :
    Host.dotGeneral d prec x w j = ∑ k : d.contr.Idx, x (d.lhsIdx j k) * w (d.rhsIdx j k) :=
  Ideal.dotGeneral_apply d prec .single x w j

end ReadSums

end Cert.LibReal

end
-- ==== Proof.RefReal.lean ====
/-
  Every float array the reference program computes on the way to its logits is an array of real numbers,
  provided the seven float arguments are. The integer edge array plays no role: a gather only re-reads entries
  of its operand and an accumulating scatter only adds finitely many update entries to an operand entry, so
  wherever the edges point, reals go in and reals come out.

  The chain, per graph layer. The degree of a node is a sum of ones, hence real. Its normalisation is
  dinv = (deg > 0 ? 1 / sqrt deg : 0): where the degree is positive the reciprocal square root of a positive real
  is a positive real, and everywhere else the selection takes the constant 0; this is the one place where
  the argument is made entry by entry, because 1 / sqrt 0 is an infinity that the selection never picks.
  The edge weight is a product of two gathered dinv entries; the aggregate is the scatter-add of gathered rows of
  h · W scaled by the weights; the layer's output is max (aggregate + bias) 0. The logits are one more
  matrix product plus a bias row.
-/
import proofs.«130963_j73718818668739_1_alg».proof.Proof.RefRead
import proofs.«130963_j73718818668739_1_alg».proof.Proof.Spec
import proofs.«130963_j73718818668739_1_alg».proof.Proof.LibReal
import proofs.«130963_j73718818668739_1_alg».proof.Proof.LibRealHost

noncomputable section

namespace Cert.ReferenceIdeal.RefReal

open Cert.ReferenceIdeal Cert.ReferenceIdeal.Gen Cert.ReferenceIdeal.Read Cert.Spec Cert.LibReal Idealize.ShloMosaic

/-! ### Two general facts -/

/-- A scalar constant whose bit pattern denotes a real, broadcast to any shape, is a real array. -/
theorem isReal_splat {t : Shape} (w : BitVec 32) (h : S_.BroadcastsInDim t ![])
    (hw : ∃ r : ℝ, Ideal.ofBits .f32 w = (r : EReal)) :
    IsReal (broadcastInDim t ![] h (constant (F := Ideal) S_ .f32 w)) :=
  isReal_broadcastInDim _ h (isReal_constant S_ w hw)

/-- The guarded reciprocal square root: select (x > y) (1 / sqrt x) c is real when x and c are real and y is
    zero everywhere. At an entry where x i > y i = 0 the entry x i is a positive real, whose reciprocal square
    root is a real; at every other entry the selection takes c i. -/
theorem isReal_select_rsqrt {s : Shape} {x y c : FVec Ideal s .f32} (hx : IsReal x)
    (hy : ∀ i, y i = ((0 : ℝ) : EReal)) (hc : IsReal c) :
    IsReal (select (cmpf .ogt x y) (Host.rsqrt x) c) := by
  intro i
  show ∃ r : ℝ, (if cmpf .ogt x y i = 1 then Host.rsqrt x i else c i) = (r : EReal)
  split
  · rename_i h
    -- the comparison bit is 1 exactly when y i < x i
    rw [cmpf_ogt_apply] at h
    have hlt : y i < x i := by
      by_contra hn
      rw [decide_eq_false hn] at h
      exact absurd h (by decide)
    obtain ⟨a, ha⟩ := hx i
    rw [hy i, ha] at hlt
    exact ⟨_, rsqrt_apply_coe i (EReal.coe_lt_coe_iff.1 hlt) ha⟩
  · exact hc i

/-! ### The first layer -/

section
variable (x0 : (⟨S100000x18, .f32⟩ : BufTy).Contents (Elt Ideal)) (x1 : (⟨S2x1280000, .i32⟩ : BufTy).Contents (Elt Ideal))
  (x2 : (⟨S18x32, .f32⟩ : BufTy).Contents (Elt Ideal)) (x3 : (⟨S32, .f32⟩ : BufTy).Contents (Elt Ideal))
  (x4 : (⟨S32x64, .f32⟩ : BufTy).Contents (Elt Ideal)) (x5 : (⟨S64, .f32⟩ : BufTy).Contents (Elt Ideal))
  (x6 : (⟨S64x2, .f32⟩ : BufTy).Contents (Elt Ideal)) (x7 : (⟨S2, .f32⟩ : BufTy).Contents (Elt Ideal))

/-- The ones that are scattered to count degrees. -/
theorem isReal_v7 : IsReal (val_main_v7 (F := Ideal)) := by
  unfold val_main_v7 val_main_cst; exact isReal_splat _ _ real_ofBits_one

/-- The zeros the degree count starts from. -/
theorem isReal_v8 : IsReal (val_main_v8 (F := Ideal)) := by
  unfold val_main_v8 val_main_cst_0; exact isReal_splat _ _ real_ofBits_zero

/-- The degree: deg i = 0 + the number of edge ends that land on node i, a finite sum of ones. -/
theorem isReal_v10 : IsReal (val_main_v10 (F := Ideal) x1) := by
  unfold val_main_v10; exact isReal_scatterAdd _ _ isReal_v8 isReal_v7

/-- The array the degree is compared with is zero at every entry. -/
theorem v11_apply (i : S100000.Idx) : val_main_v11 (F := Ideal) i = ((0 : ℝ) : EReal) := ofBits_zero

/-- The zeros the normalisation falls back to. -/
theorem isReal_call0_v1 : IsReal (val_main_call0_v1 (F := Ideal)) := by
  unfold val_main_call0_v1 val_main_call0_v0 val_main_cst_2; exact isReal_splat _ _ real_ofBits_zero

/-- The normalisation dinv = (deg > 0 ? 1 / sqrt deg : 0). -/
theorem isReal_v14 : IsReal (val_main_v14 (F := Ideal) x1) := by
  unfold val_main_v14 val_main_v12 val_main_v13
  exact isReal_select_rsqrt (isReal_v10 x1) v11_apply isReal_call0_v1

/-- dinv at the source end of every edge. -/
theorem isReal_v21 : IsReal (val_main_v21 (F := Ideal) x1) := by
  unfold val_main_v21; exact isReal_gather _ (isReal_v14 x1) _

/-- dinv at the destination end of every edge. -/
theorem isReal_v28 : IsReal (val_main_v28 (F := Ideal) x1) := by
  unfold val_main_v28; exact isReal_gather _ (isReal_v14 x1) _

/-- The edge weight norm e = dinv (src e) · dinv (dst e). -/
theorem isReal_v29 : IsReal (val_main_v29 (F := Ideal) x1) := by
  unfold val_main_v29; exact isReal_mulf (isReal_v21 x1) (isReal_v28 x1)

/-- xw = x · W1: every entry is a sum of 18 products of reals. -/
theorem isReal_v30 (h0 : IsReal x0) (h2 : IsReal x2) : IsReal (val_main_v30 (F := Ideal) x0 x2) := by
  unfold val_main_v30; exact isReal_dotGeneral _ _ h0 h2

/-- The row of xw at the source end of every edge. -/
theorem isReal_v37 (h0 : IsReal x0) (h2 : IsReal x2) : IsReal (val_main_v37 (F := Ideal) x0 x1 x2) := by
  unfold val_main_v37; exact isReal_gather _ (isReal_v30 x0 x2 h0 h2) _

/-- The edge weights as a column, then repeated along each row. -/
theorem isReal_v39 : IsReal (val_main_v39 (F := Ideal) x1) := by
  unfold val_main_v39 val_main_v38
  exact isReal_broadcastInDim _ _ (isReal_broadcastInDim _ _ (isReal_v29 x1))

/-- The message along every edge: the gathered row scaled by the edge weight. -/
theorem isReal_v40 (h0 : IsReal x0) (h2 : IsReal x2) : IsReal (val_main_v40 (F := Ideal) x0 x1 x2) := by
  unfold val_main_v40; exact isReal_mulf (isReal_v37 x0 x1 x2 h0 h2) (isReal_v39 x1)

/-- The zeros the aggregate starts from. -/
theorem isReal_v41 : IsReal (val_main_v41 (F := Ideal)) := by
  unfold val_main_v41 val_main_cst_8; exact isReal_splat _ _ real_ofBits_zero

/-- The first aggregate: row i is 0 + the sum of the messages of the edges that end at node i. -/
theorem isReal_v43 (h0 : IsReal x0) (h2 : IsReal x2) : IsReal (val_main_v43 (F := Ideal) x0 x1 x2) := by
  unfold val_main_v43; exact isReal_scatterAdd _ _ isReal_v41 (isReal_v40 x0 x1 x2 h0 h2)

/-- The bias b1 as a row, repeated for every node. -/
theorem isReal_v45 (h3 : IsReal x3) : IsReal (val_main_v45 (F := Ideal) x3) := by
  unfold val_main_v45 val_main_v44
  exact isReal_broadcastInDim _ _ (isReal_broadcastInDim _ _ h3)

/-- The aggregate shifted by the bias. -/
theorem isReal_v46 (h0 : IsReal x0) (h2 : IsReal x2) (h3 : IsReal x3) :
    IsReal (val_main_v46 (F := Ideal) x0 x1 x2 x3) := by
  unfold val_main_v46; exact isReal_addf (isReal_v43 x0 x1 x2 h0 h2) (isReal_v45 x3 h3)

/-- The zeros of the first clamp. -/
theorem isReal_call1_v0 : IsReal (val_main_call1_v0 (F := Ideal)) := by
  unfold val_main_call1_v0 val_main_call1_cst; exact isReal_splat _ _ real_ofBits_zero

/-- The first layer's output h1 = max (aggregate + b1) 0. -/
theorem isReal_v47 (h0 : IsReal x0) (h2 : IsReal x2) (h3 : IsReal x3) :
    IsReal (val_main_v47 (F := Ideal) x0 x1 x2 x3) := by
  unfold val_main_v47; exact isReal_maximumf (isReal_v46 x0 x1 x2 x3 h0 h2 h3) isReal_call1_v0

/-! ### The second layer: the same chain, computed again by the program -/

/-- The ones of the second degree count. -/
theorem isReal_v48 : IsReal (val_main_v48 (F := Ideal)) := by
  unfold val_main_v48 val_main_cst_9; exact isReal_splat _ _ real_ofBits_one

/-- The zeros the second degree count starts from. -/
theorem isReal_v49 : IsReal (val_main_v49 (F := Ideal)) := by
  unfold val_main_v49 val_main_cst_10; exact isReal_splat _ _ real_ofBits_zero

/-- The degree, counted a second time. -/
theorem isReal_v51 : IsReal (val_main_v51 (F := Ideal) x1) := by
  unfold val_main_v51; exact isReal_scatterAdd _ _ isReal_v49 isReal_v48

/-- The array the second degree is compared with is zero at every entry. -/
theorem v52_apply (i : S100000.Idx) : val_main_v52 (F := Ideal) i = ((0 : ℝ) : EReal) := ofBits_zero

/-- The zeros the second normalisation falls back to. -/
theorem isReal_call2_v1 : IsReal (val_main_call2_v1 (F := Ideal)) := by
  unfold val_main_call2_v1 val_main_call2_v0 val_main_cst_12; exact isReal_splat _ _ real_ofBits_zero

/-- The normalisation dinv, a second time. -/
theorem isReal_v55 : IsReal (val_main_v55 (F := Ideal) x1) := by
  unfold val_main_v55 val_main_v53 val_main_v54
  exact isReal_select_rsqrt (isReal_v51 x1) v52_apply isReal_call2_v1

/-- dinv at the source end of every edge. -/
theorem isReal_v62 : IsReal (val_main_v62 (F := Ideal) x1) := by
  unfold val_main_v62; exact isReal_gather _ (isReal_v55 x1) _

/-- dinv at the destination end of every edge. -/
theorem isReal_v69 : IsReal (val_main_v69 (F := Ideal) x1) := by
  unfold val_main_v69; exact isReal_gather _ (isReal_v55 x1) _

/-- The edge weights, a second time. -/
theorem isReal_v70 : IsReal (val_main_v70 (F := Ideal) x1) := by
  unfold val_main_v70; exact isReal_mulf (isReal_v62 x1) (isReal_v69 x1)

/-- hw = h1 · W2: every entry is a sum of 32 products of reals. -/
theorem isReal_v71 (h0 : IsReal x0) (h2 : IsReal x2) (h3 : IsReal x3) (h4 : IsReal x4) :
    IsReal (val_main_v71 (F := Ideal) x0 x1 x2 x3 x4) := by
  unfold val_main_v71; exact isReal_dotGeneral _ _ (isReal_v47 x0 x1 x2 x3 h0 h2 h3) h4

/-- The row of hw at the source end of every edge. -/
theorem isReal_v78 (h0 : IsReal x0) (h2 : IsReal x2) (h3 : IsReal x3) (h4 : IsReal x4) :
    IsReal (val_main_v78 (F := Ideal) x0 x1 x2 x3 x4) := by
  unfold val_main_v78; exact isReal_gather _ (isReal_v71 x0 x1 x2 x3 x4 h0 h2 h3 h4) _

/-- The edge weights as a column, then repeated along each row. -/
theorem isReal_v80 : IsReal (val_main_v80 (F := Ideal) x1) := by
  unfold val_main_v80 val_main_v79
  exact isReal_broadcastInDim _ _ (isReal_broadcastInDim _ _ (isReal_v70 x1))

/-- The second layer's message along every edge. -/
theorem isReal_v81 (h0 : IsReal x0) (h2 : IsReal x2) (h3 : IsReal x3) (h4 : IsReal x4) :
    IsReal (val_main_v81 (F := Ideal) x0 x1 x2 x3 x4) := by
  unfold val_main_v81; exact isReal_mulf (isReal_v78 x0 x1 x2 x3 x4 h0 h2 h3 h4) (isReal_v80 x1)

/-- The zeros the second aggregate starts from. -/
theorem isReal_v82 : IsReal (val_main_v82 (F := Ideal)) := by
  unfold val_main_v82 val_main_cst_19; exact isReal_splat _ _ real_ofBits_zero

/-- The second aggregate. -/
theorem isReal_v84 (h0 : IsReal x0) (h2 : IsReal x2) (h3 : IsReal x3) (h4 : IsReal x4) :
    IsReal (val_main_v84 (F := Ideal) x0 x1 x2 x3 x4) := by
  unfold val_main_v84; exact isReal_scatterAdd _ _ isReal_v82 (isReal_v81 x0 x1 x2 x3 x4 h0 h2 h3 h4)

/-- The bias b2 as a row, repeated for every node. -/
theorem isReal_v86 (h5 : IsReal x5) : IsReal (val_main_v86 (F := Ideal) x5) := by
  unfold val_main_v86 val_main_v85
  exact isReal_broadcastInDim _ _ (isReal_broadcastInDim _ _ h5)

/-- The second aggregate shifted by the bias. -/
theorem isReal_v87 (h0 : IsReal x0) (h2 : IsReal x2) (h3 : IsReal x3) (h4 : IsReal x4) (h5 : IsReal x5) :
    IsReal (val_main_v87 (F := Ideal) x0 x1 x2 x3 x4 x5) := by
  unfold val_main_v87; exact isReal_addf (isReal_v84 x0 x1 x2 x3 x4 h0 h2 h3 h4) (isReal_v86 x5 h5)

/-- The zeros of the second clamp. -/
theorem isReal_call3_v0 : IsReal (val_main_call3_v0 (F := Ideal)) := by
  unfold val_main_call3_v0 val_main_call3_cst; exact isReal_splat _ _ real_ofBits_zero

/-- The second layer's output h2 = max (aggregate + b2) 0. -/
theorem isReal_v88 (h0 : IsReal x0) (h2 : IsReal x2) (h3 : IsReal x3) (h4 : IsReal x4) (h5 : IsReal x5) :
    IsReal (val_main_v88 (F := Ideal) x0 x1 x2 x3 x4 x5) := by
  unfold val_main_v88; exact isReal_maximumf (isReal_v87 x0 x1 x2 x3 x4 x5 h0 h2 h3 h4 h5) isReal_call3_v0

/-! ### The logits -/

/-- h2 · Wfc: every entry is a sum of 64 products of reals. -/
theorem isReal_v89 (h0 : IsReal x0) (h2 : IsReal x2) (h3 : IsReal x3) (h4 : IsReal x4) (h5 : IsReal x5)
    (h6 : IsReal x6) : IsReal (val_main_v89 (F := Ideal) x0 x1 x2 x3 x4 x5 x6) := by
  unfold val_main_v89; exact isReal_dotGeneral _ _ (isReal_v88 x0 x1 x2 x3 x4 x5 h0 h2 h3 h4 h5) h6

/-- The output bias as a row, repeated for every node. -/
theorem isReal_v91 (h7 : IsReal x7) : IsReal (val_main_v91 (F := Ideal) x7) := by
  unfold val_main_v91 val_main_v90
  exact isReal_broadcastInDim _ _ (isReal_broadcastInDim _ _ h7)

/-- The logits h2 · Wfc + bfc are real, whatever the edge array holds. -/
theorem isReal_logits (h0 : IsReal x0) (h2 : IsReal x2) (h3 : IsReal x3) (h4 : IsReal x4) (h5 : IsReal x5)
    (h6 : IsReal x6) (h7 : IsReal x7) : IsReal (val_main_v92 (F := Ideal) x0 x1 x2 x3 x4 x5 x6 x7) := by
  unfold val_main_v92
  exact isReal_addf (isReal_v89 x0 x1 x2 x3 x4 x5 x6 h0 h2 h3 h4 h5 h6) (isReal_v91 x7 h7)

end

end Cert.ReferenceIdeal.RefReal

end
-- ==== Proof.LogSoftmax.lean ====
/-
  The two groupings of the log-probabilities agree on real logits.

  For a row of real logits z(q), q < N, the row's maximum m, folded from minus infinity, is one of the z(q) and so
  a real. Then every z(q) - m is real, every exp (z(q) - m) is a positive real, and their sum s over the row is
  a positive real; so log s is the real logarithm, a real. The zero word denotes 0 and 0 + s = s. What is left is
  an identity of real numbers, a - (m + l) = (a - m) - l. (An array with an entry has N > 0: the entry's column
  is a number below N.)
-/
import proofs.«130963_j73718818668739_1_alg».proof.Proof.Spec
import proofs.«130963_j73718818668739_1_alg».proof.Proof.LibReal
import Idealize.ShloMosaic.PureOps.Ideal.Laws

noncomputable section

open scoped BigOperators

namespace Cert.Spec

open Idealize.ShloMosaic Idealize.ShloMosaic.ValueIdx

/-- The word 0xFF800000 (sign 1, exponent all ones, fraction 0) denotes minus infinity. -/
theorem ofBits_neg_inf : Ideal.ofBits .f32 0xFF800000#32 = ⊥ := by
  simp [Ideal.ofBits, Ideal.ieee]

/-- The maximum, folded from minus infinity, of a nonempty finite family of reals is a real: with one member
    it is max (f a) ⊥ = f a; with one more member it is the maximum of two reals. -/
theorem real_fold_max {ι : Type} (s : Finset ι) (hs : s.Nonempty) (f : ι → EReal)
    (hf : ∀ i ∈ s, ∃ r : ℝ, f i = (r : EReal)) : ∃ r : ℝ, s.fold max ⊥ f = (r : EReal) := by
  induction hs using Finset.Nonempty.cons_induction with
  | singleton a =>
    obtain ⟨r, hr⟩ := hf a (Finset.mem_singleton_self a)
    exact ⟨r, by rw [Finset.fold_singleton, hr]; exact max_eq_left bot_le⟩
  | cons a s ha hs ih =>
    rw [Finset.fold_cons]
    exact Cert.LibReal.real_max (hf a (Finset.mem_cons_self a s))
      (ih fun i hi => hf i (Finset.mem_cons.mpr (Or.inr hi)))

/-- On real logits, z - (m + log s) = (z - m) - log (0 + s), entry by entry. -/
theorem lsmK_eq_lsmR (M N : Nat) (z : Mat M N) (hz : IsReal z) : lsmK M N z = lsmR M N z := by
  funext j
  -- the entry's column is below N, so the row is not empty
  have hN : 0 < N := (j 1).pos
  haveI : Nonempty (Fin N) := ⟨⟨0, hN⟩⟩
  -- the row's maximum is a real m
  obtain ⟨m, hm⟩ : ∃ m : ℝ, rowMax M N z (j 0) = (m : EReal) := by
    unfold rowMax
    rw [ofBits_neg_inf]
    exact real_fold_max _ Finset.univ_nonempty _ fun q _ => hz _
  -- the row's entries are reals a(q)
  choose a ha using fun q : Fin N => hz (ix2 (j 0) q)
  -- the sum of the exponentials is the real Σ exp (a(q) - m)
  have hs : rowSumExp M N z (j 0) = ((∑ q : Fin N, Real.exp (a q - m) : ℝ) : EReal) := by
    unfold rowSumExp
    rw [hm, Cert.LibReal.coe_finset_sum]
    refine Finset.sum_congr rfl fun q _ => ?_
    rw [ha q, ← EReal.coe_sub, Ideal.exp_coe]
  -- a sum of positive reals over a nonempty row is positive, so its logarithm is the real one
  have hpos : 0 < ∑ q : Fin N, Real.exp (a q - m) :=
    Finset.sum_pos (fun q _ => Real.exp_pos _) Finset.univ_nonempty
  have hl : Ideal.log ((∑ q : Fin N, Real.exp (a q - m) : ℝ) : EReal)
      = ((Real.log (∑ q : Fin N, Real.exp (a q - m)) : ℝ) : EReal) := by
    rw [Ideal.log_coe, if_neg (not_le.mpr hpos)]
  obtain ⟨b, hb⟩ := hz j
  show z j - (rowMax M N z (j 0) + Ideal.log (rowSumExp M N z (j 0)))
    = (z j - rowMax M N z (j 0)) - Ideal.log (Ideal.ofBits .f32 0x00000000#32 + rowSumExp M N z (j 0))
  -- 0 + s = s, and the rest is b - (m + l) = (b - m) - l in the reals
  rw [Ideal.ofBits_zero_f32, zero_add, hs, hm, hb, hl, ← EReal.coe_add, ← EReal.coe_sub, ← EReal.coe_sub,
    ← EReal.coe_sub, sub_add_eq_sub_sub]

end Cert.Spec

end
-- ==== Proof.KernelValue.lean ====
/-
  The idealized kernel program's result, read through its eight segments. Both programs run the same host operations
  on the edge list, so every array the kernel program holds between its pallas_calls is one of the reference's stages:
  the first call leaves x · W1; the gather, scale and scatter-add leave the first aggregate; the second call leaves
  max (raw1 + b1) 0 · W2; the second aggregate follows; the third call leaves the log-probabilities of the logits
  max (raw2 + b2) 0 · Wfc + bfc.
-/
import proofs.«130963_j73718818668739_1_alg».proof.Proof.KernelHost
import proofs.«130963_j73718818668739_1_alg».proof.Proof.KernelHostTail
import proofs.«130963_j73718818668739_1_alg».proof.Proof.Region0
import proofs.«130963_j73718818668739_1_alg».proof.Proof.Region1
import proofs.«130963_j73718818668739_1_alg».proof.Proof.Region2
import proofs.«130963_j73718818668739_1_alg».proof.Proof.RefLayers
import proofs.«130963_j73718818668739_1_alg».proof.Proof.RefReal
import proofs.«130963_j73718818668739_1_alg».proof.Proof.LogSoftmax

set_option maxRecDepth 65536
set_option quotPrecheck false

noncomputable section

namespace Cert.KernelIdeal.KernelValue

open Cert.KernelIdeal Cert.KernelIdeal.Gen Cert.KernelIdeal.HostValue Cert.KernelIdeal.RegionValue
open Idealize.ShloMosaic Idealize.ShloMosaic.TcCoe Idealize.SL.Sem

variable (m : (ℓ : Loc nD τ sig) → Buf (Elt Ideal) ℓ) (ρ : Dev nD → PrngReg) (c : Dev nD)

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)

/-- After the first pallas_call its result array is the reference's first transform x · W1: the region writes the
    product block of rows by block of rows, and the arrays it reads are the arguments as launched. -/
theorem W4_v30 : W4 m ρ c (Proc.devRef .tc main_v30) = Cert.ReferenceIdeal.Read.val_main_v30 (F := Ideal) x0 x2 := by
  refine (W4_arr m ρ c 2).trans ((region0 (V3 m ρ) c).trans ?_)
  rw [Cert.ReferenceIdeal.RefValue.v30_eq]
  exact congrArg₂ (Cert.Spec.mm 100000 18 32) (W3_arg0 m ρ c) (W3_arg2 m ρ c)

/-- After the second pallas_call its result array is the reference's second transform max (raw1 + b1) 0 · W2. -/
theorem W6_v45 : W6 m ρ c (Proc.devRef .tc main_v45)
    = Cert.ReferenceIdeal.Read.val_main_v71 (F := Ideal) x0 x1 x2 x3 x4 := by
  refine (W6_arr m ρ c 3).trans ((region1 (V5 m ρ) c).trans ?_)
  rw [Cert.ReferenceIdeal.RefValue.v71_eq]
  have e1 := W5_v43 m ρ c (W4_v30 m ρ c)
  have e2 := W5_v44 m ρ c
  have e3 := W5_arg4 m ρ c
  exact (congrArg (fun r => Cert.Spec.layer 100000 32 64 r _ _) e1).trans
    ((congrArg (fun b => Cert.Spec.layer 100000 32 64 _ b _) e2).trans (congrArg (fun w => Cert.Spec.layer 100000 32 64 _ _ w) e3))

/-- After the third pallas_call the result array holds the reference's result. The region writes, row by row, the
    log-probabilities z - (m + log Σ exp (z - m)) of the logits z = max (raw2 + b2) 0 · Wfc + bfc; the reference groups
    them as (z - m) - log Σ exp (z - m); the two agree because the logits are real numbers, which they are when every
    float argument is. -/
theorem W8_v61 (h0 : Cert.Spec.IsReal x0) (h2 : Cert.Spec.IsReal x2) (h3 : Cert.Spec.IsReal x3) (h4 : Cert.Spec.IsReal x4)
    (h5 : Cert.Spec.IsReal x5) (h6 : Cert.Spec.IsReal x6) (h7 : Cert.Spec.IsReal x7) :
    W8 m ρ c (Proc.devRef .tc main_v61) = Cert.ReferenceIdeal.Read.val_main_v93 (F := Ideal) x0 x1 x2 x3 x4 x5 x6 x7 := by
  refine (W8_arr m ρ c 4).trans ((region2 (V7 m ρ) c).trans ?_)
  rw [Cert.ReferenceIdeal.RefValue.v93_eq,
    ← Cert.Spec.lsmK_eq_lsmR 100000 2 _ (Cert.ReferenceIdeal.RefReal.isReal_logits x0 x1 x2 x3 x4 x5 x6 x7 h0 h2 h3 h4 h5 h6 h7),
    Cert.ReferenceIdeal.RefValue.v92_eq]
  have e1 := HostTail.W7_v58 m ρ c (W6_v3 m ρ c) (W6_v6 m ρ c) (W6_v29 m ρ c) (W6_v45 m ρ c)
  have e2 := HostTail.W7_v59 m ρ c (HostTail.W6_arg5 m ρ c)
  have e3 := HostTail.W7_arg6 m ρ c (HostTail.W6_arg6 m ρ c)
  have e4 := HostTail.W7_v60 m ρ c (HostTail.W6_arg7 m ρ c)
  exact congrArg (Cert.Spec.lsmK 100000 2)
    (congr (congr (congr (congrArg (Cert.Spec.logits 100000 64 2) e1) e2) e3) e4)

end Cert.KernelIdeal.KernelValue

end
-- ==== Proof.RefRunValue.lean ====
/-
  The reference program's run, with its result named by the stage functions.

  The reference is a straight line of 138 operations on buffers, one buffer per intermediate array. Running it
  from buffer contents V leaves every buffer at the fold of the operations' results over V. This file reads
  that fold at the result buffer: it holds log_softmax (logits), the last stage function, of the eight
  argument arrays, and the argument buffers hold what they held.

  The fold is read window by window. The line is cut into thirteen consecutive windows; the fold over a
  concatenation is the fold over the second part from the fold over the first. For each cut, an invariant lists the
  buffers that are still read later and says which stage value each holds: the arguments (never written), the
  two edge-endpoint arrays src and dst (written once at the start, read by every gather and scatter), and the
  one or few float arrays that the next window consumes. Each window takes one invariant to the next: a buffer
  it writes is read off as the window's operations applied to the contents of the buffers it reads, which the
  incoming invariant names; a buffer it does not write holds what it held.

  The windows follow the mathematics of the two graph layers:
    1  the endpoints src, dst (with the self loops appended); the degree deg = scatter-add of ones along dst;
       the comparison deg > 0 and the reciprocal square root of deg
    2  dinv = (deg > 0 ? rsqrt deg : 0)
    3  the edge weights dinv[src] * dinv[dst]; x · W1; its rows gathered along src, scaled, scatter-added
       along dst; plus the bias row b1
    4  h1 = max (that, 0)
    5  the degree, its comparison and its reciprocal square root, computed a second time
    6  dinv a second time
    7  the edge weights a second time; h1 · W2 gathered, scaled, scatter-added; plus the bias row b2
    8  h2 = max (that, 0)
    9  the logits h2 · Wfc + bfc
    10 the row maximum m of the logits z
    11 the shifted logits z - m
    12 the row sum of exp (z - m), as a column
    13 log_softmax z = (z - m) - log of that sum
-/
import proofs.«130963_j73718818668739_1_alg».proof.Proof.RefRun
import proofs.«130963_j73718818668739_1_alg».proof.Proof.RefRead
import Idealize.ShloMosaic.Lib.Pipeline.Frame

set_option Elab.async false

noncomputable section

namespace Cert.ReferenceIdeal.RunValue

open Cert.ReferenceIdeal Cert.ReferenceIdeal.Gen Cert.ReferenceIdeal.Read Cert.ReferenceIdeal.Value Idealize.ShloMosaic
  Idealize.ShloMosaic.TcCoe Idealize.SL.Sem Idealize.ShloMosaic.StableHlo

variable {F : FTy → Type} [FloatOps F]

/-! ## The thirteen windows -/

/-- Window 1: src and dst with the self loops appended, the degree, deg > 0, rsqrt deg, and the zero that
    the selection of window 2 falls back to. -/
abbrev w1 : List (HloOp τ sig (Elt F)) :=
  [ nullary main_v0 (iotaInDim S100000 32 0),
    unary main_arg1 main_v1 ((extractStridedSlice S1x1280000 ![0, 0] · slices_S2x1280000_S1x1280000_0_0) : (⟨S2x1280000, .i32⟩ : BufTy).Contents (Elt F) → (⟨S1x1280000, .i32⟩ : BufTy).Contents (Elt F)),
    reshape main_v1 main_v2 rfl shapeCasts_S1x1280000_S1280000,
    binary main_v2 main_v0 main_v3 ((fun a b => concatenate S1380000 0 [⟨S1280000, a⟩, ⟨S100000, b⟩] concatenates_S1280000_S100000_S1380000_d0) : (⟨S1280000, .i32⟩ : BufTy).Contents (Elt F) → (⟨S100000, .i32⟩ : BufTy).Contents (Elt F) → (⟨S1380000, .i32⟩ : BufTy).Contents (Elt F)),
    unary main_arg1 main_v4 ((extractStridedSlice S1x1280000 ![1, 0] · slices_S2x1280000_S1x1280000_1_0) : (⟨S2x1280000, .i32⟩ : BufTy).Contents (Elt F) → (⟨S1x1280000, .i32⟩ : BufTy).Contents (Elt F)),
    reshape main_v4 main_v5 rfl shapeCasts_S1x1280000_S1280000,
    binary main_v5 main_v0 main_v6 ((fun a b => concatenate S1380000 0 [⟨S1280000, a⟩, ⟨S100000, b⟩] concatenates_S1280000_S100000_S1380000_d0) : (⟨S1280000, .i32⟩ : BufTy).Contents (Elt F) → (⟨S100000, .i32⟩ : BufTy).Contents (Elt F) → (⟨S1380000, .i32⟩ : BufTy).Contents (Elt F)),
    nullary main_cst (constant S_ .f32 0x3F800000#32),
    unary main_cst main_v7 (broadcastInDim S1380000 ![] bcast_S_S1380000 : (⟨S_, .f32⟩ : BufTy).Contents (Elt F) → (⟨S1380000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1380000x1 ![0] bcast_S1380000_S1380000x1_0 : (⟨S1380000, .i32⟩ : BufTy).Contents (Elt F) → (⟨S1380000x1, .i32⟩ : BufTy).Contents (Elt F)),
    ternary main_v8 main_v9 main_v7 main_v10 ((fun x i u => Host.scatterAdd scatter_S100000_S1380000x1_S1380000_n_0_0_1 x i u) : (⟨S100000, .f32⟩ : BufTy).Contents (Elt F) → (⟨S1380000x1, .i32⟩ : BufTy).Contents (Elt F) → (⟨S1380000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- Window 2: dinv = (deg > 0 ? rsqrt deg : 0). -/
abbrev w2 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- Window 3: the edge weights dinv[src] * dinv[dst], the product x · W1, its rows gathered along src and scaled
    by the weights, their scatter-add along dst, and the sum with the bias row b1. -/
abbrev w3 : List (HloOp τ sig (Elt F)) :=
  [ nullary main_c (constantI S_ 32 0#32),
    unary main_c main_v15 (broadcastInDim S1380000 ![] bcast_S_S1380000 : (⟨S_, .i32⟩ : BufTy).Contents (Elt F) → (⟨S1380000, .i32⟩ : BufTy).Contents (Elt F)),
    binary main_v3 main_v15 main_v16 (cmpi .slt : (⟨S1380000, .i32⟩ : BufTy).Contents (Elt F) → (⟨S1380000, .i32⟩ : BufTy).Contents (Elt F) → (⟨S1380000, .i1⟩ : BufTy).Contents (Elt F)),
    nullary main_c_3 (constantI S_ 32 100000#32),
    unary main_c_3 main_v17 (broadcastInDim S1380000 ![] bcast_S_S1380000 : (⟨S_, .i32⟩ : BufTy).Contents (Elt F) → (⟨S1380000, .i32⟩ : BufTy).Contents (Elt F)),
    binary main_v3 main_v17 main_v18 (addi : (⟨S1380000, .i32⟩ : BufTy).Contents (Elt F) → (⟨S1380000, .i32⟩ : BufTy).Contents (Elt F) → (⟨S1380000, .i32⟩ : BufTy).Contents (Elt F)),
    ternary main_v16 main_v18 main_v3 main_v19 (select : (⟨S1380000, .i1⟩ : BufTy).Contents (Elt F) → (⟨S1380000, .i32⟩ : BufTy).Contents (Elt F) → (⟨S1380000, .i32⟩ : BufTy).Contents (Elt F) → (⟨S1380000, .i32⟩ : BufTy).Contents (Elt F)),
    unary main_v19 main_v20 (broadcastInDim S1380000x1 ![0] bcast_S1380000_S1380000x1_0 : (⟨S1380000, .i32⟩ : BufTy).Contents (Elt F) → (⟨S1380000x1, .i32⟩ : BufTy).Contents (Elt F)),
    binary main_v14 main_v20 main_v21 ((fun x i => Host.gather gather_S100000_S1380000x1_S1380000_n_0_n_n_0_1_1 x i) : (⟨S100000, .f32⟩ : BufTy).Contents (Elt F) → (⟨S1380000x1, .i32⟩ : BufTy).Contents (Elt F) → (⟨S1380000, .f32⟩ : BufTy).Contents (Elt F)),
    nullary main_c_4 (constantI S_ 32 0#32),
    unary main_c_4 main_v22 (broadcastInDim S1380000 ![] bcast_S_S1380000 : (⟨S_, .i32⟩ : BufTy).Contents (Elt F) → (⟨S1380000, .i32⟩ : BufTy).Contents (Elt F)),
    binary main_v6 main_v22 main_v23 (cmpi .slt : (⟨S1380000, .i32⟩ : BufTy).Contents (Elt F) → (⟨S1380000, .i32⟩ : BufTy).Contents (Elt F) → (⟨S1380000, .i1⟩ : BufTy).Contents (Elt F)),
    nullary main_c_5 (constantI S_ 32 100000#32),
    unary main_c_5 main_v24 (broadcastInDim S1380000 ![] bcast_S_S1380000 : (⟨S_, .i32⟩ : BufTy).Contents (Elt F) → (⟨S1380000, .i32⟩ : BufTy).Contents (Elt F)),
    binary main_v6 main_v24 main_v25 (addi : (⟨S1380000, .i32⟩ : BufTy).Contents (Elt F) → (⟨S1380000, .i32⟩ : BufTy).Contents (Elt F) → (⟨S1380000, .i32⟩ : BufTy).Contents (Elt F)),
    ternary main_v23 main_v25 main_v6 main_v26 (select : (⟨S1380000, .i1⟩ : BufTy).Contents (Elt F) → (⟨S1380000, .i32⟩ : BufTy).Contents (Elt F) → (⟨S1380000, .i32⟩ : BufTy).Contents (Elt F) → (⟨S1380000, .i32⟩ : BufTy).Contents (Elt F)),
    unary main_v26 main_v27 (broadcastInDim S1380000x1 ![0] bcast_S1380000_S1380000x1_0 : (⟨S1380000, .i32⟩ : BufTy).Contents (Elt F) → (⟨S1380000x1, .i32⟩ : BufTy).Contents (Elt F)),
    binary main_v14 main_v27 main_v28 ((fun x i => Host.gather gather_S100000_S1380000x1_S1380000_n_0_n_n_0_1_1 x i) : (⟨S100000, .f32⟩ : BufTy).Contents (Elt F) → (⟨S1380000x1, .i32⟩ : BufTy).Contents (Elt F) → (⟨S1380000, .f32⟩ : BufTy).Contents (Elt F)),
    binary main_v21 main_v28 main_v29 (mulf : (⟨S1380000, .f32⟩ : BufTy).Contents (Elt F) → (⟨S1380000, .f32⟩ : BufTy).Contents (Elt F) → (⟨S1380000, .f32⟩ : BufTy).Contents (Elt F)),
    binary main_arg0 main_arg2 main_v30 ((fun l r => Host.dotGeneral dot_S100000x18_S18x32_S100000x32_1_0_0_1_n_n none l r) : (⟨S100000x18, .f32⟩ : BufTy).Contents (Elt F) → (⟨S18x32, .f32⟩ : BufTy).Contents (Elt F) → (⟨S100000x32, .f32⟩ : BufTy).Contents (Elt F)),
    nullary main_c_6 (constantI S_ 32 0#32),
    unary main_c_6 main_v31 (broadcastInDim S1380000 ![] bcast_S_S1380000 : (⟨S_, .i32⟩ : BufTy).Contents (Elt F) → (⟨S1380000, .i32⟩ : BufTy).Contents (Elt F)),
    binary main_v3 main_v31 main_v32 (cmpi .slt : (⟨S1380000, .i32⟩ : BufTy).Contents (Elt F) → (⟨S1380000, .i32⟩ : BufTy).Contents (Elt F) → (⟨S1380000, .i1⟩ : BufTy).Contents (Elt F)),
    nullary main_c_7 (constantI S_ 32 100000#32),
    unary main_c_7 main_v33 (broadcastInDim S1380000 ![] bcast_S_S1380000 : (⟨S_, .i32⟩ : BufTy).Contents (Elt F) → (⟨S1380000, .i32⟩ : BufTy).Contents (Elt F)),
    binary main_v3 main_v33 main_v34 (addi : (⟨S1380000, .i32⟩ : BufTy).Contents (Elt F) → (⟨S1380000, .i32⟩ : BufTy).Contents (Elt F) → (⟨S1380000, .i32⟩ : BufTy).Contents (Elt F)),
    ternary main_v32 main_v34 main_v3 main_v35 (select : (⟨S1380000, .i1⟩ : BufTy).Contents (Elt F) → (⟨S1380000, .i32⟩ : BufTy).Contents (Elt F) → (⟨S1380000, .i32⟩ : BufTy).Contents (Elt F) → (⟨S1380000, .i32⟩ : BufTy).Contents (Elt F)),
    unary main_v35 main_v36 (broadcastInDim S1380000x1 ![0] bcast_S1380000_S1380000x1_0 : (⟨S1380000, .i32⟩ : BufTy).Contents (Elt F) → (⟨S1380000x1, .i32⟩ : BufTy).Contents (Elt F)),
    binary main_v30 main_v36 main_v37 ((fun x i => Host.gather gather_S100000x32_S1380000x1_S1380000x32_1_0_n_n_0_1_132 x i) : (⟨S100000x32, .f32⟩ : BufTy).Contents (Elt F) → (⟨S1380000x1, .i32⟩ : BufTy).Contents (Elt F) → (⟨S1380000x32, .f32⟩ : BufTy).Contents (Elt F)),
    unary main_v29 main_v38 (broadcastInDim S1380000x1 ![0] bcast_S1380000_S1380000x1_0 : (⟨S1380000, .f32⟩ : BufTy).Contents (Elt F) → (⟨S1380000x1, .f32⟩ : BufTy).Contents (Elt F)),
    unary main_v38 main_v39 (broadcastInDim S1380000x32 ![0, 1] bcast_S1380000x1_S1380000x32_0_1 : (⟨S1380000x1, .f32⟩ : BufTy).Contents (Elt F) → (⟨S1380000x32, .f32⟩ : BufTy).Contents (Elt F)),
    binary main_v37 main_v39 main_v40 (mulf : (⟨S1380000x32, .f32⟩ : BufTy).Contents (Elt F) → (⟨S1380000x32, .f32⟩ : BufTy).Contents (Elt F) → (⟨S1380000x32, .f32⟩ : BufTy).Contents (Elt F)),
    nullary main_cst_8 (constant S_ .f32 0x00000000#32),
    unary main_cst_8 main_v41 (broadcastInDim S100000x32 ![] bcast_S_S100000x32 : (⟨S_, .f32⟩ : BufTy).Contents (Elt F) → (⟨S100000x32, .f32⟩ : BufTy).Contents (Elt F)),
    unary main_v6 main_v42 (broadcastInDim S1380000x1 ![0] bcast_S1380000_S1380000x1_0 : (⟨S1380000, .i32⟩ : BufTy).Contents (Elt F) → (⟨S1380000x1, .i32⟩ : BufTy).Contents (Elt F)),
    ternary main_v41 main_v42 main_v40 main_v43 ((fun x i u => Host.scatterAdd scatter_S100000x32_S1380000x1_S1380000x32_1_0_0_1 x i u) : (⟨S100000x32, .f32⟩ : BufTy).Contents (Elt F) → (⟨S1380000x1, .i32⟩ : BufTy).Contents (Elt F) → (⟨S1380000x32, .f32⟩ : BufTy).Contents (Elt F) → (⟨S100000x32, .f32⟩ : BufTy).Contents (Elt F)),
    unary main_arg3 main_v44 (broadcastInDim S1x32 ![1] bcast_S32_S1x32_1 : (⟨S32, .f32⟩ : BufTy).Contents (Elt F) → (⟨S1x32, .f32⟩ : BufTy).Contents (Elt F)),
    unary main_v44 main_v45 (broadcastInDim S100000x32 ![0, 1] bcast_S1x32_S100000x32_0_1 : (⟨S1x32, .f32⟩ : BufTy).Contents (Elt F) → (⟨S100000x32, .f32⟩ : BufTy).Contents (Elt F)),
    binary main_v43 main_v45 main_v46 (addf : (⟨S100000x32, .f32⟩ : BufTy).Contents (Elt F) → (⟨S100000x32, .f32⟩ : BufTy).Contents (Elt F) → (⟨S100000x32, .f32⟩ : BufTy).Contents (Elt F)) ]

/-- Window 4: h1 = max (aggregate + b1, 0). -/
abbrev w4 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x32, .f32⟩) main_call1_v0) (broadcastInDim S100000x32 ![] bcast_S_S100000x32),
    TRef.binary (TRef.of (T := ⟨S100000x32, .f32⟩) main_v46) (TRef.of (T := ⟨S100000x32, .f32⟩) main_call1_v0) (TRef.of (T := ⟨S100000x32, .f32⟩) main_v47) maximumf ]

/-- Window 5: the degree, deg > 0 and rsqrt deg, a second time. -/
abbrev w5 : List (HloOp τ sig (Elt F)) :=
  [ nullary main_cst_9 (constant S_ .f32 0x3F800000#32),
    unary main_cst_9 main_v48 (broadcastInDim S1380000 ![] bcast_S_S1380000 : (⟨S_, .f32⟩ : BufTy).Contents (Elt F) → (⟨S1380000, .f32⟩ : BufTy).Contents (Elt F)),
    nullary main_cst_10 (constant S_ .f32 0x00000000#32),
    unary main_cst_10 main_v49 (broadcastInDim S100000 ![] bcast_S_S100000 : (⟨S_, .f32⟩ : BufTy).Contents (Elt F) → (⟨S100000, .f32⟩ : BufTy).Contents (Elt F)),
    unary main_v6 main_v50 (broadcastInDim S1380000x1 ![0] bcast_S1380000_S1380000x1_0 : (⟨S1380000, .i32⟩ : BufTy).Contents (Elt F) → (⟨S1380000x1, .i32⟩ : BufTy).Contents (Elt F)),
    ternary main_v49 main_v50 main_v48 main_v51 ((fun x i u => Host.scatterAdd scatter_S100000_S1380000x1_S1380000_n_0_0_1 x i u) : (⟨S100000, .f32⟩ : BufTy).Contents (Elt F) → (⟨S1380000x1, .i32⟩ : BufTy).Contents (Elt F) → (⟨S1380000, .f32⟩ : BufTy).Contents (Elt F) → (⟨S100000, .f32⟩ : BufTy).Contents (Elt F)),
    nullary main_cst_11 (constant S_ .f32 0x00000000#32),
    unary main_cst_11 main_v52 (broadcastInDim S100000 ![] bcast_S_S100000 : (⟨S_, .f32⟩ : BufTy).Contents (Elt F) → (⟨S100000, .f32⟩ : BufTy).Contents (Elt F)),
    binary main_v51 main_v52 main_v53 (cmpf .ogt : (⟨S100000, .f32⟩ : BufTy).Contents (Elt F) → (⟨S100000, .f32⟩ : BufTy).Contents (Elt F) → (⟨S100000, .i1⟩ : BufTy).Contents (Elt F)),
    unary main_v51 main_v54 (Host.rsqrt : (⟨S100000, .f32⟩ : BufTy).Contents (Elt F) → (⟨S100000, .f32⟩ : BufTy).Contents (Elt F)),
    nullary main_cst_12 (constant S_ .f32 0x00000000#32) ]

/-- Window 6: dinv a second time. -/
abbrev w6 : List (HloOp τ sig (Elt F)) :=
  [ TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v53) (TRef.of (T := ⟨S100000, .f32⟩) main_v54) (TRef.of (T := ⟨S100000, .f32⟩) main_call2_v1) (TRef.of (T := ⟨S100000, .f32⟩) main_v55) select ]

/-- Window 7: the edge weights a second time, the product h1 · W2, its rows gathered, scaled and scatter-added,
    and the sum with the bias row b2. -/
abbrev w7 : List (HloOp τ sig (Elt F)) :=
  [ nullary main_c_13 (constantI S_ 32 0#32),
    unary main_c_13 main_v56 (broadcastInDim S1380000 ![] bcast_S_S1380000 : (⟨S_, .i32⟩ : BufTy).Contents (Elt F) → (⟨S1380000, .i32⟩ : BufTy).Contents (Elt F)),
    binary main_v3 main_v56 main_v57 (cmpi .slt : (⟨S1380000, .i32⟩ : BufTy).Contents (Elt F) → (⟨S1380000, .i32⟩ : BufTy).Contents (Elt F) → (⟨S1380000, .i1⟩ : BufTy).Contents (Elt F)),
    nullary main_c_14 (constantI S_ 32 100000#32),
    unary main_c_14 main_v58 (broadcastInDim S1380000 ![] bcast_S_S1380000 : (⟨S_, .i32⟩ : BufTy).Contents (Elt F) → (⟨S1380000, .i32⟩ : BufTy).Contents (Elt F)),
    binary main_v3 main_v58 main_v59 (addi : (⟨S1380000, .i32⟩ : BufTy).Contents (Elt F) → (⟨S1380000, .i32⟩ : BufTy).Contents (Elt F) → (⟨S1380000, .i32⟩ : BufTy).Contents (Elt F)),
    ternary main_v57 main_v59 main_v3 main_v60 (select : (⟨S1380000, .i1⟩ : BufTy).Contents (Elt F) → (⟨S1380000, .i32⟩ : BufTy).Contents (Elt F) → (⟨S1380000, .i32⟩ : BufTy).Contents (Elt F) → (⟨S1380000, .i32⟩ : BufTy).Contents (Elt F)),
    unary main_v60 main_v61 (broadcastInDim S1380000x1 ![0] bcast_S1380000_S1380000x1_0 : (⟨S1380000, .i32⟩ : BufTy).Contents (Elt F) → (⟨S1380000x1, .i32⟩ : BufTy).Contents (Elt F)),
    binary main_v55 main_v61 main_v62 ((fun x i => Host.gather gather_S100000_S1380000x1_S1380000_n_0_n_n_0_1_1 x i) : (⟨S100000, .f32⟩ : BufTy).Contents (Elt F) → (⟨S1380000x1, .i32⟩ : BufTy).Contents (Elt F) → (⟨S1380000, .f32⟩ : BufTy).Contents (Elt F)),
    nullary main_c_15 (constantI S_ 32 0#32),
    unary main_c_15 main_v63 (broadcastInDim S1380000 ![] bcast_S_S1380000 : (⟨S_, .i32⟩ : BufTy).Contents (Elt F) → (⟨S1380000, .i32⟩ : BufTy).Contents (Elt F)),
    binary main_v6 main_v63 main_v64 (cmpi .slt : (⟨S1380000, .i32⟩ : BufTy).Contents (Elt F) → (⟨S1380000, .i32⟩ : BufTy).Contents (Elt F) → (⟨S1380000, .i1⟩ : BufTy).Contents (Elt F)),
    nullary main_c_16 (constantI S_ 32 100000#32),
    unary main_c_16 main_v65 (broadcastInDim S1380000 ![] bcast_S_S1380000 : (⟨S_, .i32⟩ : BufTy).Contents (Elt F) → (⟨S1380000, .i32⟩ : BufTy).Contents (Elt F)),
    binary main_v6 main_v65 main_v66 (addi : (⟨S1380000, .i32⟩ : BufTy).Contents (Elt F) → (⟨S1380000, .i32⟩ : BufTy).Contents (Elt F) → (⟨S1380000, .i32⟩ : BufTy).Contents (Elt F)),
    ternary main_v64 main_v66 main_v6 main_v67 (select : (⟨S1380000, .i1⟩ : BufTy).Contents (Elt F) → (⟨S1380000, .i32⟩ : BufTy).Contents (Elt F) → (⟨S1380000, .i32⟩ : BufTy).Contents (Elt F) → (⟨S1380000, .i32⟩ : BufTy).Contents (Elt F)),
    unary main_v67 main_v68 (broadcastInDim S1380000x1 ![0] bcast_S1380000_S1380000x1_0 : (⟨S1380000, .i32⟩ : BufTy).Contents (Elt F) → (⟨S1380000x1, .i32⟩ : BufTy).Contents (Elt F)),
    binary main_v55 main_v68 main_v69 ((fun x i => Host.gather gather_S100000_S1380000x1_S1380000_n_0_n_n_0_1_1 x i) : (⟨S100000, .f32⟩ : BufTy).Contents (Elt F) → (⟨S1380000x1, .i32⟩ : BufTy).Contents (Elt F) → (⟨S1380000, .f32⟩ : BufTy).Contents (Elt F)),
    binary main_v62 main_v69 main_v70 (mulf : (⟨S1380000, .f32⟩ : BufTy).Contents (Elt F) → (⟨S1380000, .f32⟩ : BufTy).Contents (Elt F) → (⟨S1380000, .f32⟩ : BufTy).Contents (Elt F)),
    binary main_v47 main_arg4 main_v71 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    nullary main_c_17 (constantI S_ 32 0#32),
    unary main_c_17 main_v72 (broadcastInDim S1380000 ![] bcast_S_S1380000 : (⟨S_, .i32⟩ : BufTy).Contents (Elt F) → (⟨S1380000, .i32⟩ : BufTy).Contents (Elt F)),
    binary main_v3 main_v72 main_v73 (cmpi .slt : (⟨S1380000, .i32⟩ : BufTy).Contents (Elt F) → (⟨S1380000, .i32⟩ : BufTy).Contents (Elt F) → (⟨S1380000, .i1⟩ : BufTy).Contents (Elt F)),
    nullary main_c_18 (constantI S_ 32 100000#32),
    unary main_c_18 main_v74 (broadcastInDim S1380000 ![] bcast_S_S1380000 : (⟨S_, .i32⟩ : BufTy).Contents (Elt F) → (⟨S1380000, .i32⟩ : BufTy).Contents (Elt F)),
    binary main_v3 main_v74 main_v75 (addi : (⟨S1380000, .i32⟩ : BufTy).Contents (Elt F) → (⟨S1380000, .i32⟩ : BufTy).Contents (Elt F) → (⟨S1380000, .i32⟩ : BufTy).Contents (Elt F)),
    ternary main_v73 main_v75 main_v3 main_v76 (select : (⟨S1380000, .i1⟩ : BufTy).Contents (Elt F) → (⟨S1380000, .i32⟩ : BufTy).Contents (Elt F) → (⟨S1380000, .i32⟩ : BufTy).Contents (Elt F) → (⟨S1380000, .i32⟩ : BufTy).Contents (Elt F)),
    unary main_v76 main_v77 (broadcastInDim S1380000x1 ![0] bcast_S1380000_S1380000x1_0 : (⟨S1380000, .i32⟩ : BufTy).Contents (Elt F) → (⟨S1380000x1, .i32⟩ : BufTy).Contents (Elt F)),
    binary main_v71 main_v77 main_v78 ((fun x i => Host.gather gather_S100000x64_S1380000x1_S1380000x64_1_0_n_n_0_1_164 x i) : (⟨S100000x64, .f32⟩ : BufTy).Contents (Elt F) → (⟨S1380000x1, .i32⟩ : BufTy).Contents (Elt F) → (⟨S1380000x64, .f32⟩ : BufTy).Contents (Elt F)),
    unary main_v70 main_v79 (broadcastInDim S1380000x1 ![0] bcast_S1380000_S1380000x1_0 : (⟨S1380000, .f32⟩ : BufTy).Contents (Elt F) → (⟨S1380000x1, .f32⟩ : BufTy).Contents (Elt F)),
    unary main_v79 main_v80 (broadcastInDim S1380000x64 ![0, 1] bcast_S1380000x1_S1380000x64_0_1 : (⟨S1380000x1, .f32⟩ : BufTy).Contents (Elt F) → (⟨S1380000x64, .f32⟩ : BufTy).Contents (Elt F)),
    binary main_v78 main_v80 main_v81 (mulf : (⟨S1380000x64, .f32⟩ : BufTy).Contents (Elt F) → (⟨S1380000x64, .f32⟩ : BufTy).Contents (Elt F) → (⟨S1380000x64, .f32⟩ : BufTy).Contents (Elt F)),
    nullary main_cst_19 (constant S_ .f32 0x00000000#32),
    unary main_cst_19 main_v82 (broadcastInDim S100000x64 ![] bcast_S_S100000x64 : (⟨S_, .f32⟩ : BufTy).Contents (Elt F) → (⟨S100000x64, .f32⟩ : BufTy).Contents (Elt F)),
    unary main_v6 main_v83 (broadcastInDim S1380000x1 ![0] bcast_S1380000_S1380000x1_0 : (⟨S1380000, .i32⟩ : BufTy).Contents (Elt F) → (⟨S1380000x1, .i32⟩ : BufTy).Contents (Elt F)),
    ternary main_v82 main_v83 main_v81 main_v84 ((fun x i u => Host.scatterAdd scatter_S100000x64_S1380000x1_S1380000x64_1_0_0_1 x i u) : (⟨S100000x64, .f32⟩ : BufTy).Contents (Elt F) → (⟨S1380000x1, .i32⟩ : BufTy).Contents (Elt F) → (⟨S1380000x64, .f32⟩ : BufTy).Contents (Elt F) → (⟨S100000x64, .f32⟩ : BufTy).Contents (Elt F)),
    unary main_arg5 main_v85 (broadcastInDim S1x64 ![1] bcast_S64_S1x64_1 : (⟨S64, .f32⟩ : BufTy).Contents (Elt F) → (⟨S1x64, .f32⟩ : BufTy).Contents (Elt F)),
    unary main_v85 main_v86 (broadcastInDim S100000x64 ![0, 1] bcast_S1x64_S100000x64_0_1 : (⟨S1x64, .f32⟩ : BufTy).Contents (Elt F) → (⟨S100000x64, .f32⟩ : BufTy).Contents (Elt F)),
    binary main_v84 main_v86 main_v87 (addf : (⟨S100000x64, .f32⟩ : BufTy).Contents (Elt F) → (⟨S100000x64, .f32⟩ : BufTy).Contents (Elt F) → (⟨S100000x64, .f32⟩ : BufTy).Contents (Elt F)) ]

/-- Window 8: h2 = max (aggregate + b2, 0). -/
abbrev w8 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v87) (TRef.of (T := ⟨S100000x64, .f32⟩) main_call3_v0) (TRef.of (T := ⟨S100000x64, .f32⟩) main_v88) maximumf ]

/-- Window 9: the logits h2 · Wfc + bfc. -/
abbrev w9 : List (HloOp τ sig (Elt F)) :=
  [ binary main_v88 main_arg6 main_v89 ((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)),
    unary main_arg7 main_v90 (broadcastInDim S1x2 ![1] bcast_S2_S1x2_1 : (⟨S2, .f32⟩ : BufTy).Contents (Elt F) → (⟨S1x2, .f32⟩ : BufTy).Contents (Elt F)),
    unary main_v90 main_v91 (broadcastInDim S100000x2 ![0, 1] bcast_S1x2_S100000x2_0_1 : (⟨S1x2, .f32⟩ : BufTy).Contents (Elt F) → (⟨S100000x2, .f32⟩ : BufTy).Contents (Elt F)),
    binary main_v89 main_v91 main_v92 (addf : (⟨S100000x2, .f32⟩ : BufTy).Contents (Elt F) → (⟨S100000x2, .f32⟩ : BufTy).Contents (Elt F) → (⟨S100000x2, .f32⟩ : BufTy).Contents (Elt F)) ]

/-- Window 10: the row maximum of the logits, folded from minus infinity (and once more clamped below by it). -/
abbrev w10 : List (HloOp τ sig (Elt F)) :=
  [ TRef.nullary (TRef.of (T := ⟨S_, .f32⟩) main_call4_cst) (constant S_ .f32 0xFF800000#32),
    TRef.binary (TRef.of (T := ⟨S100000x2, .f32⟩) main_v92) (TRef.of (T := ⟨S_, .f32⟩) main_call4_cst) (TRef.of (T := ⟨S100000, .f32⟩) main_call4_v0) (fun x v => Host.reduce FloatOps.maximumf x v reducesTo_S100000x2_S100000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_call4_v0) (TRef.of (T := ⟨S100000, .f32⟩) main_call4_v2) maximumf ]

/-- Window 11: the logits minus their row maximum. -/
abbrev w11 : List (HloOp τ sig (Elt F)) :=
  [ TRef.unary (TRef.of (T := ⟨S100000, .f32⟩) main_call4_v2) (TRef.of (T := ⟨S100000x1, .f32⟩) main_call4_v3) (broadcastInDim S100000x1 ![0] bcast_S100000_S100000x1_0),
    TRef.unary (TRef.of (T := ⟨S100000x1, .f32⟩) main_call4_v3) (TRef.of (T := ⟨S100000x2, .f32⟩) main_call4_v4) (broadcastInDim S100000x2 ![0, 1] bcast_S100000x1_S100000x2_0_1),
    TRef.binary (TRef.of (T := ⟨S100000x2, .f32⟩) main_v92) (TRef.of (T := ⟨S100000x2, .f32⟩) main_call4_v4) (TRef.of (T := ⟨S100000x2, .f32⟩) main_call4_v5) subf ]

/-- Window 12: the exponentials of the shifted logits and their row sum from zero, as a column. -/
abbrev w12 : List (HloOp τ sig (Elt F)) :=
  [ TRef.unary (TRef.of (T := ⟨S100000x2, .f32⟩) main_call4_v5) (TRef.of (T := ⟨S100000x2, .f32⟩) main_call4_v6) Host.exp,
    TRef.nullary (TRef.of (T := ⟨S_, .f32⟩) main_call4_cst_1) (constant S_ .f32 0x00000000#32),
    TRef.binary (TRef.of (T := ⟨S100000x2, .f32⟩) main_call4_v6) (TRef.of (T := ⟨S_, .f32⟩) main_call4_cst_1) (TRef.of (T := ⟨S100000, .f32⟩) main_call4_v7) (fun x v => Host.reduceAdd x v reducesTo_S100000x2_S100000_d1 h_S_),
    TRef.unary (TRef.of (T := ⟨S100000, .f32⟩) main_call4_v7) (TRef.of (T := ⟨S100000x1, .f32⟩) main_call4_v8) (broadcastInDim S100000x1 ![0] bcast_S100000_S100000x1_0) ]

/-- Window 13: the logarithm of the row sum, and the shifted logits minus it. -/
abbrev w13 : List (HloOp τ sig (Elt F)) :=
  [ TRef.unary (TRef.of (T := ⟨S100000x1, .f32⟩) main_call4_v8) (TRef.of (T := ⟨S100000x1, .f32⟩) main_call4_v9) Host.log,
    TRef.unary (TRef.of (T := ⟨S100000x1, .f32⟩) main_call4_v9) (TRef.of (T := ⟨S100000x2, .f32⟩) main_call4_v10) (broadcastInDim S100000x2 ![0, 1] bcast_S100000x1_S100000x2_0_1),
    TRef.binary (TRef.of (T := ⟨S100000x2, .f32⟩) main_call4_v5) (TRef.of (T := ⟨S100000x2, .f32⟩) main_call4_v10) (TRef.of (T := ⟨S100000x2, .f32⟩) main_v93) subf ]

/-- The program is the thirteen windows in order. -/
theorem ops_eq : (ops : List (HloOp τ sig (Elt F))) = w1 ++ (w2 ++ (w3 ++ (w4 ++ (w5 ++ (w6 ++ (w7 ++ (w8 ++ (w9 ++ (w10 ++ (w11 ++ (w12 ++ w13))))))))))) := rfl

/-- The fold over the program is the folds over the windows, composed. -/
theorem after_ops_eq (V : Valuation τ sig (Elt F)) :
    after ops V = after w13 (after w12 (after w11 (after w10 (after w9 (after w8 (after w7 (after w6 (after w5 (after w4 (after w3 (after w2
      (after w1 V)))))))))))) := by
  rw [ops_eq]; simp only [after_append]

/-! ## The invariants at the cuts -/

section Invariants

variable (x0 : (⟨S100000x18, .f32⟩ : BufTy).Contents (Elt F))
  (x1 : (⟨S2x1280000, .i32⟩ : BufTy).Contents (Elt F))
  (x2 : (⟨S18x32, .f32⟩ : BufTy).Contents (Elt F))
  (x3 : (⟨S32, .f32⟩ : BufTy).Contents (Elt F))
  (x4 : (⟨S32x64, .f32⟩ : BufTy).Contents (Elt F))
  (x5 : (⟨S64, .f32⟩ : BufTy).Contents (Elt F))
  (x6 : (⟨S64x2, .f32⟩ : BufTy).Contents (Elt F))
  (x7 : (⟨S2, .f32⟩ : BufTy).Contents (Elt F))

/-- The eight argument buffers hold the arrays x0 … x7. -/
structure ArgsAre (V : Valuation τ sig (Elt F)) : Prop where
  a0 : V main_arg0 = x0
  a1 : V main_arg1 = x1
  a2 : V main_arg2 = x2
  a3 : V main_arg3 = x3
  a4 : V main_arg4 = x4
  a5 : V main_arg5 = x5
  a6 : V main_arg6 = x6
  a7 : V main_arg7 = x7

/-- After window 1: src, dst, the bit deg > 0, rsqrt deg and the fallback zero are the stage values. -/
structure After1 (V : Valuation τ sig (Elt F)) : Prop where
  args : ArgsAre x0 x1 x2 x3 x4 x5 x6 x7 V
  src : V main_v3 = val_main_v3 (F := F) x1
  dst : V main_v6 = val_main_v6 (F := F) x1
  pos : V main_v12 = val_main_v12 (F := F) x1
  rs : V main_v13 = val_main_v13 (F := F) x1
  zero : V main_cst_2 = val_main_cst_2 (F := F)

/-- After window 2: dinv is the stage value. -/
structure After2 (V : Valuation τ sig (Elt F)) : Prop where
  args : ArgsAre x0 x1 x2 x3 x4 x5 x6 x7 V
  src : V main_v3 = val_main_v3 (F := F) x1
  dst : V main_v6 = val_main_v6 (F := F) x1
  dinv : V main_v14 = val_main_v14 (F := F) x1

/-- After window 3: the first aggregate plus its bias is the stage value. -/
structure After3 (V : Valuation τ sig (Elt F)) : Prop where
  args : ArgsAre x0 x1 x2 x3 x4 x5 x6 x7 V
  src : V main_v3 = val_main_v3 (F := F) x1
  dst : V main_v6 = val_main_v6 (F := F) x1
  pre : V main_v46 = val_main_v46 (F := F) x0 x1 x2 x3

/-- After window 4: h1 is the stage value. -/
structure After4 (V : Valuation τ sig (Elt F)) : Prop where
  args : ArgsAre x0 x1 x2 x3 x4 x5 x6 x7 V
  src : V main_v3 = val_main_v3 (F := F) x1
  dst : V main_v6 = val_main_v6 (F := F) x1
  h1 : V main_v47 = val_main_v47 (F := F) x0 x1 x2 x3

/-- After window 5: besides h1, the second deg > 0, rsqrt deg and fallback zero are the stage values. -/
structure After5 (V : Valuation τ sig (Elt F)) : Prop where
  args : ArgsAre x0 x1 x2 x3 x4 x5 x6 x7 V
  src : V main_v3 = val_main_v3 (F := F) x1
  dst : V main_v6 = val_main_v6 (F := F) x1
  h1 : V main_v47 = val_main_v47 (F := F) x0 x1 x2 x3
  pos : V main_v53 = val_main_v53 (F := F) x1
  rs : V main_v54 = val_main_v54 (F := F) x1
  zero : V main_cst_12 = val_main_cst_12 (F := F)

/-- After window 6: h1 and the second dinv are the stage values. -/
structure After6 (V : Valuation τ sig (Elt F)) : Prop where
  args : ArgsAre x0 x1 x2 x3 x4 x5 x6 x7 V
  src : V main_v3 = val_main_v3 (F := F) x1
  dst : V main_v6 = val_main_v6 (F := F) x1
  h1 : V main_v47 = val_main_v47 (F := F) x0 x1 x2 x3
  dinv : V main_v55 = val_main_v55 (F := F) x1

/-- After window 7: the second aggregate plus its bias is the stage value. -/
structure After7 (V : Valuation τ sig (Elt F)) : Prop where
  args : ArgsAre x0 x1 x2 x3 x4 x5 x6 x7 V
  pre : V main_v87 = val_main_v87 (F := F) x0 x1 x2 x3 x4 x5

/-- After window 8: h2 is the stage value. -/
structure After8 (V : Valuation τ sig (Elt F)) : Prop where
  args : ArgsAre x0 x1 x2 x3 x4 x5 x6 x7 V
  h2 : V main_v88 = val_main_v88 (F := F) x0 x1 x2 x3 x4 x5

/-- After window 9: the logits are the stage value. -/
structure After9 (V : Valuation τ sig (Elt F)) : Prop where
  args : ArgsAre x0 x1 x2 x3 x4 x5 x6 x7 V
  z : V main_v92 = val_main_v92 (F := F) x0 x1 x2 x3 x4 x5 x6 x7

/-- After window 10: the logits and their row maximum are the stage values. -/
structure After10 (V : Valuation τ sig (Elt F)) : Prop where
  args : ArgsAre x0 x1 x2 x3 x4 x5 x6 x7 V
  z : V main_v92 = val_main_v92 (F := F) x0 x1 x2 x3 x4 x5 x6 x7
  rmax : V main_call4_v2 = val_main_call4_v2 (F := F) x0 x1 x2 x3 x4 x5 x6 x7

/-- After window 11: the shifted logits are the stage value. -/
structure After11 (V : Valuation τ sig (Elt F)) : Prop where
  args : ArgsAre x0 x1 x2 x3 x4 x5 x6 x7 V
  sh : V main_call4_v5 = val_main_call4_v5 (F := F) x0 x1 x2 x3 x4 x5 x6 x7

/-- After window 12: the shifted logits and the column of row sums of their exponentials are the stage values. -/
structure After12 (V : Valuation τ sig (Elt F)) : Prop where
  args : ArgsAre x0 x1 x2 x3 x4 x5 x6 x7 V
  sh : V main_call4_v5 = val_main_call4_v5 (F := F) x0 x1 x2 x3 x4 x5 x6 x7
  rsum : V main_call4_v8 = val_main_call4_v8 (F := F) x0 x1 x2 x3 x4 x5 x6 x7

/-- After window 13: the result buffer holds log_softmax of the logits, the last stage value. -/
structure After13 (V : Valuation τ sig (Elt F)) : Prop where
  args : ArgsAre x0 x1 x2 x3 x4 x5 x6 x7 V
  out : V main_v93 = val_main_v93 (F := F) x0 x1 x2 x3 x4 x5 x6 x7

variable {x0 x1 x2 x3 x4 x5 x6 x7} {V : Valuation τ sig (Elt F)}

/-! ## No window writes an argument buffer -/

theorem keep1 (h : ArgsAre x0 x1 x2 x3 x4 x5 x6 x7 V) : ArgsAre x0 x1 x2 x3 x4 x5 x6 x7 (after w1 V) := by
  obtain ⟨h0, h1, h2, h3, h4, h5, h6, h7⟩ := h
  refine ⟨?_, ?_, ?_, ?_, ?_, ?_, ?_, ?_⟩ <;> after_results <;> assumption

theorem keep2 (h : ArgsAre x0 x1 x2 x3 x4 x5 x6 x7 V) : ArgsAre x0 x1 x2 x3 x4 x5 x6 x7 (after w2 V) := by
  obtain ⟨h0, h1, h2, h3, h4, h5, h6, h7⟩ := h
  refine ⟨?_, ?_, ?_, ?_, ?_, ?_, ?_, ?_⟩ <;> after_results <;> assumption

theorem keep3 (h : ArgsAre x0 x1 x2 x3 x4 x5 x6 x7 V) : ArgsAre x0 x1 x2 x3 x4 x5 x6 x7 (after w3 V) := by
  obtain ⟨h0, h1, h2, h3, h4, h5, h6, h7⟩ := h
  refine ⟨?_, ?_, ?_, ?_, ?_, ?_, ?_, ?_⟩ <;> after_results_simp <;> assumption

theorem keep4 (h : ArgsAre x0 x1 x2 x3 x4 x5 x6 x7 V) : ArgsAre x0 x1 x2 x3 x4 x5 x6 x7 (after w4 V) := by
  obtain ⟨h0, h1, h2, h3, h4, h5, h6, h7⟩ := h
  refine ⟨?_, ?_, ?_, ?_, ?_, ?_, ?_, ?_⟩ <;> after_results <;> assumption

theorem keep5 (h : ArgsAre x0 x1 x2 x3 x4 x5 x6 x7 V) : ArgsAre x0 x1 x2 x3 x4 x5 x6 x7 (after w5 V) := by
  obtain ⟨h0, h1, h2, h3, h4, h5, h6, h7⟩ := h
  refine ⟨?_, ?_, ?_, ?_, ?_, ?_, ?_, ?_⟩ <;> after_results <;> assumption

theorem keep6 (h : ArgsAre x0 x1 x2 x3 x4 x5 x6 x7 V) : ArgsAre x0 x1 x2 x3 x4 x5 x6 x7 (after w6 V) := by
  obtain ⟨h0, h1, h2, h3, h4, h5, h6, h7⟩ := h
  refine ⟨?_, ?_, ?_, ?_, ?_, ?_, ?_, ?_⟩ <;> after_results <;> assumption

theorem keep7 (h : ArgsAre x0 x1 x2 x3 x4 x5 x6 x7 V) : ArgsAre x0 x1 x2 x3 x4 x5 x6 x7 (after w7 V) := by
  obtain ⟨h0, h1, h2, h3, h4, h5, h6, h7⟩ := h
  refine ⟨?_, ?_, ?_, ?_, ?_, ?_, ?_, ?_⟩ <;> after_results_simp <;> assumption

theorem keep8 (h : ArgsAre x0 x1 x2 x3 x4 x5 x6 x7 V) : ArgsAre x0 x1 x2 x3 x4 x5 x6 x7 (after w8 V) := by
  obtain ⟨h0, h1, h2, h3, h4, h5, h6, h7⟩ := h
  refine ⟨?_, ?_, ?_, ?_, ?_, ?_, ?_, ?_⟩ <;> after_results <;> assumption

theorem keep9 (h : ArgsAre x0 x1 x2 x3 x4 x5 x6 x7 V) : ArgsAre x0 x1 x2 x3 x4 x5 x6 x7 (after w9 V) := by
  obtain ⟨h0, h1, h2, h3, h4, h5, h6, h7⟩ := h
  refine ⟨?_, ?_, ?_, ?_, ?_, ?_, ?_, ?_⟩ <;> after_results <;> assumption

theorem keep10 (h : ArgsAre x0 x1 x2 x3 x4 x5 x6 x7 V) : ArgsAre x0 x1 x2 x3 x4 x5 x6 x7 (after w10 V) := by
  obtain ⟨h0, h1, h2, h3, h4, h5, h6, h7⟩ := h
  refine ⟨?_, ?_, ?_, ?_, ?_, ?_, ?_, ?_⟩ <;> after_results <;> assumption

theorem keep11 (h : ArgsAre x0 x1 x2 x3 x4 x5 x6 x7 V) : ArgsAre x0 x1 x2 x3 x4 x5 x6 x7 (after w11 V) := by
  obtain ⟨h0, h1, h2, h3, h4, h5, h6, h7⟩ := h
  refine ⟨?_, ?_, ?_, ?_, ?_, ?_, ?_, ?_⟩ <;> after_results <;> assumption

theorem keep12 (h : ArgsAre x0 x1 x2 x3 x4 x5 x6 x7 V) : ArgsAre x0 x1 x2 x3 x4 x5 x6 x7 (after w12 V) := by
  obtain ⟨h0, h1, h2, h3, h4, h5, h6, h7⟩ := h
  refine ⟨?_, ?_, ?_, ?_, ?_, ?_, ?_, ?_⟩ <;> after_results <;> assumption

theorem keep13 (h : ArgsAre x0 x1 x2 x3 x4 x5 x6 x7 V) : ArgsAre x0 x1 x2 x3 x4 x5 x6 x7 (after w13 V) := by
  obtain ⟨h0, h1, h2, h3, h4, h5, h6, h7⟩ := h
  refine ⟨?_, ?_, ?_, ?_, ?_, ?_, ?_, ?_⟩ <;> after_results <;> assumption

/-! ## The windows, one invariant to the next

In each step a written buffer is read as the window's operations over the incoming contents (the fold unfolded
operation by operation), the incoming contents are replaced by the stage values the invariant names, and what is
left is the definition of the outgoing stage value. A buffer the window does not write holds what it held. -/

/-- Window 1 from the arguments. -/
theorem step1 (h : ArgsAre x0 x1 x2 x3 x4 x5 x6 x7 V) : After1 x0 x1 x2 x3 x4 x5 x6 x7 (after w1 V) where
  args := keep1 h
  src := by after_results; rw [h.a1]; rfl
  dst := by after_results; rw [h.a1]; rfl
  pos := by after_results; rw [h.a1]; rfl
  rs := by after_results; rw [h.a1]; rfl
  zero := by after_results; rfl

/-- Window 2: the selection between rsqrt deg and zero by the bit deg > 0. -/
theorem step2 (h : After1 x0 x1 x2 x3 x4 x5 x6 x7 V) : After2 x0 x1 x2 x3 x4 x5 x6 x7 (after w2 V) where
  args := keep2 h.args
  src := by after_results; exact h.src
  dst := by after_results; exact h.dst
  dinv := by after_results; rw [h.pos, h.rs, h.zero]; rfl

/-- Window 3: from src, dst, dinv and the arguments x, W1, b1 to the first aggregate plus its bias. -/
theorem step3 (h : After2 x0 x1 x2 x3 x4 x5 x6 x7 V) : After3 x0 x1 x2 x3 x4 x5 x6 x7 (after w3 V) where
  args := keep3 h.args
  src := by after_results; exact h.src
  dst := by after_results; exact h.dst
  pre := by after_results_simp; rw [h.src, h.dst, h.dinv, h.args.a0, h.args.a2, h.args.a3]; rfl

/-- Window 4: the maximum with zero. -/
theorem step4 (h : After3 x0 x1 x2 x3 x4 x5 x6 x7 V) : After4 x0 x1 x2 x3 x4 x5 x6 x7 (after w4 V) where
  args := keep4 h.args
  src := by after_results; exact h.src
  dst := by after_results; exact h.dst
  h1 := by after_results; rw [h.pre]; rfl

/-- Window 5: the degree again, from dst alone. -/
theorem step5 (h : After4 x0 x1 x2 x3 x4 x5 x6 x7 V) : After5 x0 x1 x2 x3 x4 x5 x6 x7 (after w5 V) where
  args := keep5 h.args
  src := by after_results; exact h.src
  dst := by after_results; exact h.dst
  h1 := by after_results; exact h.h1
  pos := by after_results; rw [h.dst]; rfl
  rs := by after_results; rw [h.dst]; rfl
  zero := by after_results; rfl

/-- Window 6: the selection again. -/
theorem step6 (h : After5 x0 x1 x2 x3 x4 x5 x6 x7 V) : After6 x0 x1 x2 x3 x4 x5 x6 x7 (after w6 V) where
  args := keep6 h.args
  src := by after_results; exact h.src
  dst := by after_results; exact h.dst
  h1 := by after_results; exact h.h1
  dinv := by after_results; rw [h.pos, h.rs, h.zero]; rfl

/-- Window 7: from src, dst, dinv, h1 and the arguments W2, b2 to the second aggregate plus its bias. -/
theorem step7 (h : After6 x0 x1 x2 x3 x4 x5 x6 x7 V) : After7 x0 x1 x2 x3 x4 x5 x6 x7 (after w7 V) where
  args := keep7 h.args
  pre := by after_results_simp; rw [h.src, h.dst, h.dinv, h.h1, h.args.a4, h.args.a5]; rfl

/-- Window 8: the maximum with zero. -/
theorem step8 (h : After7 x0 x1 x2 x3 x4 x5 x6 x7 V) : After8 x0 x1 x2 x3 x4 x5 x6 x7 (after w8 V) where
  args := keep8 h.args
  h2 := by after_results; rw [h.pre]; rfl

/-- Window 9: the last product and its bias. -/
theorem step9 (h : After8 x0 x1 x2 x3 x4 x5 x6 x7 V) : After9 x0 x1 x2 x3 x4 x5 x6 x7 (after w9 V) where
  args := keep9 h.args
  z := by after_results; rw [h.h2, h.args.a6, h.args.a7]; rfl

attribute [local irreducible] Host.reduce in
/-- Window 10: the row maximum. Both sides are the same left fold of the maximum over a row, from minus infinity; the
    fold is kept folded and only its operands are compared. -/
theorem step10 (h : After9 x0 x1 x2 x3 x4 x5 x6 x7 V) : After10 x0 x1 x2 x3 x4 x5 x6 x7 (after w10 V) where
  args := keep10 h.args
  z := by after_results; exact h.z
  rmax := by after_results; rw [h.z]; rfl

/-- Window 11: the row maximum as a column, repeated along each row, subtracted from the logits. -/
theorem step11 (h : After10 x0 x1 x2 x3 x4 x5 x6 x7 V) : After11 x0 x1 x2 x3 x4 x5 x6 x7 (after w11 V) where
  args := keep11 h.args
  sh := by after_results; rw [h.z, h.rmax]; rfl

/-- Window 12: the exponentials and their row sum. -/
theorem step12 (h : After11 x0 x1 x2 x3 x4 x5 x6 x7 V) : After12 x0 x1 x2 x3 x4 x5 x6 x7 (after w12 V) where
  args := keep12 h.args
  sh := by after_results; exact h.sh
  rsum := by after_results; rw [h.sh]; rfl

/-- Window 13: the logarithm and the last subtraction. -/
theorem step13 (h : After12 x0 x1 x2 x3 x4 x5 x6 x7 V) : After13 x0 x1 x2 x3 x4 x5 x6 x7 (after w13 V) where
  args := keep13 h.args
  out := by after_results; rw [h.sh, h.rsum]; rfl

/-- The whole program, from contents that hold x0 … x7 at the argument buffers. -/
theorem after_ops (h : ArgsAre x0 x1 x2 x3 x4 x5 x6 x7 V) : After13 x0 x1 x2 x3 x4 x5 x6 x7 (after ops V) := by
  rw [after_ops_eq]
  exact step13 (step12 (step11 (step10 (step9 (step8 (step7 (step6 (step5 (step4 (step3 (step2 (step1 h))))))))))))

end Invariants

/-! ## The run -/

/-- On every device, from any memory with zero counters, every weakly fair execution of the reference program
    terminates; at the end the result buffer holds log_softmax (logits) of the launch contents of the eight
    argument buffers, as the stage functions compose it, and the argument buffers hold their launch contents. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v93)
          = val_main_v93 (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => by
      -- the launch contents of device c, which hold themselves at the argument buffers
      have hS : After13 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (after ops (launchContents m c)) :=
        after_ops ⟨rfl, rfl, rfl, rfl, rfl, rfl, rfl, rfl⟩
      exact ⟨(h c main_v93).trans hS.out, (h c main_arg0).trans hS.args.a0, (h c main_arg1).trans hS.args.a1,
        (h c main_arg2).trans hS.args.a2, (h c main_arg3).trans hS.args.a3, (h c main_arg4).trans hS.args.a4,
        (h c main_arg5).trans hS.args.a5, (h c main_arg6).trans hS.args.a6, (h c main_arg7).trans hS.args.a7⟩)
    (run_seq scopedRefs_eq scopedSems_eq defs main (fun _ => ops) main_eq (fun _ => ops_sub) m ρ)

end Cert.ReferenceIdeal.RunValue

end
-- ==== Proof.lean ====
/-
  Two graph-convolution layers, a linear map and a log-softmax: three Pallas kernels (the products x · W1,
  max (raw1 + b1) 0 · W2 and max (raw2 + b2) 0 · Wfc + bfc followed by the log-softmax of each row, each over twenty
  blocks of 5000 rows) with the gather, scale and scatter-add of the message passing between them, against the jnp
  reference that computes the same network with whole-array operations.

  Over the extended reals a matrix product on the matrix unit and the host's dot_general are the same sum, a change
  of float format is the identity, and the host operations of the two programs are the same operations; so the two
  programs agree stage by stage up to the logits z. The kernel writes z - (m + log Σ exp (z - m)) with m the row's
  maximum, the reference (z - m) - log Σ exp (z - m): equal for real z, and z is real because every float argument
  is finite — whatever the integer edge list holds, since a degree of zero selects the constant 0 instead of the
  reciprocal square root.
-/
import proofs.«130963_j73718818668739_1_alg».proof.Defs
import proofs.«130963_j73718818668739_1_alg».proof.Proof.Gen.Kernel
import proofs.«130963_j73718818668739_1_alg».proof.Proof.Gen.Kernel.Frame
import proofs.«130963_j73718818668739_1_alg».proof.Proof.Gen.KernelIdeal
import proofs.«130963_j73718818668739_1_alg».proof.Proof.Gen.KernelIdeal.Frame
import proofs.«130963_j73718818668739_1_alg».proof.Proof.Gen.ReferenceIdeal
import proofs.«130963_j73718818668739_1_alg».proof.Proof.Gen.Pre_finite_inputs
import proofs.«130963_j73718818668739_1_alg».proof.Proof.FiniteInputs
import proofs.«130963_j73718818668739_1_alg».proof.Proof.KernelRun
import proofs.«130963_j73718818668739_1_alg».proof.Proof.KernelValue
import proofs.«130963_j73718818668739_1_alg».proof.Proof.RefRunValue
import Idealize.ShloMosaic.Adequacy
import Idealize.ShloMosaic.Init

set_option maxRecDepth 65536

noncomputable section

namespace Cert.Proof

open Idealize.ShloMosaic Idealize.SL.Sem

/-- The word-level kernel program runs to the end without a fault and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.RunValue.run m ρ)

/-- The ideal pass rewrote nothing: the idealized kernel is the kernel's own text read over the extended reals. -/
theorem preserves : Cert.preserves_Kernel_KernelIdeal := trivial

/-- From memories that agree on the arguments, both idealized programs end with the same result array: the
    reference's last stage of the arguments. The kernel side is the run with its result named, read through the three
    pallas_calls and the host operations between them; the reference side is its run; the float arguments are real
    numbers by the precondition, which is what lets the two groupings of the log-probabilities agree. -/
theorem algebraic : Cert.algebraic_KernelIdeal_ReferenceIdeal := by
  intro m ρ m' ρ' hpre hagree
  refine ⟨fun c => Cert.ReferenceIdeal.Read.val_main_v93 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩)
      (Cert.KernelIdeal.RunValue.run (F := Ideal) m ρ)
    obtain ⟨h0, h2, h3, h4, h5, h6, h7⟩ := Cert.Pre_finite_inputs.Real.isReal_of_finite _ _ _ _ _ _ _ _ (hpre c)
    exact Cert.KernelIdeal.KernelValue.W8_v61 m ρ c h0 h2 h3 h4 h5 h6 h7
  · refine (θ_run Cert.ReferenceIdeal.defs _ _).mono (fun r h c => ⟨(h c).1.trans ?_, (h c).2⟩)
      (Cert.ReferenceIdeal.RunValue.run m' ρ')
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
